-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128 : Shape := ⟨1, ![128]⟩
abbrev S100000 : Shape := ⟨1, ![100000]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S128 .f32) (main_arg2 : FVec F S128 .f32) (main_arg3 : FVec F S128 .f32) (main_arg4 : FVec F S128 .f32) (main_arg5 : FVec F S128 .f32) (main_arg6 : FVec F S128 .f32) (main_arg7 : IVec S100000 32) (main_arg8 : IVec S600000 32) (main_arg9 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S100000x128 : Shape := ⟨2, ![100000, 128]⟩
abbrev S128 : Shape := ⟨1, ![128]⟩
abbrev S100000 : Shape := ⟨1, ![100000]⟩
abbrev S600000 : Shape := ⟨1, ![600000]⟩
abbrev S_ : Shape := ⟨0, ![]⟩
abbrev S1x128 : Shape := ⟨2, ![1, 128]⟩
abbrev S1000 : Shape := ⟨1, ![1000]⟩
abbrev S100000x1 : Shape := ⟨2, ![100000, 1]⟩
abbrev S1000x1 : Shape := ⟨2, ![1000, 1]⟩
abbrev S100000x256 : Shape := ⟨2, ![100000, 256]⟩
abbrev S1000x256 : Shape := ⟨2, ![1000, 256]⟩
abbrev S1000x128 : Shape := ⟨2, ![1000, 128]⟩
abbrev S600000x1 : Shape := ⟨2, ![600000, 1]⟩
abbrev S600000x128 : Shape := ⟨2, ![600000, 128]⟩
abbrev S600000x256 : Shape := ⟨2, ![600000, 256]⟩
abbrev S4x128 : Shape := ⟨2, ![4, 128]⟩
abbrev S4000x128 : Shape := ⟨2, ![4000, 128]⟩
abbrev S4000x256 : Shape := ⟨2, ![4000, 256]⟩
abbrev S4000 : Shape := ⟨1, ![4000]⟩
abbrev S4000x1 : Shape := ⟨2, ![4000, 1]⟩

abbrev nBuf : Space → Nat
  | .hbm => 128
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S100000, .i32⟩
  | .hbm, ⟨8, _⟩ => ⟨S600000, .i32⟩
  | .hbm, ⟨9, _⟩ => ⟨S600000, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S_, .f32⟩
  | .hbm, ⟨14, _⟩ => ⟨S1x128, .f32⟩
  | .hbm, ⟨15, _⟩ => ⟨S1x128, .f32⟩
  | .hbm, ⟨16, _⟩ => ⟨S100000x128, .f32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S_, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S_, .f32⟩
  | .hbm, ⟨26, _⟩ => ⟨S1x128, .f32⟩
  | .hbm, ⟨27, _⟩ => ⟨S1x128, .f32⟩
  | .hbm, ⟨28, _⟩ => ⟨S_, .f32⟩
  | .hbm, ⟨29, _⟩ => ⟨S100000, .f32⟩
  | .hbm, ⟨30, _⟩ => ⟨S_, .f32⟩
  | .hbm, ⟨31, _⟩ => ⟨S1000, .f32⟩
  | .hbm, ⟨32, _⟩ => ⟨S100000x1, .i32⟩
  | .hbm, ⟨33, _⟩ => ⟨S1000, .f32⟩
  | .hbm, ⟨34, _⟩ => ⟨S_, .f32⟩
  | .hbm, ⟨35, _⟩ => ⟨S1000, .f32⟩
  | .hbm, ⟨36, _⟩ => ⟨S1000, .f32⟩
  | .hbm, ⟨37, _⟩ => ⟨S1000x1, .f32⟩
  | .hbm, ⟨38, _⟩ => ⟨S100000x128, .f32⟩
  | .hbm, ⟨39, _⟩ => ⟨S100000x256, .f32⟩
  | .hbm, ⟨40, _⟩ => ⟨S_, .f32⟩
  | .hbm, ⟨41, _⟩ => ⟨S1000x256, .f32⟩
  | .hbm, ⟨42, _⟩ => ⟨S100000x1, .i32⟩
  | .hbm, ⟨43, _⟩ => ⟨S1000x256, .f32⟩
  | .hbm, ⟨44, _⟩ => ⟨S1000x128, .f32⟩
  | .hbm, ⟨45, _⟩ => ⟨S1000x128, .f32⟩
  | .hbm, ⟨46, _⟩ => ⟨S1000x128, .f32⟩
  | .hbm, ⟨47, _⟩ => ⟨S1000x128, .f32⟩
  | .hbm, ⟨48, _⟩ => ⟨S1000x128, .f32⟩
  | .hbm, ⟨49, _⟩ => ⟨S1000x128, .f32⟩
  | .hbm, ⟨50, _⟩ => ⟨S1000x128, .f32⟩
  | .hbm, ⟨51, _⟩ => ⟨S1000x128, .f32⟩
  | .hbm, ⟨52, _⟩ => ⟨S_, .f32⟩
  | .hbm, ⟨53, _⟩ => ⟨S1000x128, .f32⟩
  | .hbm, ⟨54, _⟩ => ⟨S1000x128, .f32⟩
  | .hbm, ⟨55, _⟩ => ⟨S1000x256, .f32⟩
  | .hbm, ⟨56, _⟩ => ⟨S_, .i32⟩
  | .hbm, ⟨57, _⟩ => ⟨S100000, .i32⟩
  | .hbm, ⟨58, _⟩ => ⟨S100000, .i1⟩
  | .hbm, ⟨59, _⟩ => ⟨S_, .i32⟩
  | .hbm, ⟨60, _⟩ => ⟨S100000, .i32⟩
  | .hbm, ⟨61, _⟩ => ⟨S100000, .i32⟩
  | .hbm, ⟨62, _⟩ => ⟨S100000, .i32⟩
  | .hbm, ⟨63, _⟩ => ⟨S100000x1, .i32⟩
  | .hbm, ⟨64, _⟩ => ⟨S100000x256, .f32⟩
  | .hbm, ⟨65, _⟩ => ⟨S_, .i32⟩
  | .hbm, ⟨66, _⟩ => ⟨S600000, .i32⟩
  | .hbm, ⟨67, _⟩ => ⟨S600000, .i1⟩
  | .hbm, ⟨68, _⟩ => ⟨S_, .i32⟩
  | .hbm, ⟨69, _⟩ => ⟨S600000, .i32⟩
  | .hbm, ⟨70, _⟩ => ⟨S600000, .i32⟩
  | .hbm, ⟨71, _⟩ => ⟨S600000, .i32⟩
  | .hbm, ⟨72, _⟩ => ⟨S600000x1, .i32⟩
  | .hbm, ⟨73, _⟩ => ⟨S600000x128, .f32⟩
  | .hbm, ⟨74, _⟩ => ⟨S600000x128, .f32⟩
  | .hbm, ⟨75, _⟩ => ⟨S600000x256, .f32⟩
  | .hbm, ⟨76, _⟩ => ⟨S_, .f32⟩
  | .hbm, ⟨77, _⟩ => ⟨S600000, .f32⟩
  | .hbm, ⟨78, _⟩ => ⟨S_, .f32⟩
  | .hbm, ⟨79, _⟩ => ⟨S100000, .f32⟩
  | .hbm, ⟨80, _⟩ => ⟨S600000x1, .i32⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000x1, .f32⟩
  | .hbm, ⟨86, _⟩ => ⟨S_, .f32⟩
  | .hbm, ⟨87, _⟩ => ⟨S100000x256, .f32⟩
  | .hbm, ⟨88, _⟩ => ⟨S600000x1, .i32⟩
  | .hbm, ⟨89, _⟩ => ⟨S100000x256, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S100000x128, .f32⟩
  | .hbm, ⟨100, _⟩ => ⟨S100000x128, .f32⟩
  | .hbm, ⟨101, _⟩ => ⟨S100000x256, .f32⟩
  | .hbm, ⟨102, _⟩ => ⟨S1x128, .f32⟩
  | .hbm, ⟨103, _⟩ => ⟨S1x128, .f32⟩
  | .hbm, ⟨104, _⟩ => ⟨S1x128, .f32⟩
  | .hbm, ⟨105, _⟩ => ⟨S1x128, .f32⟩
  | .hbm, ⟨106, _⟩ => ⟨S4x128, .f32⟩
  | .hbm, ⟨107, _⟩ => ⟨S_, .f32⟩
  | .hbm, ⟨108, _⟩ => ⟨S128, .f32⟩
  | .hbm, ⟨109, _⟩ => ⟨S_, .f32⟩
  | .hbm, ⟨110, _⟩ => ⟨S128, .f32⟩
  | .hbm, ⟨111, _⟩ => ⟨S128, .f32⟩
  | .hbm, ⟨112, _⟩ => ⟨S1x128, .f32⟩
  | .hbm, ⟨113, _⟩ => ⟨S4x128, .f32⟩
  | .hbm, ⟨114, _⟩ => ⟨S4x128, .f32⟩
  | .hbm, ⟨115, _⟩ => ⟨S4x128, .f32⟩
  | .hbm, ⟨116, _⟩ => ⟨S_, .f32⟩
  | .hbm, ⟨117, _⟩ => ⟨S128, .f32⟩
  | .hbm, ⟨118, _⟩ => ⟨S1x128, .f32⟩
  | .hbm, ⟨119, _⟩ => ⟨S4x128, .f32⟩
  | .hbm, ⟨120, _⟩ => ⟨S4x128, .f32⟩
  | .hbm, ⟨121, _⟩ => ⟨S1x128, .f32⟩
  | .hbm, ⟨122, _⟩ => ⟨S1x128, .f32⟩
  | .hbm, ⟨123, _⟩ => ⟨S1x128, .f32⟩
  | .hbm, ⟨124, _⟩ => ⟨S1x128, .f32⟩
  | .hbm, ⟨125, _⟩ => ⟨S1x128, .f32⟩
  | .hbm, ⟨126, _⟩ => ⟨S1x128, .f32⟩
  | .hbm, ⟨127, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S1x128, .f32⟩
  | .local _ .vmem, ⟨3, _⟩ => ⟨S1x128, .f32⟩
  | .local _ .vmem, ⟨4, _⟩ => ⟨S4000x256, .f32⟩
  | .local _ .vmem, ⟨5, _⟩ => ⟨S4000x256, .f32⟩
  | .local _ .vmem, ⟨6, _⟩ => ⟨S4000x256, .f32⟩
  | .local _ .vmem, ⟨7, _⟩ => ⟨S4000x256, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_cst_4 : Ref sig .tc := ⟨.hbm, 28, rfl⟩
abbrev main_v13 : Ref sig .tc := ⟨.hbm, 29, rfl⟩
abbrev main_cst_5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_6 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_cst_13 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_14 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_15 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_16 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_17 : Ref sig .tc := ⟨.hbm, 107, rfl⟩
abbrev main_v78 : Ref sig .tc := ⟨.hbm, 108, rfl⟩
abbrev main_cst_18 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  reducesTo_S100000x128_S128_d0 : S100000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S_S100000 : S_.BroadcastsInDim S100000 (![] : Fin 0 → Fin S100000.rank)
  bcast_S_S1000 : S_.BroadcastsInDim S1000 (![] : Fin 0 → Fin S1000.rank)
  bcast_S100000_S100000x1_0 : S100000.BroadcastsInDim S100000x1 (![0] : Fin 1 → Fin S100000x1.rank)
  bcast_S1000_S1000x1_0 : S1000.BroadcastsInDim S1000x1 (![0] : Fin 1 → Fin S1000x1.rank)
  concatenates_S100000x128_S100000x128_S100000x256_d1 : Shape.Concatenates [S100000x128, S100000x128] S100000x256 1
  bcast_S_S1000x256 : S_.BroadcastsInDim S1000x256 (![] : Fin 0 → Fin S1000x256.rank)
  slices_S1000x256_S1000x128_0_0 : S1000x256.Slices ![0, 0] S1000x128
  slices_S1000x256_S1000x128_0_128 : S1000x256.Slices ![0, 128] S1000x128
  bcast_S1000x1_S1000x128_0_1 : S1000x1.BroadcastsInDim S1000x128 (![0, 1] : Fin 2 → Fin S1000x128.rank)
  bcast_S_S1000x128 : S_.BroadcastsInDim S1000x128 (![] : Fin 0 → Fin S1000x128.rank)
  concatenates_S1000x128_S1000x128_S1000x256_d1 : Shape.Concatenates [S1000x128, S1000x128] S1000x256 1
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  bcast_S_S100000x256 : S_.BroadcastsInDim S100000x256 (![] : Fin 0 → Fin S100000x256.rank)
  slices_S100000x256_S100000x128_0_0 : S100000x256.Slices ![0, 0] S100000x128
  slices_S100000x256_S100000x128_0_128 : S100000x256.Slices ![0, 128] S100000x128
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  concatenates_S1x128_S1x128_S1x128_S1x128_S4x128_d0 : Shape.Concatenates [S1x128, S1x128, S1x128, S1x128] S4x128 0
  reducesTo_S4x128_S128_d0 : S4x128.ReducesTo [0] S128
  bcast_S_S128 : S_.BroadcastsInDim S128 (![] : Fin 0 → Fin S128.rank)
  bcast_S1x128_S4x128_0_1 : S1x128.BroadcastsInDim S4x128 (![0, 1] : Fin 2 → Fin S4x128.rank)
  slices_S4x128_S1x128_0_0 : S4x128.Slices ![0, 0] S1x128
  slices_S4x128_S1x128_1_0 : S4x128.Slices ![1, 0] S1x128
  slices_S4x128_S1x128_2_0 : S4x128.Slices ![2, 0] S1x128
  slices_S4x128_S1x128_3_0 : S4x128.Slices ![3, 0] S1x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  slices_S4000x256_o0_0_S4000x128 : S4000x256.Slices ![0, 0] S4000x128
  slices_S4000x256_o0_128_S4000x128 : S4000x256.Slices ![0, 128] S4000x128
  reduces_S4000x128_S4000 : S4000x128.Reduces [1] S4000
  shapeCasts_S4000_S4000x1 : S4000.ShapeCasts S4000x1
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  scatter_S1000_S100000x1_S100000_n_0_0_1_wf : ScatterDims.WF S1000 S100000x1 S100000 [] [0] [0] 1
  scatter_S1000x256_S100000x1_S100000x256_1_0_0_1_wf : ScatterDims.WF S1000x256 S100000x1 S100000x256 [1] [0] [0] 1
  gather_S1000x256_S100000x1_S100000x256_1_0_n_n_0_1_1256_wf : GatherDims.WF S1000x256 S100000x1 S100000x256 [1] [0] [] [0] [] 1 ![1, 256]
  gather_S100000x128_S600000x1_S600000x128_1_0_n_n_0_1_1128_wf : GatherDims.WF S100000x128 S600000x1 S600000x128 [1] [0] [] [0] [] 1 ![1, 128]
  scatter_S100000_S600000x1_S600000_n_0_0_1_wf : ScatterDims.WF S100000 S600000x1 S600000 [] [0] [0] 1
  scatter_S100000x256_S600000x1_S600000x256_1_0_0_1_wf : ScatterDims.WF S100000x256 S600000x1 S600000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x256.size a ≤ S100000x256.size a
  hwx0_3 : ∀ i : grid0.Coords, EltTy.bits .f32 = 32 ∨ (Rect.block (s := S100000x256) S4000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x256.size a ≤ S100000x256.size a
  hwx0_4 : ∀ i : grid0.Coords, EltTy.bits .f32 = 32 ∨ (Rect.block (s := S100000x256) S4000x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S100000x128.size a
  hwx0_11 : ∀ i : grid0.Coords, EltTy.bits .f32 = 32 ∨ (Rect.block (s := S100000x128) S4000x128.size (cc0_transform_11 i) (hinb0_11 i)).WholeWords (EltTy.packing .f32)

variable [Facts₀]

def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def scatter_S1000x256_S100000x1_S100000x256_1_0_0_1 : ScatterDims S1000x256 S100000x1 S100000x256 where
  updateWindowDims := [1]
  insertedWindowDims := [0]
  scatterDimsToOperandDims := [0]
  indexVectorDim := 1
  wf := scatter_S1000x256_S100000x1_S100000x256_1_0_0_1_wf
def gather_S1000x256_S100000x1_S100000x256_1_0_n_n_0_1_1256 : GatherDims S1000x256 S100000x1 S100000x256 where
  offsetDims := [1]
  collapsedSliceDims := [0]
  operandBatchingDims := []
  startIndicesBatchingDims := []
  startIndexMap := [0]
  indexVectorDim := 1
  sliceSizes := ![1, 256]
  wf := gather_S1000x256_S100000x1_S100000x256_1_0_n_n_0_1_1256_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S4000x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v72) S4000x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v89) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v90) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v91) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v92) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v93) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v94) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v95) S4000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x128 : Shape := ⟨2, ![100000, 128]⟩
abbrev S128 : Shape := ⟨1, ![128]⟩
abbrev S100000 : Shape := ⟨1, ![100000]⟩
abbrev S600000 : Shape := ⟨1, ![600000]⟩
abbrev S_ : Shape := ⟨0, ![]⟩
abbrev S1x128 : Shape := ⟨2, ![1, 128]⟩
abbrev S1000 : Shape := ⟨1, ![1000]⟩
abbrev S100000x1 : Shape := ⟨2, ![100000, 1]⟩
abbrev S1000x1 : Shape := ⟨2, ![1000, 1]⟩
abbrev S1000x128 : Shape := ⟨2, ![1000, 128]⟩
abbrev S600000x1 : Shape := ⟨2, ![600000, 1]⟩
abbrev S600000x128 : Shape := ⟨2, ![600000, 128]⟩
abbrev S4x128 : Shape := ⟨2, ![4, 128]⟩

abbrev nBuf : Space → Nat
  | .hbm => 199
  | .vmem => 0
  | .smem => 0
  | _ => 0

abbrev hbmTy0_0 (i : Nat) : BufTy := match i % 128 with
  | 0 => ⟨S100000x128, .f32⟩
  | 1 => ⟨S128, .f32⟩
  | 2 => ⟨S128, .f32⟩
  | 3 => ⟨S128, .f32⟩
  | 4 => ⟨S128, .f32⟩
  | 5 => ⟨S128, .f32⟩
  | 6 => ⟨S128, .f32⟩
  | 7 => ⟨S100000, .i32⟩
  | 8 => ⟨S600000, .i32⟩
  | 9 => ⟨S600000, .i32⟩
  | 10 => ⟨S_, .f32⟩
  | 11 => ⟨S128, .f32⟩
  | 12 => ⟨S1x128, .f32⟩
  | 13 => ⟨S_, .f32⟩
  | 14 => ⟨S1x128, .f32⟩
  | 15 => ⟨S1x128, .f32⟩
  | 16 => ⟨S100000x128, .f32⟩
  | 17 => ⟨S_, .f32⟩
  | 18 => ⟨S128, .f32⟩
  | 19 => ⟨S1x128, .f32⟩
  | 20 => ⟨S_, .f32⟩
  | 21 => ⟨S1x128, .f32⟩
  | 22 => ⟨S1x128, .f32⟩
  | 23 => ⟨S1x128, .f32⟩
  | 24 => ⟨S1x128, .f32⟩
  | 25 => ⟨S100000x128, .f32⟩
  | 26 => ⟨S100000x128, .f32⟩
  | 27 => ⟨S_, .f32⟩
  | 28 => ⟨S1x128, .f32⟩
  | 29 => ⟨S1x128, .f32⟩
  | 30 => ⟨S1x128, .f32⟩
  | 31 => ⟨S100000x128, .f32⟩
  | 32 => ⟨S100000x128, .f32⟩
  | 33 => ⟨S_, .f32⟩
  | 34 => ⟨S100000, .f32⟩
  | 35 => ⟨S_, .f32⟩
  | 36 => ⟨S1000, .f32⟩
  | 37 => ⟨S100000x1, .i32⟩
  | 38 => ⟨S1000, .f32⟩
  | 39 => ⟨S_, .f32⟩
  | 40 => ⟨S1000, .f32⟩
  | 41 => ⟨S1000, .f32⟩
  | 42 => ⟨S1000x1, .f32⟩
  | 43 => ⟨S_, .f32⟩
  | 44 => ⟨S1000x128, .f32⟩
  | 45 => ⟨S100000x1, .i32⟩
  | 46 => ⟨S1000x128, .f32⟩
  | 47 => ⟨S100000x128, .f32⟩
  | 48 => ⟨S_, .f32⟩
  | 49 => ⟨S1000x128, .f32⟩
  | 50 => ⟨S100000x1, .i32⟩
  | 51 => ⟨S1000x128, .f32⟩
  | 52 => ⟨S1000x128, .f32⟩
  | 53 => ⟨S1000x128, .f32⟩
  | 54 => ⟨S1000x128, .f32⟩
  | 55 => ⟨S1000x128, .f32⟩
  | 56 => ⟨S1000x128, .f32⟩
  | 57 => ⟨S1000x128, .f32⟩
  | 58 => ⟨S_, .f32⟩
  | 59 => ⟨S1000x128, .f32⟩
  | 60 => ⟨S1000x128, .f32⟩
  | 61 => ⟨S_, .i32⟩
  | 62 => ⟨S100000, .i32⟩
  | 63 => ⟨S100000, .i1⟩
  | 64 => ⟨S_, .i32⟩
  | 65 => ⟨S100000, .i32⟩
  | 66 => ⟨S100000, .i32⟩
  | 67 => ⟨S100000, .i32⟩
  | 68 => ⟨S100000x1, .i32⟩
  | 69 => ⟨S100000x128, .f32⟩
  | 70 => ⟨S100000x128, .f32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S100000x128, .f32⟩
  | 80 => ⟨S_, .f32⟩
  | 81 => ⟨S100000x128, .f32⟩
  | 82 => ⟨S100000x128, .f32⟩
  | 83 => ⟨S100000x128, .f32⟩
  | 84 => ⟨S100000x128, .f32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S600000x128, .f32⟩
  | 94 => ⟨S_, .f32⟩
  | 95 => ⟨S600000, .f32⟩
  | 96 => ⟨S_, .f32⟩
  | 97 => ⟨S100000, .f32⟩
  | 98 => ⟨S600000x1, .i32⟩
  | 99 => ⟨S100000, .f32⟩
  | 100 => ⟨S_, .f32⟩
  | 101 => ⟨S100000, .f32⟩
  | 102 => ⟨S100000, .f32⟩
  | 103 => ⟨S100000x1, .f32⟩
  | 104 => ⟨S_, .f32⟩
  | 105 => ⟨S100000x128, .f32⟩
  | 106 => ⟨S600000x1, .i32⟩
  | 107 => ⟨S100000x128, .f32⟩
  | 108 => ⟨S600000x128, .f32⟩
  | 109 => ⟨S_, .f32⟩
  | 110 => ⟨S100000x128, .f32⟩
  | 111 => ⟨S600000x1, .i32⟩
  | 112 => ⟨S100000x128, .f32⟩
  | 113 => ⟨S100000x128, .f32⟩
  | 114 => ⟨S100000x128, .f32⟩
  | 115 => ⟨S100000x128, .f32⟩
  | 116 => ⟨S100000x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S100000, .f32⟩
  | 2 => ⟨S100000x1, .f32⟩
  | 3 => ⟨S_, .f32⟩
  | 4 => ⟨S100000x1, .f32⟩
  | 5 => ⟨S100000x1, .f32⟩
  | 6 => ⟨S100000x128, .f32⟩
  | 7 => ⟨S100000x128, .f32⟩
  | 8 => ⟨S100000x128, .f32⟩
  | 9 => ⟨S_, .f32⟩
  | 10 => ⟨S100000, .f32⟩
  | 11 => ⟨S100000x1, .f32⟩
  | 12 => ⟨S_, .f32⟩
  | 13 => ⟨S100000x1, .f32⟩
  | 14 => ⟨S100000x1, .f32⟩
  | 15 => ⟨S100000x128, .f32⟩
  | 16 => ⟨S100000x128, .f32⟩
  | 17 => ⟨S_, .f32⟩
  | 18 => ⟨S100000x1, .f32⟩
  | 19 => ⟨S100000x1, .f32⟩
  | 20 => ⟨S100000x1, .f32⟩
  | 21 => ⟨S100000x128, .f32⟩
  | 22 => ⟨S100000x128, .f32⟩
  | 23 => ⟨S1x128, .f32⟩
  | 24 => ⟨S1x128, .f32⟩
  | 25 => ⟨S1x128, .f32⟩
  | 26 => ⟨S1x128, .f32⟩
  | 27 => ⟨S4x128, .f32⟩
  | 28 => ⟨S_, .f32⟩
  | 29 => ⟨S128, .f32⟩
  | 30 => ⟨S_, .f32⟩
  | 31 => ⟨S128, .f32⟩
  | 32 => ⟨S128, .f32⟩
  | 33 => ⟨S1x128, .f32⟩
  | 34 => ⟨S4x128, .f32⟩
  | 35 => ⟨S4x128, .f32⟩
  | 36 => ⟨S4x128, .f32⟩
  | 37 => ⟨S_, .f32⟩
  | 38 => ⟨S128, .f32⟩
  | 39 => ⟨S1x128, .f32⟩
  | 40 => ⟨S4x128, .f32⟩
  | 41 => ⟨S4x128, .f32⟩
  | 42 => ⟨S1x128, .f32⟩
  | 43 => ⟨S128, .f32⟩
  | 44 => ⟨S1x128, .f32⟩
  | 45 => ⟨S100000x128, .f32⟩
  | 46 => ⟨S100000x128, .f32⟩
  | 47 => ⟨S1x128, .f32⟩
  | 48 => ⟨S128, .f32⟩
  | 49 => ⟨S1x128, .f32⟩
  | 50 => ⟨S100000x128, .f32⟩
  | 51 => ⟨S100000x128, .f32⟩
  | 52 => ⟨S100000x128, .f32⟩
  | 53 => ⟨S1x128, .f32⟩
  | 54 => ⟨S128, .f32⟩
  | 55 => ⟨S1x128, .f32⟩
  | 56 => ⟨S100000x128, .f32⟩
  | 57 => ⟨S100000x128, .f32⟩
  | 58 => ⟨S100000x128, .f32⟩
  | 59 => ⟨S1x128, .f32⟩
  | 60 => ⟨S128, .f32⟩
  | 61 => ⟨S1x128, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_c : Ref sig .tc := ⟨.hbm, 61, rfl⟩
abbrev main_v40 : Ref sig .tc := ⟨.hbm, 62, rfl⟩
abbrev main_v41 : Ref sig .tc := ⟨.hbm, 63, rfl⟩
abbrev main_c_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_11 : Ref sig .tc := ⟨.hbm, 71, rfl⟩
abbrev main_v48 : Ref sig .tc := ⟨.hbm, 72, rfl⟩
abbrev main_v49 : Ref sig .tc := ⟨.hbm, 73, rfl⟩
abbrev main_c_12 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_14 : Ref sig .tc := ⟨.hbm, 85, rfl⟩
abbrev main_v59 : Ref sig .tc := ⟨.hbm, 86, rfl⟩
abbrev main_v60 : Ref sig .tc := ⟨.hbm, 87, rfl⟩
abbrev main_c_15 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_16 : Ref sig .tc := ⟨.hbm, 94, rfl⟩
abbrev main_v66 : Ref sig .tc := ⟨.hbm, 95, rfl⟩
abbrev main_cst_17 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_18 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_19 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_20 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_21 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_22 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_23 : Ref sig .tc := ⟨.hbm, 128, rfl⟩
abbrev main_v93 : Ref sig .tc := ⟨.hbm, 129, rfl⟩
abbrev main_v94 : Ref sig .tc := ⟨.hbm, 130, rfl⟩
abbrev main_cst_24 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_25 : Ref sig .tc := ⟨.hbm, 137, rfl⟩
abbrev main_v100 : Ref sig .tc := ⟨.hbm, 138, rfl⟩
abbrev main_v101 : Ref sig .tc := ⟨.hbm, 139, rfl⟩
abbrev main_cst_26 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_27 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_28 : Ref sig .tc := ⟨.hbm, 156, rfl⟩
abbrev main_v116 : Ref sig .tc := ⟨.hbm, 157, rfl⟩
abbrev main_cst_29 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_30 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩

abbrev nD : Nat := 1
abbrev τ : Topo := Topo.v7x

variable {F : FTy → Type} [FloatOps F]

class Facts₀ : Prop where
  reducesTo_S100000x128_S128_d0 : S100000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  bcast_S_S100000 : S_.BroadcastsInDim S100000 (![] : Fin 0 → Fin S100000.rank)
  bcast_S_S1000 : S_.BroadcastsInDim S1000 (![] : Fin 0 → Fin S1000.rank)
  bcast_S100000_S100000x1_0 : S100000.BroadcastsInDim S100000x1 (![0] : Fin 1 → Fin S100000x1.rank)
  bcast_S1000_S1000x1_0 : S1000.BroadcastsInDim S1000x1 (![0] : Fin 1 → Fin S1000x1.rank)
  bcast_S_S1000x128 : S_.BroadcastsInDim S1000x128 (![] : Fin 0 → Fin S1000x128.rank)
  bcast_S1000x1_S1000x128_0_1 : S1000x1.BroadcastsInDim S1000x128 (![0, 1] : Fin 2 → Fin S1000x128.rank)
  bcast_S_S100000x128 : S_.BroadcastsInDim S100000x128 (![] : Fin 0 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S100000x1_S100000x128_0_1 : S100000x1.BroadcastsInDim S100000x128 (![0, 1] : Fin 2 → Fin S100000x128.rank)
  reducesTo_S100000x128_S100000_d1 : S100000x128.ReducesTo [1] S100000
  bcast_S_S100000x1 : S_.BroadcastsInDim S100000x1 (![] : Fin 0 → Fin S100000x1.rank)
  concatenates_S1x128_S1x128_S1x128_S1x128_S4x128_d0 : Shape.Concatenates [S1x128, S1x128, S1x128, S1x128] S4x128 0
  reducesTo_S4x128_S128_d0 : S4x128.ReducesTo [0] S128
  bcast_S_S128 : S_.BroadcastsInDim S128 (![] : Fin 0 → Fin S128.rank)
  bcast_S1x128_S4x128_0_1 : S1x128.BroadcastsInDim S4x128 (![0, 1] : Fin 2 → Fin S4x128.rank)
  slices_S4x128_S1x128_0_0 : S4x128.Slices ![0, 0] S1x128
  shapeCasts_S1x128_S128 : S1x128.ShapeCasts S128
  slices_S4x128_S1x128_1_0 : S4x128.Slices ![1, 0] S1x128
  slices_S4x128_S1x128_2_0 : S4x128.Slices ![2, 0] S1x128
  slices_S4x128_S1x128_3_0 : S4x128.Slices ![3, 0] S1x128
  scatter_S1000_S100000x1_S100000_n_0_0_1_wf : ScatterDims.WF S1000 S100000x1 S100000 [] [0] [0] 1
  scatter_S1000x128_S100000x1_S100000x128_1_0_0_1_wf : ScatterDims.WF S1000x128 S100000x1 S100000x128 [1] [0] [0] 1
  gather_S1000x128_S100000x1_S100000x128_1_0_n_n_0_1_1128_wf : GatherDims.WF S1000x128 S100000x1 S100000x128 [1] [0] [] [0] [] 1 ![1, 128]
  gather_S100000x128_S600000x1_S600000x128_1_0_n_n_0_1_1128_wf : GatherDims.WF S100000x128 S600000x1 S600000x128 [1] [0] [] [0] [] 1 ![1, 128]
  scatter_S100000_S600000x1_S600000_n_0_0_1_wf : ScatterDims.WF S100000 S600000x1 S600000 [] [0] [0] 1
  scatter_S100000x128_S600000x1_S600000x128_1_0_0_1_wf : ScatterDims.WF S100000x128 S600000x1 S600000x128 [1] [0] [0] 1

variable [Facts₀]

def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def gather_S1000x128_S100000x1_S100000x128_1_0_n_n_0_1_1128 : GatherDims S1000x128 S100000x1 S100000x128 where
  offsetDims := [1]
  collapsedSliceDims := [0]
  operandBatchingDims := []
  startIndicesBatchingDims := []
  startIndexMap := [0]
  indexVectorDim := 1
  sliceSizes := ![1, 128]
  wf := gather_S1000x128_S100000x1_S100000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.WordEntry.lean ====
import proofs.«153265_j89558658056883_2_alg».proof.Proof.Gen.Kernel.Launch
import proofs.«153265_j89558658056883_2_alg».proof.Proof.Gen.Kernel.Skeleton
import proofs.«153265_j89558658056883_2_alg».proof.Proof.Gen.Kernel.Points
import Idealize.ShloMosaic.Lib.Pipeline.FrameBody
import Idealize.ShloMosaic.Lib.Ring
import Idealize.ShloMosaic.Lib.Tactic

/-!
# The buffers as the region finds them

`@main` is one straight line of host operations followed by one region on a grid of 25 points, and nothing
after it. This module states what every TensorCore buffer holds when the region is entered (`V`: the fold of
the host operations over the launch memory), proves that `@main` is that line followed by the region
(`hmain`), that none of the ten argument arrays is written by the line (`V_main_argK`), names the block of
each window's array at a grid point (`iblk`), shows that an input window's staging buffer holds exactly that
block whenever the body runs (`before0_W_of`), and derives the frame statement from any run that ends with
the region's arrays at what the pipeline computes and every other buffer as the region found it (`frame_of`).
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch memory after the 117 host operations. -/
abbrev V (c : Dev nD) (b : Ref sig .tc) : Buf (Elt F) ((c : Thread nD τ).loc b) := StableHlo.after hostOps0 (fun b => m (c, b)) b

set_option maxHeartbeats 4000000 in
/-- No host operation allocates a buffer. -/
theorem hostOps0_fresh : (hostOps0 : List (HloOp τ sig (Elt F))).Forall fun op => op.fresh = ∅ := by
  simp only [List.Forall]; repeat' constructor

/-- `@main` is the host operations then the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000 in
/-- No host operation writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 4000000 in
/-- No host operation writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 4000000 in
/-- No host operation writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 4000000 in
/-- No host operation writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 4000000 in
/-- No host operation writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 4000000 in
/-- No host operation writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 4000000 in
/-- No host operation writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 4000000 in
/-- No host operation writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 4000000 in
/-- No host operation writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 4000000 in
/-- No host operation writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there
    or not (where it did not, the block index has not moved since the last fetch), for any proof data whose array is
    `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there
    or not (where it did not, the block index has not moved since the last fetch), for any proof data whose array is
    `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there
    or not (where it did not, the block index has not moved since the last fetch), for any proof data whose array is
    `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there
    or not (where it did not, the block index has not moved since the last fetch), for any proof data whose array is
    `V`'s and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the pipeline fetched it there
    or not (where it did not, the block index has not moved since the last fetch), for any proof data whose array is
    `V`'s and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether the pipeline fetched it there
    or not (where it did not, the block index has not moved since the last fetch), for any proof data whose array is
    `V`'s and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, whether the pipeline fetched it there
    or not (where it did not, the block index has not moved since the last fetch), for any proof data whose array is
    `V`'s and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, whether the pipeline fetched it there
    or not (where it did not, the block index has not moved since the last fetch), for any proof data whose array is
    `V`'s and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, whether the pipeline fetched it there
    or not (where it did not, the block index has not moved since the last fetch), for any proof data whose array is
    `V`'s and whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, whether the pipeline fetched it there
    or not (where it did not, the block index has not moved since the last fetch), for any proof data whose array is
    `V`'s and whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, whether the pipeline fetched it there
    or not (where it did not, the block index has not moved since the last fetch), for any proof data whose array is
    `V`'s and whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a frame run -/

/-- For any proof data whose arrays are the region-entry contents, a run that ends with every array of the region at
    what the pipeline computes from the proof data and every other unscoped buffer as the region found it leaves the ten
    argument arrays unchanged: `main_arg0` is the array of input window 0, which the pipeline only reads; the other
    nine are staged by no window; and no host operation writes any of the ten. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

end Cert.Kernel.Hand

end
-- ==== Proof.WordBody.lean ====
import proofs.«153265_j89558658056883_2_alg».proof.Proof.Gen.Kernel.Launch
import proofs.«153265_j89558658056883_2_alg».proof.Proof.Gen.Kernel.Skeleton
import proofs.«153265_j89558658056883_2_alg».proof.Proof.Gen.Kernel.Points
import Idealize.ShloMosaic.Lib.Pipeline.FrameBody
import Idealize.ShloMosaic.Lib.Ring
import Idealize.ShloMosaic.Lib.Tactic

/-!
# The kernel body on its twelve staging buffers

At every grid point the body reads each of its eleven input buffers whole (a 4000×128 block of `x`, two 4000×256
blocks, eight 1×128 rows), reads the output buffer once without using what it read, and overwrites the whole
4000×128 output buffer with one value computed from the eleven reads. So what the output buffer holds afterwards
is a function of the input buffers' contents alone (`out0_11`): the one store's payload laid over the buffer. This
module names that function and proves the body's triple: from the inputs at any contents and the output at
anything, the body ends with the inputs as they were and the output at `out0_11` of the inputs.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

/-- The whole of a 4000×128 buffer. -/
abbrev rBlock : Rect S4000x128 := Rect.unit (s := S4000x128) ![0, 0] S4000x128.size inb_S4000x128_S4000x128_0_0
/-- The whole of a 4000×256 buffer. -/
abbrev rWide : Rect S4000x256 := Rect.unit (s := S4000x256) ![0, 0] S4000x256.size inb_S4000x256_S4000x256_0_0
/-- The whole of a 1×128 buffer. -/
abbrev rRow : Rect S1x128 := Rect.unit (s := S1x128) ![0, 0] S1x128.size inb_S1x128_S1x128_0_0

/-! ## What the body leaves in the output buffer -/

/-- Window 11's staging buffer after the body, from the contents `x0 … x10` of the eleven input buffers (in window
    order): its one store, whose payload is the body's arithmetic over the eleven whole-buffer loads. -/
def out0_11 (x0 : Vec F S4000x128 .f32) (x1 : Vec F S1x128 .f32) (x2 : Vec F S1x128 .f32) (x3 : Vec F S4000x256 .f32) (x4 : Vec F S4000x256 .f32) (x5 : Vec F S1x128 .f32) (x6 : Vec F S1x128 .f32) (x7 : Vec F S1x128 .f32) (x8 : Vec F S1x128 .f32) (x9 : Vec F S1x128 .f32) (x10 : Vec F S1x128 .f32) : Vec F S4000x128 .f32 :=
  View.canon [⟨rBlock, k0_pay1 (View.ld x0 rBlock) (k0_pay3 (View.ld x3 rWide)) (k0_pay4 (View.ld x3 rWide)) (k0_pay6 (View.ld x4 rWide)) (k0_pay7 (View.ld x4 rWide))
    (k0_pay8 (View.ld x5 rRow)) (k0_pay9 (View.ld x6 rRow)) (k0_pay10 (View.ld x7 rRow)) (k0_pay11 (View.ld x0 rBlock) (View.ld x8 rRow))
    (View.ld x1 rRow) (View.ld x2 rRow) (View.ld x9 rRow) (View.ld x10 rRow)⟩]

/-- The one store is of the whole buffer, so it covers it. -/
theorem cover0_11 (p0 : Vec F S4000x128 .f32) (y : S4000x128.Idx) :
    ∃ pc ∈ ([⟨rBlock, p0⟩] : List (View.Piece (Elt F) S4000x128 .f32)), y ∈ pc.1.set :=
  View.cover_of_tiled [⟨rBlock, p0⟩] S4000x128.size (by rfl) y

/-! ## The body's triple -/

set_option maxHeartbeats 4000000 in
/-- The kernel body on whole staging memrefs, the inputs' at contents `xW` and the output's at anything, runs to the
    continuation holding the inputs' as they were and the output's at `out0_11` of the inputs'. -/
theorem sound_kernel (c : Dev nD) (E : Set ℕ) (i : grid0.Coords) (arg0 : Memref sig .tc .vmem S4000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S4000x256 .f32) (harg3 : arg3.IsWhole) (arg4 : Memref sig .tc .vmem S4000x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S4000x128 .f32) (harg11 : arg11.IsWhole)
    (x0 : Vec F S4000x128 .f32) (x1 : Vec F S1x128 .f32) (x2 : Vec F S1x128 .f32) (x3 : Vec F S4000x256 .f32) (x4 : Vec F S4000x256 .f32) (x5 : Vec F S1x128 .f32) (x6 : Vec F S1x128 .f32) (x7 : Vec F S1x128 .f32) (x8 : Vec F S1x128 .f32) (x9 : Vec F S1x128 .f32) (x10 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (out0_11 x0 x1 x2 x3 x4 x5 x6 x7 x8 x9 x10)) -∗ K ⟨⟩))
      ⊢ wp frame (wpE (defs₀ (F := F)) Variants.none c none) E (cc0__combine_kernel i arg0 harg0 arg1 harg1 arg2 harg2 arg3 harg3 arg4 harg4 arg5 harg5 arg6 harg6 arg7 harg7 arg8 harg8 arg9 harg9 arg10 harg10 arg11 harg11) K := by
  simp only [cc0__combine_kernel_eq_skeleton]; unfold cc0__combine_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover0_11 _)

end Cert.Kernel.Hand

end
-- ==== Proof.WordRun.lean ====
import proofs.«153265_j89558658056883_2_alg».proof.Proof.WordEntry
import proofs.«153265_j89558658056883_2_alg».proof.Proof.WordBody

/-!
# The run of @main and the frame

The proof data of the one pipeline: every array at what the region finds (`V`); after the body at a grid point each
input buffer still at its block and the output buffer at `out0_11` of the eleven input blocks; the region invariant
the scoped rest and the generator register, which the body neither reads nor writes. With the body's triple at every
point this gives the run of `@main`: it terminates without fault, the output array ends at the blocks the body
wrote back point by point, every other array of the region and every other buffer ends as the region found it — and
hence the ten argument arrays end as launched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them; after the body at point `t`
    each input's buffer at its block and the output's at `out0_11` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
/-- The body at any point: the inputs' memrefs hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, from any memory with zero counters: every weakly fair execution of @main on the TensorCores
    terminates, and every final state has every array of the pipeline at what the pipeline computes from the proof data
    — the output array at the blocks written back point by point, each `out0_11` of the input blocks there — and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves its ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Hand

end
-- ==== Proof.IdealEntry.lean ====
import proofs.«153265_j89558658056883_2_alg».proof.Proof.Gen.KernelIdeal.Launch
import proofs.«153265_j89558658056883_2_alg».proof.Proof.Gen.KernelIdeal.Skeleton
import proofs.«153265_j89558658056883_2_alg».proof.Proof.Gen.KernelIdeal.Points
import Idealize.ShloMosaic.Lib.Pipeline.FrameBody
import Idealize.ShloMosaic.Lib.Ring
import Idealize.ShloMosaic.Lib.Tactic

/-!
# The buffers as the region finds them

`@main` is one straight line of host operations followed by one region on a grid of 25 points, and nothing
after it. This module states what every TensorCore buffer holds when the region is entered (`V`: the fold of
the host operations over the launch memory), proves that `@main` is that line followed by the region
(`hmain`), that none of the ten argument arrays is written by the line (`V_main_argK`), names the block of
each window's array at a grid point (`iblk`), shows that an input window's staging buffer holds exactly that
block whenever the body runs (`before0_W_of`), and derives the frame statement from any run that ends with
the region's arrays at what the pipeline computes and every other buffer as the region found it (`frame_of`).
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch memory after the 117 host operations. -/
abbrev V (c : Dev nD) (b : Ref sig .tc) : Buf (Elt F) ((c : Thread nD τ).loc b) := StableHlo.after hostOps0 (fun b => m (c, b)) b

set_option maxHeartbeats 4000000 in
/-- No host operation allocates a buffer. -/
theorem hostOps0_fresh : (hostOps0 : List (HloOp τ sig (Elt F))).Forall fun op => op.fresh = ∅ := by
  simp only [List.Forall]; repeat' constructor

/-- `@main` is the host operations then the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000 in
/-- No host operation writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 4000000 in
/-- No host operation writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 4000000 in
/-- No host operation writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 4000000 in
/-- No host operation writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 4000000 in
/-- No host operation writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 4000000 in
/-- No host operation writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 4000000 in
/-- No host operation writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 4000000 in
/-- No host operation writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 4000000 in
/-- No host operation writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 4000000 in
/-- No host operation writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there
    or not (where it did not, the block index has not moved since the last fetch), for any proof data whose array is
    `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there
    or not (where it did not, the block index has not moved since the last fetch), for any proof data whose array is
    `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there
    or not (where it did not, the block index has not moved since the last fetch), for any proof data whose array is
    `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there
    or not (where it did not, the block index has not moved since the last fetch), for any proof data whose array is
    `V`'s and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the pipeline fetched it there
    or not (where it did not, the block index has not moved since the last fetch), for any proof data whose array is
    `V`'s and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether the pipeline fetched it there
    or not (where it did not, the block index has not moved since the last fetch), for any proof data whose array is
    `V`'s and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, whether the pipeline fetched it there
    or not (where it did not, the block index has not moved since the last fetch), for any proof data whose array is
    `V`'s and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, whether the pipeline fetched it there
    or not (where it did not, the block index has not moved since the last fetch), for any proof data whose array is
    `V`'s and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, whether the pipeline fetched it there
    or not (where it did not, the block index has not moved since the last fetch), for any proof data whose array is
    `V`'s and whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, whether the pipeline fetched it there
    or not (where it did not, the block index has not moved since the last fetch), for any proof data whose array is
    `V`'s and whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, whether the pipeline fetched it there
    or not (where it did not, the block index has not moved since the last fetch), for any proof data whose array is
    `V`'s and whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a frame run -/

/-- For any proof data whose arrays are the region-entry contents, a run that ends with every array of the region at
    what the pipeline computes from the proof data and every other unscoped buffer as the region found it leaves the ten
    argument arrays unchanged: `main_arg0` is the array of input window 0, which the pipeline only reads; the other
    nine are staged by no window; and no host operation writes any of the ten. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

end Cert.KernelIdeal.Hand

end
-- ==== Proof.IdealBody.lean ====
import proofs.«153265_j89558658056883_2_alg».proof.Proof.Gen.KernelIdeal.Launch
import proofs.«153265_j89558658056883_2_alg».proof.Proof.Gen.KernelIdeal.Skeleton
import proofs.«153265_j89558658056883_2_alg».proof.Proof.Gen.KernelIdeal.Points
import Idealize.ShloMosaic.Lib.Pipeline.FrameBody
import Idealize.ShloMosaic.Lib.Ring
import Idealize.ShloMosaic.Lib.Tactic

/-!
# The kernel body on its twelve staging buffers

At every grid point the body reads each of its eleven input buffers whole (a 4000×128 block of `x`, two 4000×256
blocks, eight 1×128 rows), reads the output buffer once without using what it read, and overwrites the whole
4000×128 output buffer with one value computed from the eleven reads. So what the output buffer holds afterwards
is a function of the input buffers' contents alone (`out0_11`): the one store's payload laid over the buffer. This
module names that function and proves the body's triple: from the inputs at any contents and the output at
anything, the body ends with the inputs as they were and the output at `out0_11` of the inputs.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

/-- The whole of a 4000×128 buffer. -/
abbrev rBlock : Rect S4000x128 := Rect.unit (s := S4000x128) ![0, 0] S4000x128.size inb_S4000x128_S4000x128_0_0
/-- The whole of a 4000×256 buffer. -/
abbrev rWide : Rect S4000x256 := Rect.unit (s := S4000x256) ![0, 0] S4000x256.size inb_S4000x256_S4000x256_0_0
/-- The whole of a 1×128 buffer. -/
abbrev rRow : Rect S1x128 := Rect.unit (s := S1x128) ![0, 0] S1x128.size inb_S1x128_S1x128_0_0

/-! ## What the body leaves in the output buffer -/

/-- Window 11's staging buffer after the body, from the contents `x0 … x10` of the eleven input buffers (in window
    order): its one store, whose payload is the body's arithmetic over the eleven whole-buffer loads. -/
def out0_11 (x0 : Vec F S4000x128 .f32) (x1 : Vec F S1x128 .f32) (x2 : Vec F S1x128 .f32) (x3 : Vec F S4000x256 .f32) (x4 : Vec F S4000x256 .f32) (x5 : Vec F S1x128 .f32) (x6 : Vec F S1x128 .f32) (x7 : Vec F S1x128 .f32) (x8 : Vec F S1x128 .f32) (x9 : Vec F S1x128 .f32) (x10 : Vec F S1x128 .f32) : Vec F S4000x128 .f32 :=
  View.canon [⟨rBlock, k0_pay1 (View.ld x0 rBlock) (k0_pay3 (View.ld x3 rWide)) (k0_pay4 (View.ld x3 rWide)) (k0_pay6 (View.ld x4 rWide)) (k0_pay7 (View.ld x4 rWide))
    (k0_pay8 (View.ld x5 rRow)) (k0_pay9 (View.ld x6 rRow)) (k0_pay10 (View.ld x7 rRow)) (k0_pay11 (View.ld x0 rBlock) (View.ld x8 rRow))
    (View.ld x1 rRow) (View.ld x2 rRow) (View.ld x9 rRow) (View.ld x10 rRow)⟩]

/-- The one store is of the whole buffer, so it covers it. -/
theorem cover0_11 (p0 : Vec F S4000x128 .f32) (y : S4000x128.Idx) :
    ∃ pc ∈ ([⟨rBlock, p0⟩] : List (View.Piece (Elt F) S4000x128 .f32)), y ∈ pc.1.set :=
  View.cover_of_tiled [⟨rBlock, p0⟩] S4000x128.size (by rfl) y

/-! ## The body's triple -/

set_option maxHeartbeats 4000000 in
/-- The kernel body on whole staging memrefs, the inputs' at contents `xW` and the output's at anything, runs to the
    continuation holding the inputs' as they were and the output's at `out0_11` of the inputs'. -/
theorem sound_kernel (c : Dev nD) (E : Set ℕ) (i : grid0.Coords) (arg0 : Memref sig .tc .vmem S4000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S4000x256 .f32) (harg3 : arg3.IsWhole) (arg4 : Memref sig .tc .vmem S4000x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S4000x128 .f32) (harg11 : arg11.IsWhole)
    (x0 : Vec F S4000x128 .f32) (x1 : Vec F S1x128 .f32) (x2 : Vec F S1x128 .f32) (x3 : Vec F S4000x256 .f32) (x4 : Vec F S4000x256 .f32) (x5 : Vec F S1x128 .f32) (x6 : Vec F S1x128 .f32) (x7 : Vec F S1x128 .f32) (x8 : Vec F S1x128 .f32) (x9 : Vec F S1x128 .f32) (x10 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (out0_11 x0 x1 x2 x3 x4 x5 x6 x7 x8 x9 x10)) -∗ K ⟨⟩))
      ⊢ wp frame (wpE (defs₀ (F := F)) Variants.none c none) E (cc0__combine_kernel i arg0 harg0 arg1 harg1 arg2 harg2 arg3 harg3 arg4 harg4 arg5 harg5 arg6 harg6 arg7 harg7 arg8 harg8 arg9 harg9 arg10 harg10 arg11 harg11) K := by
  simp only [cc0__combine_kernel_eq_skeleton]; unfold cc0__combine_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover0_11 _)

end Cert.KernelIdeal.Hand

end
-- ==== Proof.IdealRun.lean ====
import proofs.«153265_j89558658056883_2_alg».proof.Proof.IdealEntry
import proofs.«153265_j89558658056883_2_alg».proof.Proof.IdealBody

/-!
# The run of @main and the frame

The proof data of the one pipeline: every array at what the region finds (`V`); after the body at a grid point each
input buffer still at its block and the output buffer at `out0_11` of the eleven input blocks; the region invariant
the scoped rest and the generator register, which the body neither reads nor writes. With the body's triple at every
point this gives the run of `@main`: it terminates without fault, the output array ends at the blocks the body
wrote back point by point, every other array of the region and every other buffer ends as the region found it — and
hence the ten argument arrays end as launched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them; after the body at point `t`
    each input's buffer at its block and the output's at `out0_11` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
/-- The body at any point: the inputs' memrefs hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, from any memory with zero counters: every weakly fair execution of @main on the TensorCores
    terminates, and every final state has every array of the pipeline at what the pipeline computes from the proof data
    — the output array at the blocks written back point by point, each `out0_11` of the input blocks there — and every
    other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves its ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Hand

end
-- ==== Proof.Spec.lean ====
/-
  The mathematics of one entry of the fused four-branch normalisation, on the extended reals.

  Every branch normalises the entry `x` by a mean `μ` and a variance `v` and weights it by `l`:
  the kernel groups it as `(l · (x − μ)) · rsqrt (v + ε)`, the reference as `l · ((x − μ) · rsqrt (v + ε))`;
  the kernel adds the branches in the order node, batch, graph, neighbours, the reference in the order
  batch, graph, neighbours, node. Products and sums of extended reals are associative and commutative
  (also at the infinities), so the two groupings denote one number: no finiteness is needed here.
-/
import Idealize.ShloMosaic.PureOps.Ideal

noncomputable section

namespace Cert.Combine

open Idealize.ShloMosaic

/-- One branch as the kernel groups it: the weight times the centred entry, then the inverse deviation. -/
def branchK (ε l x μ v : EReal) : EReal := (l * (x - μ)) * Ideal.rsqrt (v + ε)

/-- One branch as the reference groups it: the weight times the normalised entry. -/
def branchR (ε l x μ v : EReal) : EReal := l * ((x - μ) * Ideal.rsqrt (v + ε))

/-- The two groupings of a branch are one number: the product of extended reals is associative. -/
theorem branchK_eq_branchR (ε l x μ v : EReal) : branchK ε l x μ v = branchR ε l x μ v :=
  mul_assoc _ _ _

/-- The kernel's entry: scale `γ`, shift `β`, the branches added node first. -/
def entryK (γ β tn tb tg ta : EReal) : EReal := γ * (((tn + tb) + tg) + ta) + β

/-- The reference's entry: the branches added node last. -/
def entryR (γ β tn tb tg ta : EReal) : EReal := γ * (((tb + tg) + ta) + tn) + β

/-- The order of the four branches does not matter: the sum of extended reals is associative and commutative. -/
theorem entryK_eq_entryR (γ β tn tb tg ta : EReal) : entryK γ β tn tb tg ta = entryR γ β tn tb tg ta := by
  unfold entryK entryR
  have h : ((tn + tb) + tg) + ta = ((tb + tg) + ta) + tn := by
    rw [add_comm tn tb, add_assoc tb tn tg, add_comm tn tg, ← add_assoc tb tg tn, add_assoc (tb + tg) tn ta,
      add_comm tn ta, ← add_assoc (tb + tg) ta tn]
  rw [h]

end Cert.Combine

end
-- ==== Proof.Layout.lean ====
/-
  Three layout operations of the kernel's body read at explicit coordinates: a column `[a]` cast to `[a, 1]`,
  a column `[a, 1]` broadcast along the rows' entries to `[a, b]`, and a sum along the lanes of a matrix
  `[a, b]` read at a row as the sum of that row's entries. With the library's readings of a one-row broadcast and
  of a column slice these are all the non-pointwise steps between an entry of the result and the entries it depends on.
-/
import Idealize.ShloMosaic.Lib.ValueIdx
import Idealize.ShloMosaic.Lib.Pipeline.Value
import Idealize.ShloMosaic.Lib.ValueLayout
import Idealize.ShloMosaic.PureOps.Ideal.Laws

noncomputable section

namespace Cert.Combine

open Idealize.ShloMosaic Idealize.ShloMosaic.ValueIdx
open scoped BigOperators

variable {α : Type}

/-- A column of `a` entries cast to `[a, 1]` reads, at `(p, 0)`, the column at `p`: both have row-major position `p`. -/
theorem cast_col_apply {a : ℕ} (x : (⟨1, ![a]⟩ : Shape).Idx → α) (h : (⟨1, ![a]⟩ : Shape).ShapeCasts ⟨2, ![a, 1]⟩)
    (p : Fin a) : shapeCast ⟨2, ![a, 1]⟩ x h (ix2 p (0 : Fin 1)) = x (ix1 p) :=
  shapeCast_apply x h (ix2 p (0 : Fin 1)) (ix1 p) (by
    rw [Shape.rowMajor_val_two, Shape.rowMajor_val_one]; show p.val = p.val * 1 + 0; omega)

/-- A column `[a, 1]` broadcast to `[a, b]` reads, at `(p, c)`, the column at `(p, 0)`. -/
theorem bcast_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left half of the columns of a matrix `[a, 256]`, at `(p, c)`: the matrix at `(p, c)`. -/
theorem slice_lo_apply {a : ℕ} (X : (⟨2, ![a, 256]⟩ : Shape).Idx → α)
    (h : (⟨2, ![a, 256]⟩ : Shape).Slices ![0, 0] ⟨2, ![a, 128]⟩) (p : Fin a) (c : Fin 128) :
    extractStridedSlice ⟨2, ![a, 128]⟩ ![0, 0] X h (ix2 p c) = X (ix2 p (⟨c.val, by have := c.isLt; omega⟩ : Fin 256)) :=
  slice2_axis1_apply 0 X h p c _ (by show c.val = 0 + c.val; omega)

/-- The right half of the columns of a matrix `[a, 256]`, at `(p, c)`: the matrix at `(p, 128 + c)`. -/
theorem slice_hi_apply {a : ℕ} (X : (⟨2, ![a, 256]⟩ : Shape).Idx → α)
    (h : (⟨2, ![a, 256]⟩ : Shape).Slices ![0, 128] ⟨2, ![a, 128]⟩) (p : Fin a) (c : Fin 128) :
    extractStridedSlice ⟨2, ![a, 128]⟩ ![0, 128] X h (ix2 p c) = X (ix2 p (⟨128 + c.val, by have := c.isLt; omega⟩ : Fin 256)) :=
  slice2_axis1_apply 128 X h p c _ rfl

/-- An inverse square root at an index is the inverse square root of the entry. -/
theorem rsqrt_apply {s : Shape} {φ : FTy} (v : FVec Ideal s φ) (i : s.Idx) : rsqrt v i = Ideal.rsqrt (v i) := rfl

/-- The sum along the lanes of a matrix, at row `p`: the sum of the row's entries. -/
theorem lane_sum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) := by
  refine (Ideal.multiReduction_add_single v acc h hφ hacc (ix1 p)).trans ?_
  refine Finset.sum_congr rfl fun k _ => congrArg v ?_
  funext d
  match d with
  | ⟨0, _⟩ => exact Fin.ext rfl
  | ⟨1, _⟩ => exact Fin.ext rfl

/-- The same at 32-bit floats with the zero accumulator spelt as the word it is. -/
theorem lane_sum_f32_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) :=
  lane_sum_apply v 0x00000000#32 h hφ hacc p

end Cert.Combine

end
-- ==== Proof.KPayload.lean ====
/-
  One entry of the block the kernel stores at a grid point, as a function of the entries of the blocks it loaded.

  At row `p` and column `q` of a block of 4000 rows the stored value is
  `γ_q · (((n + b) + g) + a) + β_q`, each of `n, b, g, a` a branch `(λ_q · (x_pq − μ)) · rsqrt (v + ε)`:
  for the node branch `μ, v` are the mean and the variance of ROW `p` of the `x` block (two sums along the lanes, each
  divided by 128); for the batch branch they are column `q` of two one-row blocks; for the graph and the neighbour
  branches they are columns `q` and `128 + q` of row `p` of a block of 256 columns.
-/
import proofs.«153265_j89558658056883_2_alg».proof.Proof.Gen.KernelIdeal.Skeleton
import proofs.«153265_j89558658056883_2_alg».proof.Proof.Spec
import proofs.«153265_j89558658056883_2_alg».proof.Proof.Layout

noncomputable section

namespace Cert.Combine

open Idealize.ShloMosaic Idealize.ShloMosaic.ValueIdx Cert.KernelIdeal
open scoped BigOperators

/-- The variance floor `ε`, the number the word `0x3727C5AC` denotes. -/
abbrev eps : EReal := Ideal.ofBits .f32 0x3727C5AC#32
/-- The row length as the kernel's divisor, the number the word `0x43000000` denotes. -/
abbrev lanes : EReal := Ideal.ofBits .f32 0x43000000#32

/-- The mean of 128 entries: their sum divided by the row length. -/
def rowMean (x : Fin 128 → EReal) : EReal := Ideal.div (∑ k : Fin 128, x k) lanes
/-- The variance of 128 entries about their mean: the sum of the squared deviations divided by the row length. -/
def rowVar (x : Fin 128 → EReal) : EReal :=
  Ideal.div (∑ k : Fin 128, (x k - rowMean x) * (x k - rowMean x)) lanes

/-- Column `q` as a column of the left half of 256 columns. -/
abbrev colLo (q : Fin 128) : Fin 256 := ⟨q.val, by have := q.isLt; omega⟩
/-- Column `q` as a column of the right half of 256 columns. -/
abbrev colHi (q : Fin 128) : Fin 256 := ⟨128 + q.val, by have := q.isLt; omega⟩

variable [Cert.KernelIdeal.Facts]

/-- The sum along the lanes of a block of 4000 rows, at row `p`, with the shapes and the reduction fact spelt as the program spells them. -/
theorem block_lane_sum (v : FVec Ideal S4000x128 .f32) (hφ : FKind.Formats .f32)
    (hacc : (0x00000000#32 : BitVec 32) = FKind.add.neutral .f32 hφ) (p : Fin 4000) :
    multiReduction (F := Ideal) .add [1] S4000 v 0x00000000#32 Gen.reduces_S4000x128_S4000 hφ hacc (ix1 p) = ∑ k : Fin 128, v (ix2 p k) :=
  lane_sum_apply v 0x00000000#32 Gen.reduces_S4000x128_S4000 hφ hacc p

set_option backward.isDefEq.respectTransparency.types false in
/-- The stored block at `(p, q)` in terms of the loaded blocks' entries. -/
theorem payload_apply (x : Vec Ideal S4000x128 .f32) (grp adj : Vec Ideal S4000x256 .f32)
    (l0 l1 l2 l3 mb vb gam bet : Vec Ideal S1x128 .f32) (p : Fin 4000) (q : Fin 128) :
    Gen.k0_pay1 (F := Ideal) x (Gen.k0_pay3 grp) (Gen.k0_pay4 grp) (Gen.k0_pay6 adj) (Gen.k0_pay7 adj) (Gen.k0_pay8 l0) (Gen.k0_pay9 l1)
        (Gen.k0_pay10 l2) (Gen.k0_pay11 x l3) mb vb gam bet (ix2 p q)
      = entryK (gam (ix2 (0 : Fin 1) q)) (bet (ix2 (0 : Fin 1) q))
          (branchK eps (l3 (ix2 (0 : Fin 1) q)) (x (ix2 p q)) (rowMean fun k => x (ix2 p k)) (rowVar fun k => x (ix2 p k)))
          (branchK eps (l0 (ix2 (0 : Fin 1) q)) (x (ix2 p q)) (mb (ix2 (0 : Fin 1) q)) (vb (ix2 (0 : Fin 1) q)))
          (branchK eps (l1 (ix2 (0 : Fin 1) q)) (x (ix2 p q)) (grp (ix2 p (colLo q))) (grp (ix2 p (colHi q))))
          (branchK eps (l2 (ix2 (0 : Fin 1) q)) (x (ix2 p q)) (adj (ix2 p (colLo q))) (adj (ix2 p (colHi q)))) := by
  unfold Gen.k0_pay1 Gen.k0_pay3 Gen.k0_pay4 Gen.k0_pay6 Gen.k0_pay7 Gen.k0_pay8 Gen.k0_pay9 Gen.k0_pay10 Gen.k0_pay11
    Gen.k0_pay2 Gen.k0_pay5
  simp only [shapeCast_self, addf_apply, mulf_apply, subf_apply, divf_apply, broadcast_apply, rsqrt_apply,
    broadcastTo_1b_ab_apply, bcast_col_apply, slice_lo_apply, slice_hi_apply, cast_col_apply, block_lane_sum]
  rw [block_lane_sum x _ _ p, block_lane_sum _ _ _ p]
  simp only [shapeCast_self, addf_apply, mulf_apply, subf_apply, divf_apply, broadcast_apply, rsqrt_apply,
    broadcastTo_1b_ab_apply, bcast_col_apply, slice_lo_apply, slice_hi_apply, cast_col_apply]
  rw [block_lane_sum x _ _ p]
  rfl

end Cert.Combine

end
-- ==== Proof.KValue.lean ====
/-
  The array the kernel's region leaves in its result buffer, as ONE function of the arrays the region finds.

  The grid has 25 points; point `t` stages rows `4000·t … 4000·t + 3999` of the three big operands (the entries `x`, the
  gathered graph statistics, the neighbour statistics) and the whole of the eight one-row operands, and writes back rows
  `4000·t … 4000·t + 3999` of the result. So entry `(4000·t + p, q)` of the result is the stored block's entry `(p, q)`,
  which depends on row `4000·t + p` of the big operands and column `q` of the one-row ones: the blocks are restrictions of
  one function of whole arrays, and the 25 blocks cover every row.
-/
import proofs.«153265_j89558658056883_2_alg».proof.Proof.IdealRun
import proofs.«153265_j89558658056883_2_alg».proof.Proof.KPayload
import Idealize.ShloMosaic.Lib.Pipeline.Value

set_option maxRecDepth 16384

noncomputable section

namespace Cert.KernelIdeal.HandValue

open Cert.KernelIdeal Cert.KernelIdeal.Gen Cert.KernelIdeal.Hand Cert.Combine
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- The block offsets of every whole-buffer rectangle are zero. -/
theorem hz : (![0, 0] : Fin 2 → Nat) = fun _ => 0 := funext fun a => by fin_cases a <;> rfl

/-- Entry `(r, j)` of the result as a function of the whole operand arrays. -/
def outAt (x : S100000x128.Idx → EReal) (mb vb : S1x128.Idx → EReal) (grp adj : S100000x256.Idx → EReal)
    (l0 l1 l2 l3 gam bet : S1x128.Idx → EReal) (r : Fin 100000) (j : Fin 128) : EReal :=
  entryK (gam (ix2 (0 : Fin 1) j)) (bet (ix2 (0 : Fin 1) j))
    (branchK eps (l3 (ix2 (0 : Fin 1) j)) (x (ix2 r j)) (rowMean fun k => x (ix2 r k)) (rowVar fun k => x (ix2 r k)))
    (branchK eps (l0 (ix2 (0 : Fin 1) j)) (x (ix2 r j)) (mb (ix2 (0 : Fin 1) j)) (vb (ix2 (0 : Fin 1) j)))
    (branchK eps (l1 (ix2 (0 : Fin 1) j)) (x (ix2 r j)) (grp (ix2 r (colLo j))) (grp (ix2 r (colHi j))))
    (branchK eps (l2 (ix2 (0 : Fin 1) j)) (x (ix2 r j)) (adj (ix2 r (colLo j))) (adj (ix2 r (colHi j))))

/-- The result array: `outAt` at each index's coordinates. -/
def outArr (x : S100000x128.Idx → EReal) (mb vb : S1x128.Idx → EReal) (grp adj : S100000x256.Idx → EReal)
    (l0 l1 l2 l3 gam bet : S1x128.Idx → EReal) : S100000x128.Idx → EReal :=
  fun i => outAt x mb vb grp adj l0 l1 l2 l3 gam bet ⟨(i 0).val, idx2_lt0 i⟩ ⟨(i 1).val, idx2_lt1 i⟩

/-- The printed index maps, decided over the grid: the three big operands and the result move one block of rows per
    point and stay at column block 0; the one-row operands stay at block (0, 0). -/
theorem idx_facts : ∀ t : Fin cfg0.N,
    (win0_0.index t (0 : Fin 2) = t.val ∧ win0_0.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_11.index t (0 : Fin 2) = t.val ∧ win0_11.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- A point is one of 25. -/
theorem t_lt (t : Fin cfg0.N) : t.val < 25 := by
  have h : t.val < grid0.N := t.isLt
  rw [N_0] at h; exact h

/-- Row `p` of the block of point `t` is row `4000·t + p` of the array. -/
def rowOf (t : Fin cfg0.N) (p : Fin 4000) : Fin 100000 := ⟨t.val * 4000 + p.val, by have := t_lt t; have := p.isLt; omega⟩

/-- The `x` block at a point, at `(p, q)`: the array at `(4000·t + p, q)`. -/
theorem iblk0_apply (c : Dev nD) (t : Fin cfg0.N) (p : Fin 4000) (q : Fin 128) :
    iblk m c 0 t (ix2 p q) = V m c main_arg0 (ix2 (rowOf t p) q) := by
  show V m c main_arg0 (((cfg0.win 0).blk t).view.emb (ix2 p q)) = _
  refine congrArg (V m c main_arg0) ?_
  funext a; apply Fin.ext
  obtain ⟨⟨e0, e1⟩, -⟩ := idx_facts t
  match a with
  | ⟨0, _⟩ => show win0_0.index t (0 : Fin 2) * 4000 + 1 * p.val = t.val * 4000 + p.val; omega
  | ⟨1, _⟩ => show win0_0.index t (1 : Fin 2) * 128 + 1 * q.val = q.val; omega

/-- The 256-column operand of window 3 at a point, at `(p, k)`: the array at `(4000·t + p, k)`. -/
theorem iblk3_apply (c : Dev nD) (t : Fin cfg0.N) (p : Fin 4000) (k : Fin 256) :
    iblk m c 3 t (ix2 p k) = V m c main_v42 (ix2 (rowOf t p) k) := by
  show V m c main_v42 (((cfg0.win 3).blk t).view.emb (ix2 p k)) = _
  refine congrArg (V m c main_v42) ?_
  funext a; apply Fin.ext
  obtain ⟨e0, e1⟩ := (idx_facts t).2.1
  match a with
  | ⟨0, _⟩ => show win0_3.index t (0 : Fin 2) * 4000 + 1 * p.val = t.val * 4000 + p.val; omega
  | ⟨1, _⟩ => show win0_3.index t (1 : Fin 2) * 256 + 1 * k.val = k.val; omega

/-- The 256-column operand of window 4 at a point, at `(p, k)`: the array at `(4000·t + p, k)`. -/
theorem iblk4_apply (c : Dev nD) (t : Fin cfg0.N) (p : Fin 4000) (k : Fin 256) :
    iblk m c 4 t (ix2 p k) = V m c main_v72 (ix2 (rowOf t p) k) := by
  show V m c main_v72 (((cfg0.win 4).blk t).view.emb (ix2 p k)) = _
  refine congrArg (V m c main_v72) ?_
  funext a; apply Fin.ext
  obtain ⟨e0, e1⟩ := (idx_facts t).2.2.1
  match a with
  | ⟨0, _⟩ => show win0_4.index t (0 : Fin 2) * 4000 + 1 * p.val = t.val * 4000 + p.val; omega
  | ⟨1, _⟩ => show win0_4.index t (1 : Fin 2) * 256 + 1 * k.val = k.val; omega

end Cert.KernelIdeal.HandValue

end
-- ==== Proof.KRowsA.lean ====
/-
  The one-row operands of the batch statistics and of the first two weights, read through their windows: every point
  stages the whole row, so the block's entry `(0, q)` is the array's entry `(0, q)`.
-/
import proofs.«153265_j89558658056883_2_alg».proof.Proof.KValue

set_option maxRecDepth 16384

noncomputable section

namespace Cert.KernelIdeal.HandValue

open Cert.KernelIdeal Cert.KernelIdeal.Gen Cert.KernelIdeal.Hand Cert.Combine
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)
/-- The one-row operand of window 1 at a point, at `(0, q)`: the array's one row at `q`. -/
theorem iblk1_apply (c : Dev nD) (t : Fin cfg0.N) (q : Fin 128) :
    iblk m c 1 t (ix2 (0 : Fin 1) q) = V m c main_v3 (ix2 (0 : Fin 1) q) := by
  show V m c main_v3 (((cfg0.win 1).blk t).view.emb (ix2 (0 : Fin 1) q)) = _
  refine congrArg (V m c main_v3) ?_
  funext a; apply Fin.ext
  obtain ⟨e0, e1⟩ := (idx_facts t).2.2.2.2.1
  match a with
  | ⟨0, _⟩ => show win0_1.index t (0 : Fin 2) * 1 + 1 * 0 = 0; omega
  | ⟨1, _⟩ => show win0_1.index t (1 : Fin 2) * 128 + 1 * q.val = q.val; omega

/-- The one-row operand of window 2 at a point, at `(0, q)`: the array's one row at `q`. -/
theorem iblk2_apply (c : Dev nD) (t : Fin cfg0.N) (q : Fin 128) :
    iblk m c 2 t (ix2 (0 : Fin 1) q) = V m c main_v12 (ix2 (0 : Fin 1) q) := by
  show V m c main_v12 (((cfg0.win 2).blk t).view.emb (ix2 (0 : Fin 1) q)) = _
  refine congrArg (V m c main_v12) ?_
  funext a; apply Fin.ext
  obtain ⟨e0, e1⟩ := (idx_facts t).2.2.2.2.2.1
  match a with
  | ⟨0, _⟩ => show win0_2.index t (0 : Fin 2) * 1 + 1 * 0 = 0; omega
  | ⟨1, _⟩ => show win0_2.index t (1 : Fin 2) * 128 + 1 * q.val = q.val; omega

/-- The one-row operand of window 5 at a point, at `(0, q)`: the array's one row at `q`. -/
theorem iblk5_apply (c : Dev nD) (t : Fin cfg0.N) (q : Fin 128) :
    iblk m c 5 t (ix2 (0 : Fin 1) q) = V m c main_v89 (ix2 (0 : Fin 1) q) := by
  show V m c main_v89 (((cfg0.win 5).blk t).view.emb (ix2 (0 : Fin 1) q)) = _
  refine congrArg (V m c main_v89) ?_
  funext a; apply Fin.ext
  obtain ⟨e0, e1⟩ := (idx_facts t).2.2.2.2.2.2.1
  match a with
  | ⟨0, _⟩ => show win0_5.index t (0 : Fin 2) * 1 + 1 * 0 = 0; omega
  | ⟨1, _⟩ => show win0_5.index t (1 : Fin 2) * 128 + 1 * q.val = q.val; omega

/-- The one-row operand of window 6 at a point, at `(0, q)`: the array's one row at `q`. -/
theorem iblk6_apply (c : Dev nD) (t : Fin cfg0.N) (q : Fin 128) :
    iblk m c 6 t (ix2 (0 : Fin 1) q) = V m c main_v90 (ix2 (0 : Fin 1) q) := by
  show V m c main_v90 (((cfg0.win 6).blk t).view.emb (ix2 (0 : Fin 1) q)) = _
  refine congrArg (V m c main_v90) ?_
  funext a; apply Fin.ext
  obtain ⟨e0, e1⟩ := (idx_facts t).2.2.2.2.2.2.2.1
  match a with
  | ⟨0, _⟩ => show win0_6.index t (0 : Fin 2) * 1 + 1 * 0 = 0; omega
  | ⟨1, _⟩ => show win0_6.index t (1 : Fin 2) * 128 + 1 * q.val = q.val; omega

end Cert.KernelIdeal.HandValue

end
-- ==== Proof.KRowsB.lean ====
/-
  The one-row operands of the last two weights, the scale and the shift, read through their windows: every point stages
  the whole row, so the block's entry `(0, q)` is the array's entry `(0, q)`.
-/
import proofs.«153265_j89558658056883_2_alg».proof.Proof.KRowsA

set_option maxRecDepth 16384

noncomputable section

namespace Cert.KernelIdeal.HandValue

open Cert.KernelIdeal Cert.KernelIdeal.Gen Cert.KernelIdeal.Hand Cert.Combine
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)
/-- The one-row operand of window 7 at a point, at `(0, q)`: the array's one row at `q`. -/
theorem iblk7_apply (c : Dev nD) (t : Fin cfg0.N) (q : Fin 128) :
    iblk m c 7 t (ix2 (0 : Fin 1) q) = V m c main_v91 (ix2 (0 : Fin 1) q) := by
  show V m c main_v91 (((cfg0.win 7).blk t).view.emb (ix2 (0 : Fin 1) q)) = _
  refine congrArg (V m c main_v91) ?_
  funext a; apply Fin.ext
  obtain ⟨e0, e1⟩ := (idx_facts t).2.2.2.2.2.2.2.2.1
  match a with
  | ⟨0, _⟩ => show win0_7.index t (0 : Fin 2) * 1 + 1 * 0 = 0; omega
  | ⟨1, _⟩ => show win0_7.index t (1 : Fin 2) * 128 + 1 * q.val = q.val; omega

/-- The one-row operand of window 8 at a point, at `(0, q)`: the array's one row at `q`. -/
theorem iblk8_apply (c : Dev nD) (t : Fin cfg0.N) (q : Fin 128) :
    iblk m c 8 t (ix2 (0 : Fin 1) q) = V m c main_v92 (ix2 (0 : Fin 1) q) := by
  show V m c main_v92 (((cfg0.win 8).blk t).view.emb (ix2 (0 : Fin 1) q)) = _
  refine congrArg (V m c main_v92) ?_
  funext a; apply Fin.ext
  obtain ⟨e0, e1⟩ := (idx_facts t).2.2.2.2.2.2.2.2.2.1
  match a with
  | ⟨0, _⟩ => show win0_8.index t (0 : Fin 2) * 1 + 1 * 0 = 0; omega
  | ⟨1, _⟩ => show win0_8.index t (1 : Fin 2) * 128 + 1 * q.val = q.val; omega

/-- The one-row operand of window 9 at a point, at `(0, q)`: the array's one row at `q`. -/
theorem iblk9_apply (c : Dev nD) (t : Fin cfg0.N) (q : Fin 128) :
    iblk m c 9 t (ix2 (0 : Fin 1) q) = V m c main_v93 (ix2 (0 : Fin 1) q) := by
  show V m c main_v93 (((cfg0.win 9).blk t).view.emb (ix2 (0 : Fin 1) q)) = _
  refine congrArg (V m c main_v93) ?_
  funext a; apply Fin.ext
  obtain ⟨e0, e1⟩ := (idx_facts t).2.2.2.2.2.2.2.2.2.2.1
  match a with
  | ⟨0, _⟩ => show win0_9.index t (0 : Fin 2) * 1 + 1 * 0 = 0; omega
  | ⟨1, _⟩ => show win0_9.index t (1 : Fin 2) * 128 + 1 * q.val = q.val; omega

/-- The one-row operand of window 10 at a point, at `(0, q)`: the array's one row at `q`. -/
theorem iblk10_apply (c : Dev nD) (t : Fin cfg0.N) (q : Fin 128) :
    iblk m c 10 t (ix2 (0 : Fin 1) q) = V m c main_v94 (ix2 (0 : Fin 1) q) := by
  show V m c main_v94 (((cfg0.win 10).blk t).view.emb (ix2 (0 : Fin 1) q)) = _
  refine congrArg (V m c main_v94) ?_
  funext a; apply Fin.ext
  obtain ⟨e0, e1⟩ := (idx_facts t).2.2.2.2.2.2.2.2.2.2.2
  match a with
  | ⟨0, _⟩ => show win0_10.index t (0 : Fin 2) * 1 + 1 * 0 = 0; omega
  | ⟨1, _⟩ => show win0_10.index t (1 : Fin 2) * 128 + 1 * q.val = q.val; omega

end Cert.KernelIdeal.HandValue

end
-- ==== Proof.KFlush.lean ====
/-
  What a point writes back is its block of the result array: entry `(p, q)` of the stored block is entry `(4000·t + p, q)` of
  the one function `outArr` of the whole operand arrays.
-/
import proofs.«153265_j89558658056883_2_alg».proof.Proof.KRowsB

set_option maxRecDepth 16384

noncomputable section

namespace Cert.KernelIdeal.HandValue

open Cert.KernelIdeal Cert.KernelIdeal.Gen Cert.KernelIdeal.Hand Cert.Combine
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Entry `(p, q)` of the result window's block at point `t` is entry `(4000·t + p, q)` of the array. -/
theorem emb11 (t : Fin cfg0.N) (p : Fin 4000) (q : Fin 128) :
    ((cfg0.win 11).blk t).view.emb (ix2 p q) = ix2 (rowOf t p) q := by
  funext a; apply Fin.ext
  obtain ⟨e0, e1⟩ := (idx_facts t).2.2.2.1
  match a with
  | ⟨0, _⟩ => show win0_11.index t (0 : Fin 2) * 4000 + 1 * p.val = t.val * 4000 + p.val; omega
  | ⟨1, _⟩ => show win0_11.index t (1 : Fin 2) * 128 + 1 * q.val = q.val; omega

/-- WHAT POINT `t` WRITES BACK is block `t` of the result array `outArr` of the arrays as the region finds them. -/
theorem flushed_eq (c : Dev nD) (t : Fin cfg0.N) :
    (dats m 0 c).flushed 11 t = ((cfg0.win 11).blk t).view.read (Elt Ideal)
      (outArr (V m c main_arg0) (V m c main_v3) (V m c main_v12) (V m c main_v42) (V m c main_v72)
        (V m c main_v89) (V m c main_v90) (V m c main_v91) (V m c main_v92) (V m c main_v93) (V m c main_v94)) := by
  show (cfg0.win 11).cut (grid0.coords t) ((dats m 0 c).after 11 t) = _
  rw [after0_11]
  unfold out0_11
  rw [View.canon_unit_zero hz]
  simp only [View.ld_unit_zero (S := S4000x128) hz, View.ld_unit_zero (S := S4000x256) hz, View.ld_unit_zero (S := S1x128) hz]
  funext y
  obtain ⟨p, q, rfl⟩ : ∃ (p : Fin 4000) (q : Fin 128), y = ix2 p q := ⟨y 0, y 1, eq_ix2 y⟩
  have hR : outArr (V m c main_arg0) (V m c main_v3) (V m c main_v12) (V m c main_v42) (V m c main_v72)
        (V m c main_v89) (V m c main_v90) (V m c main_v91) (V m c main_v92) (V m c main_v93) (V m c main_v94)
        (((cfg0.win 11).blk t).view.emb (ix2 p q))
      = outAt (V m c main_arg0) (V m c main_v3) (V m c main_v12) (V m c main_v42) (V m c main_v72)
        (V m c main_v89) (V m c main_v90) (V m c main_v91) (V m c main_v92) (V m c main_v93) (V m c main_v94) (rowOf t p) q := by
    rw [emb11 t p q]; rfl
  refine Eq.trans ?_ hR.symm
  refine (@payload_apply Gen.facts (iblk m c 0 t) (iblk m c 3 t) (iblk m c 4 t) (iblk m c 5 t) (iblk m c 6 t) (iblk m c 7 t)
    (iblk m c 8 t) (iblk m c 1 t) (iblk m c 2 t) (iblk m c 9 t) (iblk m c 10 t) p q).trans ?_
  simp only [iblk0_apply m c t, iblk3_apply m c t, iblk4_apply m c t, iblk1_apply m c t, iblk2_apply m c t, iblk5_apply m c t,
    iblk6_apply m c t, iblk7_apply m c t, iblk8_apply m c t, iblk9_apply m c t, iblk10_apply m c t]
  rfl

end Cert.KernelIdeal.HandValue

end
-- ==== Proof.IdealPost.lean ====
import proofs.«153265_j89558658056883_2_alg».proof.Proof.IdealRun

/-!
# The final state read buffer by buffer

What a final state of the run of `@main` says of single buffers: the result array `main_v95` holds what the
pipeline computes from the proof data after the last grid point (the blocks written back, point by point, over the
contents the region found), and each of the ten argument arrays holds what it was launched with.
-/

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The result array after the run: the array of output window 11 after all 25 points. -/
theorem post11 (r : PUnit × MemSt nD τ sig (Elt F)) (h : Pipeline.FramePost cfgs (dats m) 0 (V m) r) (c : Dev nD) :
    r.2.mem ((c.tc : Thread nD τ).loc main_v95) = (dats m 0 c).arrAt 11 cfg0.N :=
  (h c).1 11

/-- `main_arg0` is the array of input window 0, which the pipeline only reads, and no host operation writes it. -/
theorem kept_main_arg0 (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

/-- `main_arg1` is staged by no window and written by no host operation. -/
theorem kept_main_arg1 (r : PUnit × MemSt nD τ sig (Elt F)) (h : Pipeline.FramePost cfgs (dats m) 0 (V m) r) (c : Dev nD) :
    r.2.mem ((c.tc : Thread nD τ).loc main_arg1) = m ((c.tc : Thread nD τ).loc main_arg1) :=
  ((h c).2 main_arg1 (Pipeline.mem_restRefs_of main_arg1 (by decide) (by decide))).trans (V_main_arg1 m c)

/-- `main_arg2` is staged by no window and written by no host operation. -/
theorem kept_main_arg2 (r : PUnit × MemSt nD τ sig (Elt F)) (h : Pipeline.FramePost cfgs (dats m) 0 (V m) r) (c : Dev nD) :
    r.2.mem ((c.tc : Thread nD τ).loc main_arg2) = m ((c.tc : Thread nD τ).loc main_arg2) :=
  ((h c).2 main_arg2 (Pipeline.mem_restRefs_of main_arg2 (by decide) (by decide))).trans (V_main_arg2 m c)

/-- `main_arg3` is staged by no window and written by no host operation. -/
theorem kept_main_arg3 (r : PUnit × MemSt nD τ sig (Elt F)) (h : Pipeline.FramePost cfgs (dats m) 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)

/-- `main_arg4` is staged by no window and written by no host operation. -/
theorem kept_main_arg4 (r : PUnit × MemSt nD τ sig (Elt F)) (h : Pipeline.FramePost cfgs (dats m) 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)

/-- `main_arg5` is staged by no window and written by no host operation. -/
theorem kept_main_arg5 (r : PUnit × MemSt nD τ sig (Elt F)) (h : Pipeline.FramePost cfgs (dats m) 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)

/-- `main_arg6` is staged by no window and written by no host operation. -/
theorem kept_main_arg6 (r : PUnit × MemSt nD τ sig (Elt F)) (h : Pipeline.FramePost cfgs (dats m) 0 (V m) r) (c : Dev nD) :
    r.2.mem ((c.tc : Thread nD τ).loc main_arg6) = m ((c.tc : Thread nD τ).loc main_arg6) :=
  ((h c).2 main_arg6 (Pipeline.mem_restRefs_of main_arg6 (by decide) (by decide))).trans (V_main_arg6 m c)

/-- `main_arg7` is staged by no window and written by no host operation. -/
theorem kept_main_arg7 (r : PUnit × MemSt nD τ sig (Elt F)) (h : Pipeline.FramePost cfgs (dats m) 0 (V m) r) (c : Dev nD) :
    r.2.mem ((c.tc : Thread nD τ).loc main_arg7) = m ((c.tc : Thread nD τ).loc main_arg7) :=
  ((h c).2 main_arg7 (Pipeline.mem_restRefs_of main_arg7 (by decide) (by decide))).trans (V_main_arg7 m c)

/-- `main_arg8` is staged by no window and written by no host operation. -/
theorem kept_main_arg8 (r : PUnit × MemSt nD τ sig (Elt F)) (h : Pipeline.FramePost cfgs (dats m) 0 (V m) r) (c : Dev nD) :
    r.2.mem ((c.tc : Thread nD τ).loc main_arg8) = m ((c.tc : Thread nD τ).loc main_arg8) :=
  ((h c).2 main_arg8 (Pipeline.mem_restRefs_of main_arg8 (by decide) (by decide))).trans (V_main_arg8 m c)

/-- `main_arg9` is staged by no window and written by no host operation. -/
theorem kept_main_arg9 (r : PUnit × MemSt nD τ sig (Elt F)) (h : Pipeline.FramePost cfgs (dats m) 0 (V m) r) (c : Dev nD) :
    r.2.mem ((c.tc : Thread nD τ).loc main_arg9) = m ((c.tc : Thread nD τ).loc main_arg9) :=
  ((h c).2 main_arg9 (Pipeline.mem_restRefs_of main_arg9 (by decide) (by decide))).trans (V_main_arg9 m c)

/-- The ten argument arrays together. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c, kept_main_arg9 m r h c⟩

end Cert.KernelIdeal.Hand

end
-- ==== Proof.KFinal.lean ====
/-
  The 25 blocks of 4000 rows tile the result array, so after the run the array IS the one function `outArr` of the arrays
  the region found; and the run, re-posted with that equation.
-/
import proofs.«153265_j89558658056883_2_alg».proof.Proof.KFlush
import proofs.«153265_j89558658056883_2_alg».proof.Proof.IdealPost

set_option maxRecDepth 16384

noncomputable section

namespace Cert.KernelIdeal.HandValue

open Cert.KernelIdeal Cert.KernelIdeal.Gen Cert.KernelIdeal.Hand Cert.Combine
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- An index of the array is in point `t`'s block iff each coordinate is in the block's range on its axis. -/
theorem mem_blk (t : Fin cfg0.N) (i : S100000x128.Idx) :
    i ∈ ((cfg0.win 11).blk t).view.set ↔ ∀ a : Fin 2, win0_11.index t a * S4000x128.size a ≤ (i a).val
      ∧ (i a).val < win0_11.index t a * S4000x128.size a + S4000x128.size a := by
  show i ∈ ((View.whole main_v95).slice (win0_11.rect t)).set ↔ _
  rw [View.set_slice_whole, Rect.mem_set_unit]
  exact Iff.rfl

/-- Every index of the array is in the block of the point its row falls in: row `r` is in block `r / 4000`. -/
theorem cover (i : S100000x128.Idx) :
    ∃ t : Fin cfg0.N, (cfg0.win 11).flush t = true ∧ i ∈ ((cfg0.win 11).blk t).view.set := by
  have hi0 : (i 0).val < 100000 := (i 0).isLt
  have hi1 : (i 1).val < 128 := (i 1).isLt
  have hlt : (i 0).val / 4000 < grid0.N := by rw [N_0]; omega
  refine ⟨⟨(i 0).val / 4000, hlt⟩, flush0_11 _, ?_⟩
  rw [mem_blk]
  obtain ⟨e0, e1⟩ := (idx_facts ⟨(i 0).val / 4000, hlt⟩).2.2.2.1
  have e0' : win0_11.index (⟨(i 0).val / 4000, hlt⟩ : Fin cfg0.N) (0 : Fin 2) = (i 0).val / 4000 := e0
  intro a
  match a with
  | ⟨0, _⟩ =>
    show win0_11.index (⟨(i 0).val / 4000, hlt⟩ : Fin cfg0.N) (0 : Fin 2) * 4000 ≤ (i 0).val
      ∧ (i 0).val < win0_11.index (⟨(i 0).val / 4000, hlt⟩ : Fin cfg0.N) (0 : Fin 2) * 4000 + 4000
    omega
  | ⟨1, _⟩ =>
    show win0_11.index (⟨(i 0).val / 4000, hlt⟩ : Fin cfg0.N) (1 : Fin 2) * 128 ≤ (i 1).val
      ∧ (i 1).val < win0_11.index (⟨(i 0).val / 4000, hlt⟩ : Fin cfg0.N) (1 : Fin 2) * 128 + 128
    omega

/-- THE ARRAY after the run: `outArr` of the arrays as the region finds them. -/
theorem final (c : Dev nD) : (dats m 0 c).arrAt 11 cfg0.N =
    outArr (V m c main_arg0) (V m c main_v3) (V m c main_v12) (V m c main_v42) (V m c main_v72)
      (V m c main_v89) (V m c main_v90) (V m c main_v91) (V m c main_v92) (V m c main_v93) (V m c main_v94) :=
  (dats m 0 c).arrAt_eq_of_cover 11 _ (fun t _ => flushed_eq m c t) cover

/-- The run, re-posted: the result array at `outArr`, every argument array unchanged. -/
theorem run : θ_run defs (onTc (τ := τ) (main (F := Ideal))) ⟨m, fun _ => 0, ρ⟩ fun r => ∀ c : Dev nD,
      r.2.mem ((c.tc : Thread nD τ).loc main_v95) =
        outArr (V m c main_arg0) (V m c main_v3) (V m c main_v12) (V m c main_v42) (V m c main_v72)
          (V m c main_v89) (V m c main_v90) (V m c main_v91) (V m c main_v92) (V m c main_v93) (V m c main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(post11 m r h c).trans (final m c), kept m r h c⟩) (run_main m ρ)

end Cert.KernelIdeal.HandValue

end
-- ==== Proof.KHostDefs.lean ====
import proofs.«153265_j89558658056883_2_alg».proof.Proof.Gen.KernelIdeal

/-!
# The host stages before the region, as functions of the argument arrays

Before its one region, `@main` computes on the host, from the node features `x` (100000 × 128), the graph ids
`gid`, the edge endpoints `src` and `dst`, the four mixing logits and the affine pair, every array the region's
windows stage besides `x` itself. Each stage below is the composition of the program's own operations, in the order
the program applies them, as one function of the argument arrays:

* over the whole batch: the column means `kMuB x` and the clamped column variances `kVarB x` (mean of squares
  less squared mean, floored at zero), both 1 × 128;
* per graph: the node counts `kCnt gid` (floored at one), the per-graph sums of `x` and of `x²` side by side
  `kSumG x gid`, hence the per-graph means `kMuG` and clamped variances `kVarG`, and those gathered back to the
  nodes through the wrapped graph index, `kGrp x gid` (100000 × 256: means in columns 0–127, variances in 128–255);
* per neighbourhood: the messages `kMsg x src` (row `src e` of `x` for each edge `e`), the in-degrees
  `kDeg dst` (floored at one), the sums over incoming edges of the messages and of their squares `kSumA`, hence
  the neighbourhood means `kMuA`, clamped variances `kVarA`, and the two side by side `kAdj` (100000 × 256);
* the mixing weights: the four logit rows stacked `kLogits` (4 × 128), their softmax down the four rows `kLam`,
  and its rows `kLamRow0 … kLamRow3`;
* the affine pair re-laid as rows, `kRow`.
-/

noncomputable section

namespace Cert.KernelIdeal.Hand

open Cert.KernelIdeal Cert.KernelIdeal.Gen
open Idealize.ShloMosaic

variable {F : FTy → Type} [FloatOps F]

/-! ## Over the whole batch -/

/-- The column means of `x` (`main_v3`): the column sums over 100000. -/
def kMuB (x : Vec F S100000x128 .f32) : Vec F S1x128 .f32 :=
  Host.divf (broadcastInDim S1x128 ![1] bcast_S128_S1x128_1 (Host.reduceAdd x (constant S_ .f32 0x00000000#32) reducesTo_S100000x128_S128_d0 h_S_))
    (broadcastInDim S1x128 ![] bcast_S_S1x128 (constant S_ .f32 0x47C35000#32))

/-- The clamped column variances of `x` (`main_v12`): the column means of `x²` less the squared column means,
    floored at zero. -/
def kVarB (x : Vec F S100000x128 .f32) : Vec F S1x128 .f32 :=
  maximumf
    (subf
      (Host.divf (broadcastInDim S1x128 ![1] bcast_S128_S1x128_1 (Host.reduceAdd (mulf x x) (constant S_ .f32 0x00000000#32) reducesTo_S100000x128_S128_d0 h_S_))
        (broadcastInDim S1x128 ![] bcast_S_S1x128 (constant S_ .f32 0x47C35000#32)))
      (mulf (kMuB x) (kMuB x)))
    (broadcastInDim S1x128 ![] bcast_S_S1x128 (constant S_ .f32 0x00000000#32))

/-! ## Per graph -/

/-- The graph ids as a column of indices. -/
def kCol (gid : Vec F S100000 .i32) : Vec F S100000x1 .i32 :=
  broadcastInDim S100000x1 ![0] bcast_S100000_S100000x1_0 gid

/-- The node counts per graph, floored at one, as a column (`main_v19`). -/
def kCnt (gid : Vec F S100000 .i32) : Vec F S1000x1 .f32 :=
  broadcastInDim S1000x1 ![0] bcast_S1000_S1000x1_0
    (maximumf
      (Host.scatterAdd scatter_S1000_S100000x1_S100000_n_0_0_1 (broadcastInDim S1000 ![] bcast_S_S1000 (constant S_ .f32 0x00000000#32)) (kCol gid)
        (broadcastInDim S100000 ![] bcast_S_S100000 (constant S_ .f32 0x3F800000#32)))
      (broadcastInDim S1000 ![] bcast_S_S1000 (constant S_ .f32 0x3F800000#32)))

/-- `x` and `x²` side by side (`main_v21`). -/
def kXX (x : Vec F S100000x128 .f32) : Vec F S100000x256 .f32 :=
  concatenate S100000x256 1 [⟨S100000x128, x⟩, ⟨S100000x128, mulf x x⟩] concatenates_S100000x128_S100000x128_S100000x256_d1

/-- The per-graph sums of `x` (columns 0–127) and of `x²` (columns 128–255) (`main_v24`). -/
def kSumG (x : Vec F S100000x128 .f32) (gid : Vec F S100000 .i32) : Vec F S1000x256 .f32 :=
  Host.scatterAdd scatter_S1000x256_S100000x1_S100000x256_1_0_0_1 (broadcastInDim S1000x256 ![] bcast_S_S1000x256 (constant S_ .f32 0x00000000#32)) (kCol gid) (kXX x)

/-- The per-graph means (`main_v28`). -/
def kMuG (x : Vec F S100000x128 .f32) (gid : Vec F S100000 .i32) : Vec F S1000x128 .f32 :=
  Host.divf (extractStridedSlice S1000x128 ![0, 0] (kSumG x gid) slices_S1000x256_S1000x128_0_0)
    (broadcastInDim S1000x128 ![0, 1] bcast_S1000x1_S1000x128_0_1 (kCnt gid))

/-- The per-graph clamped variances (`main_v34`). -/
def kVarG (x : Vec F S100000x128 .f32) (gid : Vec F S100000 .i32) : Vec F S1000x128 .f32 :=
  maximumf
    (subf
      (Host.divf (extractStridedSlice S1000x128 ![0, 128] (kSumG x gid) slices_S1000x256_S1000x128_0_128)
        (broadcastInDim S1000x128 ![0, 1] bcast_S1000x1_S1000x128_0_1 (kCnt gid)))
      (mulf (kMuG x gid) (kMuG x gid)))
    (broadcastInDim S1000x128 ![] bcast_S_S1000x128 (constant S_ .f32 0x00000000#32))

/-- The graph index wrapped into range (a negative id counted from the end), as a column (`main_v41`). -/
def kIdxG (gid : Vec F S100000 .i32) : Vec F S100000x1 .i32 :=
  broadcastInDim S100000x1 ![0] bcast_S100000_S100000x1_0
    (select (cmpi .slt gid (broadcastInDim S100000 ![] bcast_S_S100000 (constantI S_ 32 0#32)))
      (addi gid (broadcastInDim S100000 ![] bcast_S_S100000 (constantI S_ 32 1000#32))) gid)

/-- Each node's graph statistics: its graph's means beside its graph's variances (`main_v42`, window 3's array). -/
def kGrp (x : Vec F S100000x128 .f32) (gid : Vec F S100000 .i32) : Vec F S100000x256 .f32 :=
  Host.gather gather_S1000x256_S100000x1_S100000x256_1_0_n_n_0_1_1256
    (concatenate S1000x256 1 [⟨S1000x128, kMuG x gid⟩, ⟨S1000x128, kVarG x gid⟩] concatenates_S1000x128_S1000x128_S1000x256_d1)
    (kIdxG gid)

/-! ## Per neighbourhood -/

/-- The source index wrapped into range, as a column (`main_v48`). -/
def kIdxS (src : Vec F S600000 .i32) : Vec F S600000x1 .i32 :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 100000#32))) src)

/-- The messages: for each edge the feature row of its source (`main_v49`). -/
def kMsg (x : Vec F S100000x128 .f32) (src : Vec F S600000 .i32) : Vec F S600000x128 .f32 :=
  Host.gather gather_S100000x128_S600000x1_S600000x128_1_0_n_n_0_1_1128 x (kIdxS src)

/-- The destinations as a column of indices. -/
def kColD (dst : Vec F S600000 .i32) : Vec F S600000x1 .i32 :=
  broadcastInDim S600000x1 ![0] bcast_S600000_S600000x1_0 dst

/-- The in-degrees, floored at one, as a column (`main_v58`). -/
def kDeg (dst : Vec F S600000 .i32) : Vec F S100000x1 .f32 :=
  broadcastInDim S100000x1 ![0] bcast_S100000_S100000x1_0
    (maximumf
      (Host.scatterAdd scatter_S100000_S600000x1_S600000_n_0_0_1 (broadcastInDim S100000 ![] bcast_S_S100000 (constant S_ .f32 0x00000000#32)) (kColD dst)
        (broadcastInDim S600000 ![] bcast_S_S600000 (constant S_ .f32 0x3F800000#32)))
      (broadcastInDim S100000 ![] bcast_S_S100000 (constant S_ .f32 0x3F800000#32)))

/-- The sums over incoming edges of the messages (columns 0–127) and of their squares (128–255) (`main_v61`). -/
def kSumA (x : Vec F S100000x128 .f32) (src dst : Vec F S600000 .i32) : Vec F S100000x256 .f32 :=
  Host.scatterAdd scatter_S100000x256_S600000x1_S600000x256_1_0_0_1 (broadcastInDim S100000x256 ![] bcast_S_S100000x256 (constant S_ .f32 0x00000000#32)) (kColD dst)
    (concatenate S600000x256 1 [⟨S600000x128, kMsg x src⟩, ⟨S600000x128, mulf (kMsg x src) (kMsg x src)⟩] concatenates_S600000x128_S600000x128_S600000x256_d1)

/-- The neighbourhood means (`main_v65`). -/
def kMuA (x : Vec F S100000x128 .f32) (src dst : Vec F S600000 .i32) : Vec F S100000x128 .f32 :=
  Host.divf (extractStridedSlice S100000x128 ![0, 0] (kSumA x src dst) slices_S100000x256_S100000x128_0_0)
    (broadcastInDim S100000x128 ![0, 1] bcast_S100000x1_S100000x128_0_1 (kDeg dst))

/-- The neighbourhood clamped variances (`main_v71`). -/
def kVarA (x : Vec F S100000x128 .f32) (src dst : Vec F S600000 .i32) : Vec F S100000x128 .f32 :=
  maximumf
    (subf
      (Host.divf (extractStridedSlice S100000x128 ![0, 128] (kSumA x src dst) slices_S100000x256_S100000x128_0_128)
        (broadcastInDim S100000x128 ![0, 1] bcast_S100000x1_S100000x128_0_1 (kDeg dst)))
      (mulf (kMuA x src dst) (kMuA x src dst)))
    (broadcastInDim S100000x128 ![] bcast_S_S100000x128 (constant S_ .f32 0x00000000#32))

/-- Each node's neighbourhood statistics: means beside variances (`main_v72`, window 4's array). -/
def kAdj (x : Vec F S100000x128 .f32) (src dst : Vec F S600000 .i32) : Vec F S100000x256 .f32 :=
  concatenate S100000x256 1 [⟨S100000x128, kMuA x src dst⟩, ⟨S100000x128, kVarA x src dst⟩] concatenates_S100000x128_S100000x128_S100000x256_d1

/-! ## The mixing weights -/

/-- A 128-vector as a row. -/
def kAsRow (v : Vec F S128 .f32) : Vec F S1x128 .f32 := broadcastInDim S1x128 ![1] bcast_S128_S1x128_1 v

/-- The four logit rows stacked (`main_v77`). -/
def kLogits (lb lg la ln : Vec F S128 .f32) : Vec F S4x128 .f32 :=
  concatenate S4x128 0 [⟨S1x128, kAsRow lb⟩, ⟨S1x128, kAsRow lg⟩, ⟨S1x128, kAsRow la⟩, ⟨S1x128, kAsRow ln⟩] concatenates_S1x128_S1x128_S1x128_S1x128_S4x128_d0

/-- The logits less their column maximum, exponentiated (`main_v84`). -/
def kExp (lb lg la ln : Vec F S128 .f32) : Vec F S4x128 .f32 :=
  Host.exp
    (subf (kLogits lb lg la ln)
      (broadcastInDim S4x128 ![0, 1] bcast_S1x128_S4x128_0_1
        (broadcastInDim S1x128 ![1] bcast_S128_S1x128_1
          (maximumf (broadcastInDim S128 ![] bcast_S_S128 (constant S_ .f32 0xFF800000#32))
            (Host.reduce FloatOps.maximumf (kLogits lb lg la ln) (constant S_ .f32 0xFF800000#32) reducesTo_S4x128_S128_d0 h_S_)))))

/-- The softmax of the logits down the four rows (`main_v88`). -/
def kLam (lb lg la ln : Vec F S128 .f32) : Vec F S4x128 .f32 :=
  Host.divf (kExp lb lg la ln)
    (broadcastInDim S4x128 ![0, 1] bcast_S1x128_S4x128_0_1
      (broadcastInDim S1x128 ![1] bcast_S128_S1x128_1
        (Host.reduceAdd (kExp lb lg la ln) (constant S_ .f32 0x00000000#32) reducesTo_S4x128_S128_d0 h_S_)))

/-- The softmax's rows (`main_v89 … main_v92`, the arrays of windows 5 … 8). -/
def kLamRow0 (lb lg la ln : Vec F S128 .f32) : Vec F S1x128 .f32 := extractStridedSlice S1x128 ![0, 0] (kLam lb lg la ln) slices_S4x128_S1x128_0_0
def kLamRow1 (lb lg la ln : Vec F S128 .f32) : Vec F S1x128 .f32 := extractStridedSlice S1x128 ![1, 0] (kLam lb lg la ln) slices_S4x128_S1x128_1_0
def kLamRow2 (lb lg la ln : Vec F S128 .f32) : Vec F S1x128 .f32 := extractStridedSlice S1x128 ![2, 0] (kLam lb lg la ln) slices_S4x128_S1x128_2_0
def kLamRow3 (lb lg la ln : Vec F S128 .f32) : Vec F S1x128 .f32 := extractStridedSlice S1x128 ![3, 0] (kLam lb lg la ln) slices_S4x128_S1x128_3_0

/-! ## The affine pair -/

/-- A 128-vector re-laid as a 1 × 128 row (`main_v93` of the scale, `main_v94` of the shift: windows 9 and 10). -/
def kRow (v : Vec F S128 .f32) : Vec F S1x128 .f32 := shapeCast S1x128 v shapeCasts_S128_S1x128

end Cert.KernelIdeal.Hand

end
-- ==== Proof.KHostA.lean ====
import proofs.«153265_j89558658056883_2_alg».proof.Proof.IdealEntry
import proofs.«153265_j89558658056883_2_alg».proof.Proof.KHostDefs

/-!
# The batch statistics and the affine rows as the region finds them

Each array is read off the fold of the host operations over the launch memory: the operation that writes it applied to
what the operations before it left in its operands, down to the argument arrays, which no host operation writes.
-/

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

variable (m : (ℓ : Loc nD τ sig) → Buf (Elt F) ℓ)

set_option maxHeartbeats 8000000 in
/-- Window 1's array: the column means of `x`. -/
theorem V_main_v3 (c : Dev nD) : V m c main_v3 = kMuB (m ((c : Thread nD τ).loc main_arg0)) := by
  show StableHlo.after hostOps0 (fun b => m (c, b)) (Proc.devRef .tc main_v3) = _
  simp only [hostOps0]
  after_results_simp
  rfl

set_option maxHeartbeats 8000000 in
/-- Window 2's array: the clamped column variances of `x`. -/
theorem V_main_v12 (c : Dev nD) : V m c main_v12 = kVarB (m ((c : Thread nD τ).loc main_arg0)) := by
  show StableHlo.after hostOps0 (fun b => m (c, b)) (Proc.devRef .tc main_v12) = _
  simp only [hostOps0]
  after_results_simp
  rfl

set_option maxHeartbeats 8000000 in
/-- Window 9's array: `main_arg1` re-laid as a row. -/
theorem V_main_v93 (c : Dev nD) : V m c main_v93 = kRow (m ((c : Thread nD τ).loc main_arg1)) := by
  show StableHlo.after hostOps0 (fun b => m (c, b)) (Proc.devRef .tc main_v93) = _
  simp only [hostOps0]
  after_results_simp
  rfl

set_option maxHeartbeats 8000000 in
/-- Window 10's array: `main_arg2` re-laid as a row. -/
theorem V_main_v94 (c : Dev nD) : V m c main_v94 = kRow (m ((c : Thread nD τ).loc main_arg2)) := by
  show StableHlo.after hostOps0 (fun b => m (c, b)) (Proc.devRef .tc main_v94) = _
  simp only [hostOps0]
  after_results_simp
  rfl

end Cert.KernelIdeal.Hand

end
-- ==== Proof.KHostB.lean ====
import proofs.«153265_j89558658056883_2_alg».proof.Proof.IdealEntry
import proofs.«153265_j89558658056883_2_alg».proof.Proof.KHostDefs

/-!
# The per-graph statistics as the region finds them

Each array is read off the fold of the host operations over the launch memory: the operation that writes it applied to
what the operations before it left in its operands, down to the argument arrays, which no host operation writes.
-/

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

variable (m : (ℓ : Loc nD τ sig) → Buf (Elt F) ℓ)

set_option maxHeartbeats 8000000 in
/-- Window 3's array: each node's graph means beside its graph variances. -/
theorem V_main_v42 (c : Dev nD) : V m c main_v42 = kGrp (m ((c : Thread nD τ).loc main_arg0)) (m ((c : Thread nD τ).loc main_arg7)) := by
  show StableHlo.after hostOps0 (fun b => m (c, b)) (Proc.devRef .tc main_v42) = _
  simp only [hostOps0]
  after_results_simp
  rfl

end Cert.KernelIdeal.Hand

end
-- ==== Proof.KHostC.lean ====
import proofs.«153265_j89558658056883_2_alg».proof.Proof.IdealEntry
import proofs.«153265_j89558658056883_2_alg».proof.Proof.KHostDefs

/-!
# The neighbourhood statistics as the region finds them

The array of window 4 holds the neighbourhood means beside the clamped neighbourhood variances. Each half is read off
the fold of the host operations over the launch memory on its own; the array itself is the two halves, as the region
finds them, side by side.
-/

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

variable (m : (ℓ : Loc nD τ sig) → Buf (Elt F) ℓ)

set_option maxHeartbeats 2000000 in
/-- The neighbourhood means as the region finds them. -/
theorem V_main_v65 (c : Dev nD) : V m c main_v65 = kMuA (m ((c : Thread nD τ).loc main_arg0)) (m ((c : Thread nD τ).loc main_arg8)) (m ((c : Thread nD τ).loc main_arg9)) := by
  show StableHlo.after hostOps0 (fun b => m (c, b)) (Proc.devRef .tc main_v65) = _
  simp only [hostOps0]
  after_results_simp
  rfl

set_option maxHeartbeats 2000000 in
/-- The clamped neighbourhood variances as the region finds them. -/
theorem V_main_v71 (c : Dev nD) : V m c main_v71 = kVarA (m ((c : Thread nD τ).loc main_arg0)) (m ((c : Thread nD τ).loc main_arg8)) (m ((c : Thread nD τ).loc main_arg9)) := by
  show StableHlo.after hostOps0 (fun b => m (c, b)) (Proc.devRef .tc main_v71) = _
  simp only [hostOps0]
  after_results_simp
  rfl

/-- Two 100000 × 128 arrays side by side. -/
def kSide (a b : Vec F S100000x128 .f32) : Vec F S100000x256 .f32 :=
  concatenate S100000x256 1 [⟨S100000x128, a⟩, ⟨S100000x128, b⟩] concatenates_S100000x128_S100000x128_S100000x256_d1

set_option maxHeartbeats 2000000 in
/-- Window 4's array is the two halves, as the region finds them, side by side: the operation that writes it reads
    exactly those two arrays, which nothing after it writes. -/
theorem V_main_v72_halves (c : Dev nD) : V m c main_v72 = kSide (V m c main_v65) (V m c main_v71) := by
  show StableHlo.after hostOps0 (fun b => m (c, b)) (Proc.devRef .tc main_v72)
    = kSide (StableHlo.after hostOps0 (fun b => m (c, b)) (Proc.devRef .tc main_v65)) (StableHlo.after hostOps0 (fun b => m (c, b)) (Proc.devRef .tc main_v71))
  simp only [hostOps0]
  after_results_simp
  rfl

/-- Window 4's array: each node's neighbourhood means beside its neighbourhood variances. -/
theorem V_main_v72 (c : Dev nD) : V m c main_v72 = kAdj (m ((c : Thread nD τ).loc main_arg0)) (m ((c : Thread nD τ).loc main_arg8)) (m ((c : Thread nD τ).loc main_arg9)) := by
  rw [V_main_v72_halves, V_main_v65, V_main_v71]
  rfl

end Cert.KernelIdeal.Hand

end
-- ==== Proof.KHostD.lean ====
import proofs.«153265_j89558658056883_2_alg».proof.Proof.IdealEntry
import proofs.«153265_j89558658056883_2_alg».proof.Proof.KHostDefs

/-!
# The mixing weights as the region finds them

Each array is read off the fold of the host operations over the launch memory: the operation that writes it applied to
what the operations before it left in its operands, down to the argument arrays, which no host operation writes.
-/

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

variable (m : (ℓ : Loc nD τ sig) → Buf (Elt F) ℓ)

set_option maxHeartbeats 8000000 in
/-- Window 5's array: row 0 of the softmax of the four logit rows. -/
theorem V_main_v89 (c : Dev nD) : V m c main_v89 = kLamRow0 (m ((c : Thread nD τ).loc main_arg3)) (m ((c : Thread nD τ).loc main_arg4)) (m ((c : Thread nD τ).loc main_arg5)) (m ((c : Thread nD τ).loc main_arg6)) := by
  show StableHlo.after hostOps0 (fun b => m (c, b)) (Proc.devRef .tc main_v89) = _
  simp only [hostOps0]
  after_results_simp
  rfl

set_option maxHeartbeats 8000000 in
/-- Window 6's array: row 1 of the softmax. -/
theorem V_main_v90 (c : Dev nD) : V m c main_v90 = kLamRow1 (m ((c : Thread nD τ).loc main_arg3)) (m ((c : Thread nD τ).loc main_arg4)) (m ((c : Thread nD τ).loc main_arg5)) (m ((c : Thread nD τ).loc main_arg6)) := by
  show StableHlo.after hostOps0 (fun b => m (c, b)) (Proc.devRef .tc main_v90) = _
  simp only [hostOps0]
  after_results_simp
  rfl

set_option maxHeartbeats 8000000 in
/-- Window 7's array: row 2 of the softmax. -/
theorem V_main_v91 (c : Dev nD) : V m c main_v91 = kLamRow2 (m ((c : Thread nD τ).loc main_arg3)) (m ((c : Thread nD τ).loc main_arg4)) (m ((c : Thread nD τ).loc main_arg5)) (m ((c : Thread nD τ).loc main_arg6)) := by
  show StableHlo.after hostOps0 (fun b => m (c, b)) (Proc.devRef .tc main_v91) = _
  simp only [hostOps0]
  after_results_simp
  rfl

set_option maxHeartbeats 8000000 in
/-- Window 8's array: row 3 of the softmax. -/
theorem V_main_v92 (c : Dev nD) : V m c main_v92 = kLamRow3 (m ((c : Thread nD τ).loc main_arg3)) (m ((c : Thread nD τ).loc main_arg4)) (m ((c : Thread nD τ).loc main_arg5)) (m ((c : Thread nD τ).loc main_arg6)) := by
  show StableHlo.after hostOps0 (fun b => m (c, b)) (Proc.devRef .tc main_v92) = _
  simp only [hostOps0]
  after_results_simp
  rfl

end Cert.KernelIdeal.Hand

end
-- ==== Proof.KHost.lean ====
import proofs.«153265_j89558658056883_2_alg».proof.Proof.KHostA
import proofs.«153265_j89558658056883_2_alg».proof.Proof.KHostB
import proofs.«153265_j89558658056883_2_alg».proof.Proof.KHostC
import proofs.«153265_j89558658056883_2_alg».proof.Proof.KHostD

/-!
# Every window's array as the region finds it

The ten arrays the region's windows 1 … 10 stage, each as its host stage of the argument arrays: the four modules
imported here state one array each or a few (`V_main_v3`, `V_main_v12`, `V_main_v42`, `V_main_v72`,
`V_main_v89 … V_main_v92`, `V_main_v93`, `V_main_v94`); window 0's array is the argument `main_arg0` itself
(`V_main_arg0`).
-/
-- ==== Proof.Finite.lean ====
/-
  From the precondition "every input is finite" to "every entry of the first argument is a real":
  the precondition is a conjunction of `all |v| < +∞`, one per float argument; its first conjunct,
  read at an index, says `|x i| < +∞`, and an extended real whose absolute value is below `+∞` is a real.
-/
import proofs.«153265_j89558658056883_2_alg».proof.Defs
import Idealize.ShloMosaic.Lib.ReduceAll
import Idealize.ShloMosaic.Lib.ValueIdx

noncomputable section

namespace Cert.Proof.Finite

open Idealize.ShloMosaic Idealize.SL.Sem

/-- The scalar shape has one index. -/
instance : Subsingleton Cert.Pre_finite_inputs.S_.Idx := ⟨fun a b => funext fun d => d.elim0⟩

/-- The f32 pattern `0x7F800000` denotes `+∞`. -/
theorem ofBits_inf : Ideal.ofBits .f32 0x7F800000#32 = (⊤ : EReal) := by
  simp [Ideal.ofBits, Ideal.ieee]

/-- An extended real whose absolute value `max x (-x)` is below `+∞` is a real. -/
theorem real_of_abs_lt_top (x : EReal) (h : max x (-x) < ⊤) : ∃ r : ℝ, x = (r : EReal) := by
  induction x using EReal.rec with
  | bot => simp at h
  | coe r => exact ⟨r, rfl⟩
  | top => simp at h

/-- A comparison `<` that answers the bit 1 holds. -/
theorem lt_of_cmp_olt {x y : EReal} (h : Ideal.cmp .olt x y = 1#1) : x < y := by
  unfold Ideal.cmp at h
  by_contra hn
  simp [hn] at h

/-- Under the precondition every entry of the first argument is a real. -/
theorem x_finite [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S100000x128.Idx) :
    ∃ r : ℝ, (m ((c.tc : Thread Cert.KernelIdeal.nD Cert.KernelIdeal.τ).loc Cert.KernelIdeal.main_arg0)
      : Cert.KernelIdeal.S100000x128.Idx → EReal) i = (r : EReal) := by
  have h0 := congrFun (h c) ValueIdx.ix0
  dsimp only [Cert.Pre_finite_inputs.fn, Cert.Pre_finite_inputs.fn_part1] at h0
  have h1 := (IntOp.andi_eq_one.1 h0).1
  have h2 := (IntOp.andi_eq_one.1 h1).1
  have h3 := (IntOp.andi_eq_one.1 h2).1
  have h4 := (IntOp.andi_eq_one.1 h3).1
  have h5 := (IntOp.andi_eq_one.1 h4).1
  have h6 := (IntOp.andi_eq_one.1 h5).1
  have h7 := Host.reduce_andi_all _ _ _ _ _ h6 i
  have h8 : ∀ x : EReal, x = (m ((c.tc : Thread Cert.KernelIdeal.nD Cert.KernelIdeal.τ).loc Cert.KernelIdeal.main_arg0)
      : Cert.KernelIdeal.S100000x128.Idx → EReal) i →
      Ideal.cmp .olt (max x (-x)) (Ideal.ofBits .f32 0x7F800000#32) = 1#1 := fun x hx => by rw [hx]; exact h7
  have h9 := h8 _ rfl
  rw [ofBits_inf] at h9
  exact real_of_abs_lt_top _ (lt_of_cmp_olt h9)

end Cert.Proof.Finite

end
-- ==== Proof.HostLayout.lean ====
/-
  The host's broadcasts of a vector into a matrix with one unit axis, and of a one-column matrix along its rows, read at
  explicit coordinates: what stands between an entry of the reference's result and the entries it depends on, beside the
  library's readings of a one-row broadcast, a scalar broadcast, a row slice and a one-row cast.
-/
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost

noncomputable section

namespace Cert.Combine

open Idealize.ShloMosaic Idealize.ShloMosaic.ValueIdx

variable {α : Type}

/-- A vector of `n` entries laid as the one row of `[1, n]` reads, at `(0, j)`, the vector at `j`. -/
theorem bcast_vec_row_apply {n : ℕ} (x : (⟨1, ![n]⟩ : Shape).Idx → α)
    (h : (⟨1, ![n]⟩ : Shape).BroadcastsInDim ⟨2, ![1, n]⟩ ![1]) (j : Fin n) :
    broadcastInDim ⟨2, ![1, n]⟩ ![1] h x (ix2 (0 : Fin 1) j) = x (ix1 j) := by
  refine broadcastInDim_apply ![1] h x (ix2 (0 : Fin 1) j) (ix1 j) fun a => ?_
  match a with
  | ⟨0, _⟩ =>
    show j.val = if n = 1 then 0 else j.val
    split
    · have := j.isLt; omega
    · rfl

/-- A vector of `a` entries laid as the one column of `[a, 1]` reads, at `(p, 0)`, the vector at `p`. -/
theorem bcast_vec_col_apply {a : ℕ} (x : (⟨1, ![a]⟩ : Shape).Idx → α)
    (h : (⟨1, ![a]⟩ : Shape).BroadcastsInDim ⟨2, ![a, 1]⟩ ![0]) (p : Fin a) :
    broadcastInDim ⟨2, ![a, 1]⟩ ![0] h x (ix2 p (0 : Fin 1)) = x (ix1 p) := by
  refine broadcastInDim_apply ![0] h x (ix2 p (0 : Fin 1)) (ix1 p) fun ax => ?_
  match ax with
  | ⟨0, _⟩ =>
    show p.val = if a = 1 then 0 else p.val
    split
    · have := p.isLt; omega
    · rfl

/-- A one-column matrix `[a, 1]` repeated along `b` columns reads, at `(p, c)`, the column at `(p, 0)`. -/
theorem bcast_col_cols_apply {a b : ℕ} (y : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h y (ix2 p c) = y (ix2 p (0 : Fin 1)) := by
  refine broadcastInDim_apply ![0, 1] h y (ix2 p c) (ix2 p (0 : Fin 1)) fun ax => ?_
  match ax with
  | ⟨0, _⟩ =>
    show p.val = if a = 1 then 0 else p.val
    split
    · have := p.isLt; omega
    · rfl
  | ⟨1, _⟩ => rfl

/-- Row `k` of a matrix `[n, b]` cut out as `[1, b]` reads, at `(0, j)`, the matrix at `(k, j)`. -/
theorem slice_row_apply {n b : ℕ} (k : Fin n) (X : (⟨2, ![n, b]⟩ : Shape).Idx → α)
    (h : (⟨2, ![n, b]⟩ : Shape).Slices ![k.val, 0] ⟨2, ![1, b]⟩) (j : Fin b) :
    extractStridedSlice ⟨2, ![1, b]⟩ ![k.val, 0] X h (ix2 (0 : Fin 1) j) = X (ix2 k j) :=
  extractStridedSlice_apply _ X h _ _ (fun ax => by
    match ax with
    | ⟨0, _⟩ => show k.val = k.val + 0; omega
    | ⟨1, _⟩ => show j.val = 0 + j.val; omega)

/-- The host's inverse square root at an index is the inverse square root of the entry. -/
theorem hostRsqrt_apply {s : Shape} {φ : FTy} (v : FVec Ideal s φ) (i : s.Idx) : Host.rsqrt v i = Ideal.rsqrt (v i) := rfl

/-- The host's exponential at an index is the exponential of the entry. -/
theorem hostExp_apply {s : Shape} {φ : FTy} (v : FVec Ideal s φ) (i : s.Idx) : Host.exp v i = Ideal.exp (v i) := rfl

end Cert.Combine

end
-- ==== Proof.RefLayout.lean ====
/-
  The reference's layout operations read at explicit coordinates, with the shapes spelt as the reference spells them:
  a row of 128 laid under every row of the result, a vector laid as that one row, a column of 100000 repeated along the
  128 entries of each row, a vector laid as that one column, a scalar laid everywhere, the one-row cast of a row back
  to a vector, and the four rows of the weight table cut out one by one.
-/
import proofs.«153265_j89558658056883_2_alg».proof.ReferenceIdeal
import proofs.«153265_j89558658056883_2_alg».proof.Proof.Layout
import proofs.«153265_j89558658056883_2_alg».proof.Proof.HostLayout

noncomputable section

namespace Cert.ReferenceIdeal.RefValue

open Cert.ReferenceIdeal Cert.Combine
open Idealize.ShloMosaic Idealize.ShloMosaic.ValueIdx

variable {α : Type}

/-- A row of 128 laid under each of the 100000 rows, at `(r, j)`: the row at `j`. -/
theorem bc_row_apply (y : S1x128.Idx → α) (h : S1x128.BroadcastsInDim S100000x128 ![0, 1]) (r : Fin 100000) (j : Fin 128) :
    broadcastInDim S100000x128 ![0, 1] h y (ix2 r j) = y (ix2 (0 : Fin 1) j) :=
  broadcastInDim_oneRow_apply h y r j

/-- A vector of 128 laid as one row, at `(0, j)`: the vector at `j`. -/
theorem bc_vec_apply (x : S128.Idx → α) (h : S128.BroadcastsInDim S1x128 ![1]) (j : Fin 128) :
    broadcastInDim S1x128 ![1] h x (ix2 (0 : Fin 1) j) = x (ix1 j) :=
  bcast_vec_row_apply x h j

/-- A column of 100000 repeated along each row's 128 entries, at `(r, j)`: the column at `r`. -/
theorem bc_col_apply (y : S100000x1.Idx → α) (h : S100000x1.BroadcastsInDim S100000x128 ![0, 1]) (r : Fin 100000) (j : Fin 128) :
    broadcastInDim S100000x128 ![0, 1] h y (ix2 r j) = y (ix2 r (0 : Fin 1)) :=
  bcast_col_cols_apply y h r j

/-- A vector of 100000 laid as one column, at `(r, 0)`: the vector at `r`. -/
theorem bc_veccol_apply (x : S100000.Idx → α) (h : S100000.BroadcastsInDim S100000x1 ![0]) (r : Fin 100000) :
    broadcastInDim S100000x1 ![0] h x (ix2 r (0 : Fin 1)) = x (ix1 r) :=
  bcast_vec_col_apply x h r

/-- A scalar laid over any shape reads the scalar. -/
theorem bc_scalar_apply {T : Shape} (h : S_.BroadcastsInDim T ![]) (x : S_.Idx → α) (i : T.Idx) :
    broadcastInDim T ![] h x i = x ix0 :=
  broadcastInDim_scalar_apply h x i

/-- A one-row matrix cast back to a vector, at `j`: the row at `(0, j)`. -/
theorem cast_row_apply (x : S1x128.Idx → α) (h : S1x128.ShapeCasts S128) (j : Fin 128) :
    shapeCast S128 x h (ix1 j) = x (ix2 (0 : Fin 1) j) :=
  shapeCast_1a_a_apply x h j

/-- Row 0 of the four-row weight table. -/
theorem slice_row0_apply (X : S4x128.Idx → α) (h : S4x128.Slices ![0, 0] S1x128) (j : Fin 128) :
    extractStridedSlice S1x128 ![0, 0] X h (ix2 (0 : Fin 1) j) = X (ix2 (0 : Fin 4) j) := slice_row_apply (0 : Fin 4) X h j
/-- Row 1 of the four-row weight table. -/
theorem slice_row1_apply (X : S4x128.Idx → α) (h : S4x128.Slices ![1, 0] S1x128) (j : Fin 128) :
    extractStridedSlice S1x128 ![1, 0] X h (ix2 (0 : Fin 1) j) = X (ix2 (1 : Fin 4) j) := slice_row_apply (1 : Fin 4) X h j
/-- Row 2 of the four-row weight table. -/
theorem slice_row2_apply (X : S4x128.Idx → α) (h : S4x128.Slices ![2, 0] S1x128) (j : Fin 128) :
    extractStridedSlice S1x128 ![2, 0] X h (ix2 (0 : Fin 1) j) = X (ix2 (2 : Fin 4) j) := slice_row_apply (2 : Fin 4) X h j
/-- Row 3 of the four-row weight table. -/
theorem slice_row3_apply (X : S4x128.Idx → α) (h : S4x128.Slices ![3, 0] S1x128) (j : Fin 128) :
    extractStridedSlice S1x128 ![3, 0] X h (ix2 (0 : Fin 1) j) = X (ix2 (3 : Fin 4) j) := slice_row_apply (3 : Fin 4) X h j

end Cert.ReferenceIdeal.RefValue

end
-- ==== Proof.RefRead.lean ====
/-
  One entry of the reference's result in terms of the reference's own stages read at the entries it depends on: the scale
  and the shift at column `j`; the four weights at `(k, j)` of the softmax table; for the batch branch the column mean and
  variance at `j`; for the graph branch the gathered per-graph mean and variance at `(r, j)`; for the neighbour branch the
  per-node mean and variance at `(r, j)`; for the node branch the row mean and variance at `r`.
-/
import proofs.«153265_j89558658056883_2_alg».proof.Proof.Gen.ReferenceIdeal.Run
import proofs.«153265_j89558658056883_2_alg».proof.Proof.Spec
import proofs.«153265_j89558658056883_2_alg».proof.Proof.KPayload
import proofs.«153265_j89558658056883_2_alg».proof.Proof.RefLayout
import Idealize.ShloMosaic.PureOps.Ideal.Laws

set_option maxRecDepth 16384

noncomputable section

namespace Cert.ReferenceIdeal.RefValue

open Cert.ReferenceIdeal Cert.ReferenceIdeal.Gen Cert.ReferenceIdeal.Value Cert.Combine
open Idealize.ShloMosaic Idealize.ShloMosaic.TcCoe Idealize.SL.Sem Idealize.ShloMosaic.ValueIdx Idealize.ShloMosaic.StableHlo
open scoped BigOperators

variable (V0 : Valuation τ sig (Elt Ideal))

/-- The entries `x`. -/
abbrev rdX : FVec Ideal S100000x128 .f32 := V0 (Proc.devRef .tc main_arg0)
/-- The scale. -/
abbrev rdGam : FVec Ideal S128 .f32 := V0 (Proc.devRef .tc main_arg1)
/-- The shift. -/
abbrev rdBet : FVec Ideal S128 .f32 := V0 (Proc.devRef .tc main_arg2)
/-- The graph ids. -/
abbrev rdGid : IVec S100000 32 := V0 (Proc.devRef .tc main_arg7)
/-- The edges' destinations. -/
abbrev rdDst : IVec S600000 32 := V0 (Proc.devRef .tc main_arg9)

/-- The column means, one row. -/
abbrev r3 : FVec Ideal S1x128 .f32 := res_main_v3 (F := Ideal) V0
/-- The node counts per graph, floored at one, one column. -/
abbrev r24 : FVec Ideal S1000x1 .f32 := res_main_v24 (F := Ideal) V0
/-- The per-graph means. -/
abbrev r33 : FVec Ideal S1000x128 .f32 := res_main_v33 (F := Ideal) V0
/-- The messages. -/
abbrev r65 : FVec Ideal S600000x128 .f32 := res_main_v65 (F := Ideal) V0
/-- The in-degrees, floored at one, one column. -/
abbrev r72 : FVec Ideal S100000x1 .f32 := res_main_v72 (F := Ideal) V0
/-- The neighbourhood means. -/
abbrev r81 : FVec Ideal S100000x128 .f32 := res_main_v81 (F := Ideal) V0
/-- The row means, one column. -/
abbrev r96 : FVec Ideal S100000x1 .f32 := res_main_v96 (F := Ideal) V0
/-- The entries less their row means. -/
abbrev r98 : FVec Ideal S100000x128 .f32 := res_main_v98 (F := Ideal) V0
/-- The softmax table of the four weights. -/
abbrev r126 : FVec Ideal S4x128 .f32 := res_main_v126 (F := Ideal) V0

/-- The batch variance of column `j`, unclamped: the mean of the squares less the squared mean. -/
def varB (j : Fin 128) : EReal :=
  Ideal.div (Host.reduceAdd (F := Ideal) (mulf (rdX V0) (rdX V0)) (constant (F := Ideal) S_ .f32 0x00000000#32) reducesTo_S100000x128_S128_d0 h_S_ (ix1 j))
      (Ideal.ofBits .f32 0x47C35000#32)
    - r3 V0 (ix2 (0 : Fin 1) j) * r3 V0 (ix2 (0 : Fin 1) j)

/-- The graph index of every node, wrapped into range, as a column. -/
def idxG : IVec S100000x1 32 :=
  broadcastInDim S100000x1 ![0] bcast_S100000_S100000x1_0
    (select (cmpi .slt (rdGid V0) (broadcastInDim S100000 ![] bcast_S_S100000 (constantI S_ 32 0#32)))
      (addi (rdGid V0) (broadcastInDim S100000 ![] bcast_S_S100000 (constantI S_ 32 1000#32))) (rdGid V0))

/-- The per-graph clamped variances. -/
def varGArr : FVec Ideal S1000x128 .f32 :=
  maximumf
    (subf
      (Host.divf
        (Host.scatterAdd (F := Ideal) scatter_S1000x128_S100000x1_S100000x128_1_0_0_1
          (broadcastInDim S1000x128 ![] bcast_S_S1000x128 (constant (F := Ideal) S_ .f32 0x00000000#32))
          (broadcastInDim S100000x1 ![0] bcast_S100000_S100000x1_0 (rdGid V0)) (mulf (rdX V0) (rdX V0)))
        (broadcastInDim S1000x128 ![0, 1] bcast_S1000x1_S1000x128_0_1 (r24 V0)))
      (mulf (r33 V0) (r33 V0)))
    (broadcastInDim S1000x128 ![] bcast_S_S1000x128 (constant (F := Ideal) S_ .f32 0x00000000#32))

/-- Node `r`'s graph mean at column `j`. -/
def muG (r : Fin 100000) (j : Fin 128) : EReal :=
  Host.gather gather_S1000x128_S100000x1_S100000x128_1_0_n_n_0_1_1128 (r33 V0) (idxG V0) (ix2 r j)
/-- Node `r`'s graph variance at column `j`. -/
def varG (r : Fin 100000) (j : Fin 128) : EReal :=
  Host.gather gather_S1000x128_S100000x1_S100000x128_1_0_n_n_0_1_1128 (varGArr V0) (idxG V0) (ix2 r j)

/-- Node `r`'s neighbourhood variance at column `j`, clamped at zero. -/
def varA (r : Fin 100000) (j : Fin 128) : EReal :=
  max
    (Ideal.div
        (Host.scatterAdd (F := Ideal) scatter_S100000x128_S600000x1_S600000x128_1_0_0_1
          (broadcastInDim S100000x128 ![] bcast_S_S100000x128 (constant (F := Ideal) S_ .f32 0x00000000#32))
          (broadcastInDim S600000x1 ![0] bcast_S600000_S600000x1_0 (rdDst V0))
          (mulf (r65 V0) (r65 V0)) (ix2 r j))
        (r72 V0 (ix2 r (0 : Fin 1)))
      - r81 V0 (ix2 r j) * r81 V0 (ix2 r j))
    (Ideal.ofBits .f32 0x00000000#32)

/-- Row `r`'s variance about its mean. -/
def varN (r : Fin 100000) : EReal :=
  Ideal.div
    (Host.reduceAdd (F := Ideal) (mulf (r98 V0) (r98 V0))
      (constant (F := Ideal) S_ .f32 0x00000000#32) reducesTo_S100000x128_S100000_d1 h_S_ (ix1 r))
    (Ideal.ofBits .f32 0x43000000#32)

/-- The reference's result at `(r, j)`. -/
theorem ref_apply (r : Fin 100000) (j : Fin 128) :
    (val4 (F := Ideal) V0 (Proc.devRef .tc main_v155) : FVec Ideal S100000x128 .f32) (ix2 r j)
      = entryR (rdGam V0 (ix1 j)) (rdBet V0 (ix1 j))
          (branchR eps (r126 V0 (ix2 (3 : Fin 4) j)) (rdX V0 (ix2 r j)) (r96 V0 (ix2 r (0 : Fin 1))) (varN V0 r))
          (branchR eps (r126 V0 (ix2 (0 : Fin 4) j)) (rdX V0 (ix2 r j)) (r3 V0 (ix2 (0 : Fin 1) j)) (varB V0 j))
          (branchR eps (r126 V0 (ix2 (1 : Fin 4) j)) (rdX V0 (ix2 r j)) (muG V0 r j) (varG V0 r j))
          (branchR eps (r126 V0 (ix2 (2 : Fin 4) j)) (rdX V0 (ix2 r j)) (r81 V0 (ix2 r j)) (varA V0 r j)) := by
  rw [val4_main_v155]
  unfold res_main_v149
  repeat (first
    | rw [addf_apply] | rw [mulf_apply] | rw [subf_apply] | rw [maximumf_apply] | rw [hostDivf_apply] | rw [hostRsqrt_apply]
    | rw [bc_row_apply] | rw [bc_vec_apply] | rw [bc_col_apply] | rw [bc_veccol_apply] | rw [bc_scalar_apply]
    | rw [cast_row_apply] | rw [slice_row0_apply] | rw [slice_row1_apply] | rw [slice_row2_apply] | rw [slice_row3_apply]
    | rw [constant_apply])
  rfl

end Cert.ReferenceIdeal.RefValue

end
-- ==== Proof.NodeStats.lean ====
/-
  The reference's node branch: its sums along each row, read at a row, are the sums of that row's entries, so its row mean
  and row variance are the kernel's `rowMean` and `rowVar` of the row (the host's sum starts from the zero word, which is 0).
-/
import proofs.«153265_j89558658056883_2_alg».proof.Proof.Gen.ReferenceIdeal.Run
import proofs.«153265_j89558658056883_2_alg».proof.Proof.KPayload
import proofs.«153265_j89558658056883_2_alg».proof.Proof.RefLayout
import Idealize.ShloMosaic.PureOps.Ideal.Laws

set_option maxRecDepth 16384

noncomputable section

namespace Cert.ReferenceIdeal.RefValue

open Cert.ReferenceIdeal Cert.ReferenceIdeal.Gen Cert.ReferenceIdeal.Value Cert.Combine
open Idealize.ShloMosaic Idealize.ShloMosaic.TcCoe Idealize.SL.Sem Idealize.ShloMosaic.ValueIdx Idealize.ShloMosaic.StableHlo
open scoped BigOperators

/-- The shapes' own fact that summing a matrix along its rows' entries leaves one entry per row. -/
theorem red_rows : S100000x128.Reduces [1] S100000 := by decide

/-- The host's sum of a matrix along each row, from the zero word, read at row `r`: the sum of the row's entries. -/
theorem rowsum_apply (y : FVec Ideal S100000x128 .f32) (h' : S100000x128.ReducesTo [1] S100000) (hS : 0 < S_.numel) (r : Fin 100000) :
    Host.reduceAdd (F := Ideal) y (constant (F := Ideal) S_ .f32 0x00000000#32) h' hS (ix1 r) = ∑ k : Fin 128, y (ix2 r k) := by
  refine (hostReduceAdd_apply y _ h' hS (ix1 r)).trans ?_
  refine (Ideal.hostReduceAdd_single h' red_rows y _ (ix1 r)).trans ?_
  rw [constant_apply, Ideal.ofBits_zero_f32, zero_add]
  refine Finset.sum_congr rfl fun k _ => congrArg y ?_
  funext d
  match d with
  | ⟨0, _⟩ => exact Fin.ext rfl
  | ⟨1, _⟩ => exact Fin.ext rfl

/-- The reference's row mean at row `r` is the mean of the row's 128 entries. -/
theorem node_mean (V0 : Valuation τ sig (Elt Ideal)) (r : Fin 100000) :
    res_main_v96 (F := Ideal) V0 (ix2 r (0 : Fin 1))
      = rowMean fun k => (V0 (Proc.devRef .tc main_arg0) : FVec Ideal S100000x128 .f32) (ix2 r k) := by
  unfold res_main_v96 rowMean
  rw [hostDivf_apply, bc_veccol_apply, bc_scalar_apply, constant_apply, rowsum_apply]

/-- The reference's row variance at row `r` is the variance of the row's 128 entries about their mean. -/
theorem node_var (V0 : Valuation τ sig (Elt Ideal)) (h' : S100000x128.ReducesTo [1] S100000) (hS : 0 < S_.numel) (r : Fin 100000) :
    Ideal.div (Host.reduceAdd (F := Ideal) (mulf (res_main_v98 (F := Ideal) V0) (res_main_v98 (F := Ideal) V0))
        (constant (F := Ideal) S_ .f32 0x00000000#32) h' hS (ix1 r)) (Ideal.ofBits .f32 0x43000000#32)
      = rowVar fun k => (V0 (Proc.devRef .tc main_arg0) : FVec Ideal S100000x128 .f32) (ix2 r k) := by
  rw [rowsum_apply]
  unfold rowVar
  refine congrArg (fun s => Ideal.div s lanes) ?_
  refine Finset.sum_congr rfl fun k _ => ?_
  rw [mulf_apply]
  unfold res_main_v98
  rw [subf_apply, bc_col_apply, node_mean]

end Cert.ReferenceIdeal.RefValue

end
-- ==== Proof.BatchVar.lean ====
/-
  The batch variance of real data is not negative, so clamping it at zero changes nothing:
  for reals `f 1 … f n`, `(∑ f)² ≤ n · ∑ f²` (Cauchy–Schwarz), hence `(∑ f²)/n − ((∑ f)/n)² ≥ 0`.
  Read on the host's column sums of a `[100000, 128]` array whose entries are all reals, at the ideal instance.
-/
import proofs.«153265_j89558658056883_2_alg».proof.KernelIdeal
import Idealize.ShloMosaic.Lib.IdealHost
import Idealize.ShloMosaic.Lib.Pipeline.Value
import Mathlib.Algebra.Order.Chebyshev

noncomputable section

namespace Cert.Proof.BatchVar

open Idealize.ShloMosaic Idealize.ShloMosaic.ValueIdx
open scoped BigOperators

/-- The f32 pattern `0x47C35000` denotes the real `100000`. -/
theorem ofBits_100000 : Ideal.ofBits .f32 0x47C35000#32 = ((100000 : ℝ) : EReal) := by
  simp [Ideal.ofBits, Ideal.ieee, -EReal.coe_mul]; norm_num

/-- The embedding of the reals commutes with finite sums. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The variance of `n` reals, as mean of squares minus square of the mean, is not negative. -/
theorem real_var_nonneg {n : ℕ} (hn : 0 < n) (f : Fin n → ℝ) :
    0 ≤ (∑ k, f k * f k) * (1 / (n : ℝ)) - ((∑ k, f k) * (1 / (n : ℝ))) * ((∑ k, f k) * (1 / (n : ℝ))) := by
  have hn' : (0 : ℝ) < n := by exact_mod_cast hn
  have hcs : (∑ k, f k) ^ 2 ≤ (n : ℝ) * ∑ k, f k * f k := by
    have h := sq_sum_le_card_mul_sum_sq (s := (Finset.univ : Finset (Fin n))) (f := f)
    simpa [Finset.card_univ, Fintype.card_fin, sq] using h
  have key : (∑ k, f k * f k) * (1 / (n : ℝ)) - ((∑ k, f k) * (1 / (n : ℝ))) * ((∑ k, f k) * (1 / (n : ℝ)))
      = ((n : ℝ) * (∑ k, f k * f k) - (∑ k, f k) ^ 2) / (n : ℝ) ^ 2 := by
    field_simp
  rw [key]
  exact div_nonneg (sub_nonneg.2 hcs) (by positivity)

/-- The host's column sum of an array of reals, from the zero constant, at column `j`: the real sum down the column. -/
theorem colsum_apply (g : Cert.KernelIdeal.S100000x128.Idx → ℝ)
    (hr : Cert.KernelIdeal.S100000x128.ReducesTo [0] Cert.KernelIdeal.S128) (hS : 0 < Cert.KernelIdeal.S_.numel)
    (hR : Cert.KernelIdeal.S100000x128.Reduces [0] Cert.KernelIdeal.S128) (j : Cert.KernelIdeal.S128.Idx) :
    Host.reduceAdd (F := Ideal) (φ := .f32) (fun i => (g i : EReal)) (constant (F := Ideal) Cert.KernelIdeal.S_ .f32 0x00000000#32) hr hS j
      = ((∑ k : Fin 100000, g (hR.lift j k) : ℝ) : EReal) := by
  rw [hostReduceAdd_apply, Ideal.hostReduceAdd_single hr hR]
  rw [constant_apply, Ideal.ofBits_zero_f32, zero_add, coe_sum]
  rfl

/-- THE CLAMP IS IDLE: with every entry of `x` a real, the maximum of the batch variance and zero is the batch variance. -/
theorem batch_var_clamp (x : FVec Ideal Cert.KernelIdeal.S100000x128 .f32) (hfin : ∀ i, ∃ r : ℝ, x i = (r : EReal))
    (hr : Cert.KernelIdeal.S100000x128.ReducesTo [0] Cert.KernelIdeal.S128) (hS : 0 < Cert.KernelIdeal.S_.numel)
    (h1 : Cert.KernelIdeal.S128.BroadcastsInDim Cert.KernelIdeal.S1x128 (![1] : Fin 1 → Fin Cert.KernelIdeal.S1x128.rank))
    (h0 : Cert.KernelIdeal.S_.BroadcastsInDim Cert.KernelIdeal.S1x128 (![] : Fin 0 → Fin Cert.KernelIdeal.S1x128.rank)) :
    maximumf (subf (Host.divf (broadcastInDim Cert.KernelIdeal.S1x128 ![1] h1 (Host.reduceAdd (mulf x x) (constant (F := Ideal) Cert.KernelIdeal.S_ .f32 0x00000000#32) hr hS)) (broadcastInDim Cert.KernelIdeal.S1x128 ![] h0 (constant (F := Ideal) Cert.KernelIdeal.S_ .f32 0x47C35000#32))) (mulf (Host.divf (broadcastInDim Cert.KernelIdeal.S1x128 ![1] h1 (Host.reduceAdd x (constant (F := Ideal) Cert.KernelIdeal.S_ .f32 0x00000000#32) hr hS)) (broadcastInDim Cert.KernelIdeal.S1x128 ![] h0 (constant (F := Ideal) Cert.KernelIdeal.S_ .f32 0x47C35000#32))) (Host.divf (broadcastInDim Cert.KernelIdeal.S1x128 ![1] h1 (Host.reduceAdd x (constant (F := Ideal) Cert.KernelIdeal.S_ .f32 0x00000000#32) hr hS)) (broadcastInDim Cert.KernelIdeal.S1x128 ![] h0 (constant (F := Ideal) Cert.KernelIdeal.S_ .f32 0x47C35000#32))))) (broadcastInDim Cert.KernelIdeal.S1x128 ![] h0 (constant (F := Ideal) Cert.KernelIdeal.S_ .f32 0x00000000#32))
      = (subf (Host.divf (broadcastInDim Cert.KernelIdeal.S1x128 ![1] h1 (Host.reduceAdd (mulf x x) (constant (F := Ideal) Cert.KernelIdeal.S_ .f32 0x00000000#32) hr hS)) (broadcastInDim Cert.KernelIdeal.S1x128 ![] h0 (constant (F := Ideal) Cert.KernelIdeal.S_ .f32 0x47C35000#32))) (mulf (Host.divf (broadcastInDim Cert.KernelIdeal.S1x128 ![1] h1 (Host.reduceAdd x (constant (F := Ideal) Cert.KernelIdeal.S_ .f32 0x00000000#32) hr hS)) (broadcastInDim Cert.KernelIdeal.S1x128 ![] h0 (constant (F := Ideal) Cert.KernelIdeal.S_ .f32 0x47C35000#32))) (Host.divf (broadcastInDim Cert.KernelIdeal.S1x128 ![1] h1 (Host.reduceAdd x (constant (F := Ideal) Cert.KernelIdeal.S_ .f32 0x00000000#32) hr hS)) (broadcastInDim Cert.KernelIdeal.S1x128 ![] h0 (constant (F := Ideal) Cert.KernelIdeal.S_ .f32 0x47C35000#32))))) := by
  obtain ⟨g, rfl⟩ : ∃ g : Cert.KernelIdeal.S100000x128.Idx → ℝ, x = fun i => (g i : EReal) :=
    ⟨fun i => (hfin i).choose, funext fun i => (hfin i).choose_spec⟩
  have hR : Cert.KernelIdeal.S100000x128.Reduces [0] Cert.KernelIdeal.S128 := by decide
  funext i
  rw [maximumf_apply]
  refine max_eq_left ?_
  have hk : ∀ a : Fin Cert.KernelIdeal.S128.rank, ((ix1 (n := 128) ⟨(i 1).val, idx2_lt1 i⟩ : Cert.KernelIdeal.S128.Idx) a).val
      = if Cert.KernelIdeal.S128.size a = 1 then 0 else (i ((![1] : Fin 1 → Fin Cert.KernelIdeal.S1x128.rank) a)).val := fun a => by
    match a with
    | ⟨0, _⟩ => exact (if_neg (show ¬ (128 : ℕ) = 1 by decide)).symm
  have hN : (100000 : ℝ) ≠ 0 := by norm_num
  rw [broadcastInDim_scalar_apply, constant_apply, Ideal.ofBits_zero_f32]
  rw [subf_apply, mulf_apply, hostDivf_apply, hostDivf_apply]
  rw [broadcastInDim_scalar_apply, constant_apply, ofBits_100000]
  rw [broadcastInDim_apply _ h1 _ i _ hk, broadcastInDim_apply _ h1 _ i _ hk]
  rw [colsum_apply g hr hS hR]
  have hsq : (mulf (F := Ideal) (s := Cert.KernelIdeal.S100000x128) (φ := .f32) (fun i => (g i : EReal)) fun i => (g i : EReal))
      = fun i => ((g i * g i : ℝ) : EReal) := funext fun i => (EReal.coe_mul _ _).symm
  rw [hsq, colsum_apply (fun i => g i * g i) hr hS hR]
  rw [Ideal.div_coe hN, Ideal.div_coe hN, ← EReal.coe_mul, ← EReal.coe_mul, ← EReal.coe_mul, ← EReal.coe_sub]
  exact EReal.coe_nonneg.2 (real_var_nonneg (n := 100000) (by norm_num) _)

end Cert.Proof.BatchVar

end
-- ==== Proof.BridgeA.lean ====
/-
  The kernel's host stages and the reference's own sub-terms, stage by stage (first part): the batch mean,
  the batch variance (whose clamp at zero is idle on real data), the softmax rows of the mixing logits, and
  a vector re-laid as a row.
-/
import proofs.«153265_j89558658056883_2_alg».proof.Proof.KHostDefs
import proofs.«153265_j89558658056883_2_alg».proof.Proof.Gen.ReferenceIdeal.Run
import proofs.«153265_j89558658056883_2_alg».proof.Proof.BatchVar
import Idealize.ShloMosaic.Lib.ValueLayout
import proofs.«153265_j89558658056883_2_alg».proof.Proof.HostLayout

noncomputable section

namespace Cert.Proof.Bridge

open Idealize.ShloMosaic Idealize.ShloMosaic.ValueIdx

/-- The batch column means: the kernel's stage is the reference's term, operation by operation. -/
theorem kMuB_eq (V0 : Valuation Cert.ReferenceIdeal.τ Cert.ReferenceIdeal.sig (Elt Ideal)) :
    Cert.KernelIdeal.Hand.kMuB (F := Ideal) (V0 (Proc.devRef .tc Cert.ReferenceIdeal.main_arg0)) = Cert.ReferenceIdeal.Value.res_main_v3 V0 := rfl

/-- The batch column variances: on real data the kernel's clamp at zero is idle, and what is left is the reference's
    term (mean of squares less the squared mean). -/
theorem kVarB_eq (V0 : Valuation Cert.ReferenceIdeal.τ Cert.ReferenceIdeal.sig (Elt Ideal))
    (hfin : ∀ i, ∃ r : ℝ, ((V0 (Proc.devRef .tc Cert.ReferenceIdeal.main_arg0)) : Cert.ReferenceIdeal.S100000x128.Idx → EReal) i = (r : EReal)) :
    Cert.KernelIdeal.Hand.kVarB (F := Ideal) (V0 (Proc.devRef .tc Cert.ReferenceIdeal.main_arg0))
      = subf (Host.divf (broadcastInDim Cert.ReferenceIdeal.S1x128 ![1] Cert.ReferenceIdeal.Facts₀.bcast_S128_S1x128_1
            (Host.reduceAdd (mulf (V0 (Proc.devRef .tc Cert.ReferenceIdeal.main_arg0)) (V0 (Proc.devRef .tc Cert.ReferenceIdeal.main_arg0))) (constant Cert.ReferenceIdeal.S_ .f32 0x00000000#32)
              Cert.ReferenceIdeal.Facts₀.reducesTo_S100000x128_S128_d0 Cert.ReferenceIdeal.Facts₀.h_S_))
          (broadcastInDim Cert.ReferenceIdeal.S1x128 ![] Cert.ReferenceIdeal.Facts₀.bcast_S_S1x128 (constant Cert.ReferenceIdeal.S_ .f32 0x47C35000#32)))
        (mulf (Cert.ReferenceIdeal.Value.res_main_v3 V0) (Cert.ReferenceIdeal.Value.res_main_v3 V0)) := by
  unfold Cert.KernelIdeal.Hand.kVarB Cert.KernelIdeal.Hand.kMuB
  rw [Cert.Proof.BatchVar.batch_var_clamp _ hfin]
  rfl

/-- The batch column variance read at `(0, j)`: the mean of squares down column `j` less the squared mean. -/
theorem kVarB_apply (V0 : Valuation Cert.ReferenceIdeal.τ Cert.ReferenceIdeal.sig (Elt Ideal))
    (hfin : ∀ i, ∃ r : ℝ, ((V0 (Proc.devRef .tc Cert.ReferenceIdeal.main_arg0)) : Cert.ReferenceIdeal.S100000x128.Idx → EReal) i = (r : EReal)) (j : Fin 128) :
    Cert.KernelIdeal.Hand.kVarB (F := Ideal) (V0 (Proc.devRef .tc Cert.ReferenceIdeal.main_arg0)) (ix2 (0 : Fin 1) j)
      = (HSub.hSub (α := EReal) (β := EReal) (γ := EReal) (Ideal.div (Host.reduceAdd (F := Ideal) (mulf (V0 (Proc.devRef .tc Cert.ReferenceIdeal.main_arg0)) (V0 (Proc.devRef .tc Cert.ReferenceIdeal.main_arg0))) (constant Cert.ReferenceIdeal.S_ .f32 0x00000000#32)
            Cert.ReferenceIdeal.Facts₀.reducesTo_S100000x128_S128_d0 Cert.ReferenceIdeal.Facts₀.h_S_ (ix1 j)) (Ideal.ofBits .f32 0x47C35000#32)) (HMul.hMul (α := EReal) (β := EReal) (γ := EReal) (Cert.ReferenceIdeal.Value.res_main_v3 V0 (ix2 (0 : Fin 1) j)) (Cert.ReferenceIdeal.Value.res_main_v3 V0 (ix2 (0 : Fin 1) j)))) := by
  rw [kVarB_eq V0 hfin, subf_apply, mulf_apply, hostDivf_apply, Cert.Combine.bcast_vec_row_apply,
    broadcastInDim_scalar_apply, constant_apply]

/-- The softmax of the mixing logits: the kernel's stage is the reference's term. -/
theorem kLam_eq (V0 : Valuation Cert.ReferenceIdeal.τ Cert.ReferenceIdeal.sig (Elt Ideal)) :
    Cert.KernelIdeal.Hand.kLam (F := Ideal) (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6)) = Cert.ReferenceIdeal.Value.res_main_v126 V0 := rfl

/-- Row `k` of a `[4, 128]` array cut out as `[1, 128]` reads, at `(0, j)`, the array at `(k, j)`. -/
theorem slice_row4_apply {α : Type} (k : Fin 4) (X : Cert.KernelIdeal.S4x128.Idx → α)
    (h : Cert.KernelIdeal.S4x128.Slices ![k.val, 0] Cert.KernelIdeal.S1x128) (j : Fin 128) :
    extractStridedSlice Cert.KernelIdeal.S1x128 ![k.val, 0] X h (ix2 (0 : Fin 1) j) = X (ix2 k j) :=
  extractStridedSlice_apply _ X h _ _ (fun ax => by
    match ax with
    | ⟨0, _⟩ => show k.val = k.val + 0; omega
    | ⟨1, _⟩ => show j.val = 0 + j.val; omega)

/-- The softmax's four rows, read at `(0, j)`: the reference's softmax at `(k, j)`. -/
theorem kLamRow0_apply (V0 : Valuation Cert.ReferenceIdeal.τ Cert.ReferenceIdeal.sig (Elt Ideal)) (j : Fin 128) :
    Cert.KernelIdeal.Hand.kLamRow0 (F := Ideal) (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6)) (ix2 (0 : Fin 1) j)
      = Cert.ReferenceIdeal.Value.res_main_v126 V0 (ix2 (0 : Fin 4) j) := by
  unfold Cert.KernelIdeal.Hand.kLamRow0
  rw [kLam_eq]
  exact slice_row4_apply 0 _ _ j
theorem kLamRow1_apply (V0 : Valuation Cert.ReferenceIdeal.τ Cert.ReferenceIdeal.sig (Elt Ideal)) (j : Fin 128) :
    Cert.KernelIdeal.Hand.kLamRow1 (F := Ideal) (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6)) (ix2 (0 : Fin 1) j)
      = Cert.ReferenceIdeal.Value.res_main_v126 V0 (ix2 (1 : Fin 4) j) := by
  unfold Cert.KernelIdeal.Hand.kLamRow1
  rw [kLam_eq]
  exact slice_row4_apply 1 _ _ j
theorem kLamRow2_apply (V0 : Valuation Cert.ReferenceIdeal.τ Cert.ReferenceIdeal.sig (Elt Ideal)) (j : Fin 128) :
    Cert.KernelIdeal.Hand.kLamRow2 (F := Ideal) (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6)) (ix2 (0 : Fin 1) j)
      = Cert.ReferenceIdeal.Value.res_main_v126 V0 (ix2 (2 : Fin 4) j) := by
  unfold Cert.KernelIdeal.Hand.kLamRow2
  rw [kLam_eq]
  exact slice_row4_apply 2 _ _ j
theorem kLamRow3_apply (V0 : Valuation Cert.ReferenceIdeal.τ Cert.ReferenceIdeal.sig (Elt Ideal)) (j : Fin 128) :
    Cert.KernelIdeal.Hand.kLamRow3 (F := Ideal) (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6)) (ix2 (0 : Fin 1) j)
      = Cert.ReferenceIdeal.Value.res_main_v126 V0 (ix2 (3 : Fin 4) j) := by
  unfold Cert.KernelIdeal.Hand.kLamRow3
  rw [kLam_eq]
  exact slice_row4_apply 3 _ _ j

/-- A 128-vector re-laid as the one row of `[1, 128]` reads, at `(0, j)`, the vector at `j`. -/
theorem kRow_apply {F : FTy → Type} [FloatOps F] (v : Vec F Cert.KernelIdeal.S128 .f32) (j : Fin 128) :
    Cert.KernelIdeal.Hand.kRow v (ix2 (0 : Fin 1) j) = v (ix1 j) := by
  unfold Cert.KernelIdeal.Hand.kRow
  exact shapeCast_a_1a_apply v _ 0 j

end Cert.Proof.Bridge

end
-- ==== Proof.LibScatterSet.lean ====
/-
  Scatter with the "set" body: the value at an operand index no update lands on is the
  operand's; the value at an operand index exactly one update lands on is that update's.
  And the characterisation of the operand index an update lands on.
-/
import Idealize.ShloMosaic.PureOps

namespace Idealize.ShloMosaic

section ScatterSet
variable {s si u : Shape} {α : Type} {w : Nat}

/-- The left fold of the scatter step with the body `fun _ b => b` over ANY list of update
    positions, read at an operand index `i` that none of the listed updates lands on, is the
    starting value at `i`. -/
theorem Host.scatter_set_foldl_of_miss (d : ScatterDims s si u) (idx : IVec si w) (upd : u.Idx → α) (i : s.Idx) :
    ∀ (l : List (Fin u.numel)) (x : s.Idx → α),
      (∀ n ∈ l, d.resultIdx? (u.rowMajor.symm n) idx ≠ some i) →
      l.foldl (fun r n =>
          match d.resultIdx? (u.rowMajor.symm n) idx with
          | some i => fun i' => if i' = i then (fun _ b => b) (r i) (upd (u.rowMajor.symm n)) else r i'
          | none => r) x i = x i := by
  intro l
  induction l with
  | nil => intro x _; rfl
  | cons n l ih =>
    intro x h
    rw [List.foldl_cons, ih _ fun m hm => h m (List.mem_cons_of_mem _ hm)]
    have hn := h n List.mem_cons_self
    cases h0 : d.resultIdx? (u.rowMajor.symm n) idx with
    | none => rfl
    | some i0 =>
      have hne : i ≠ i0 := fun e => hn (by rw [h0, e])
      show (if i = i0 then _ else x i) = x i
      rw [if_neg hne]

/-- The left fold of the scatter step with the body `fun _ b => b` over ANY list of update
    positions, read at an operand index `i` that the listed position `n` lands on and no other
    listed position does, is the update's value at position `n`. -/
theorem Host.scatter_set_foldl_of_hit (d : ScatterDims s si u) (idx : IVec si w) (upd : u.Idx → α) (i : s.Idx)
    (n : Fin u.numel) (hn : d.resultIdx? (u.rowMajor.symm n) idx = some i) :
    ∀ (l : List (Fin u.numel)) (x : s.Idx → α), n ∈ l →
      (∀ m ∈ l, d.resultIdx? (u.rowMajor.symm m) idx = some i → m = n) →
      l.foldl (fun r n =>
          match d.resultIdx? (u.rowMajor.symm n) idx with
          | some i => fun i' => if i' = i then (fun _ b => b) (r i) (upd (u.rowMajor.symm n)) else r i'
          | none => r) x i = upd (u.rowMajor.symm n) := by
  intro l
  induction l with
  | nil => intro x hmem; exact absurd hmem List.not_mem_nil
  | cons m l ih =>
    intro x hmem huniq
    rw [List.foldl_cons]
    by_cases hl : n ∈ l
    · exact ih _ hl fun m' hm' => huniq m' (List.mem_cons_of_mem _ hm')
    · have hmn : n = m := by
        rcases List.mem_cons.1 hmem with h | h
        · exact h
        · exact absurd h hl
      subst hmn
      rw [Host.scatter_set_foldl_of_miss d idx upd i l _ fun m' hm' he =>
        hl (huniq m' (List.mem_cons_of_mem _ hm') he ▸ hm')]
      rw [hn]
      show (if i = i then upd (u.rowMajor.symm n) else x i) = upd (u.rowMajor.symm n)
      rw [if_pos rfl]

/-- Scatter with the body `fun _ b => b`, at an operand index `i` that NO update index lands on:
    the operand's value at `i`. -/
theorem Host.scatter_set_of_miss (d : ScatterDims s si u) (x : s.Idx → α) (idx : IVec si w) (upd : u.Idx → α) (i : s.Idx)
    (hmiss : ∀ j : u.Idx, d.resultIdx? j idx ≠ some i) :
    Host.scatter d (fun _ b => b) x idx upd i = x i :=
  Host.scatter_set_foldl_of_miss d idx upd i _ x fun n _ => hmiss _

/-- Scatter with the body `fun _ b => b`, at an operand index `i` that the update index `j` lands
    on and no other update index does: the update's value at `j`. -/
theorem Host.scatter_set_of_hit (d : ScatterDims s si u) (x : s.Idx → α) (idx : IVec si w) (upd : u.Idx → α)
    (j : u.Idx) (i : s.Idx) (hj : d.resultIdx? j idx = some i)
    (huniq : ∀ j' : u.Idx, d.resultIdx? j' idx = some i → j' = j) :
    Host.scatter d (fun _ b => b) x idx upd i = upd j := by
  have h := Host.scatter_set_foldl_of_hit d idx upd i (u.rowMajor j)
    (by rw [Equiv.symm_apply_apply]; exact hj) (List.finRange u.numel) x (List.mem_finRange _)
    fun m _ hm => by rw [← huniq _ hm, Equiv.apply_symm_apply]
  rw [Equiv.symm_apply_apply] at h
  exact h

/-- An update index `j` lands on the operand index `i` exactly when, on every operand axis,
    `i`'s coordinate is the (signed, unclamped) start plus the window coordinate. -/
theorem ScatterDims.resultIdx?_eq_some_iff (d : ScatterDims s si u) (j : u.Idx) (idx : IVec si w) (i : s.Idx) :
    d.resultIdx? j idx = some i ↔ ∀ a, ((i a).val : Int) = d.start j idx a + d.window j a := by
  unfold ScatterDims.resultIdx?
  split
  · next h =>
    constructor
    · intro he a
      have := Option.some.inj he
      subst this
      exact Int.toNat_of_nonneg (h a).1
    · intro hall
      congr 1
      funext a
      apply Fin.ext
      show (d.start j idx a + (d.window j a : Int)).toNat = (i a).val
      rw [← hall a, Int.toNat_natCast]
  · next h =>
    constructor
    · intro he; cases he
    · intro hall
      exfalso
      apply h
      intro a
      rw [← hall a]
      exact ⟨Int.natCast_nonneg _, by exact_mod_cast (i a).isLt⟩

/-- When every update index `j` lands, in bounds, on `e j` and `e` is injective, the scatter with the body
    `fun _ b => b` read at `e j` is the update's value at `j`. -/
theorem Host.scatter_set_embed_hit (d : ScatterDims s si u) (x : s.Idx → α) (idx : IVec si w) (upd : u.Idx → α)
    (e : u.Idx → s.Idx) (he : ∀ j a, ((e j a).val : Int) = d.start j idx a + (d.window j a : Int))
    (hinj : Function.Injective e) (j : u.Idx) :
    Host.scatter d (fun _ b => b) x idx upd (e j) = upd j :=
  Host.scatter_set_of_hit d x idx upd j (e j) ((d.resultIdx?_eq_some_iff j idx (e j)).2 (he j))
    (fun j' hj' => hinj (by
      have h1 := (d.resultIdx?_eq_some_iff j' idx (e j')).2 (he j')
      rw [hj'] at h1
      exact (Option.some.inj h1).symm))

/-- Under the same hypotheses, at an operand index outside the image of `e` the scatter leaves the operand's value. -/
theorem Host.scatter_set_embed_miss (d : ScatterDims s si u) (x : s.Idx → α) (idx : IVec si w) (upd : u.Idx → α)
    (e : u.Idx → s.Idx) (he : ∀ j a, ((e j a).val : Int) = d.start j idx a + (d.window j a : Int))
    (i : s.Idx) (hmiss : ∀ j, e j ≠ i) :
    Host.scatter d (fun _ b => b) x idx upd i = x i :=
  Host.scatter_set_of_miss d x idx upd i (fun j hj => hmiss j (by
    have h1 := (d.resultIdx?_eq_some_iff j idx (e j)).2 (he j)
    rw [hj] at h1
    exact (Option.some.inj h1).symm))

end ScatterSet

end Idealize.ShloMosaic
-- ==== Proof.LibScatterAddReindex.lean ====
/-
  The host's scatter with an `add` body, re-indexed: when the update indices of one scatter that land on
  an operand index correspond one to one, under an injection of the update index sets, to the update
  indices of another scatter that land on an operand index of its own, the two sums of landed updates
  agree, and so do the two scatters at those operand indices.
-/
import Idealize.ShloMosaic.PureOps.Ideal

open scoped BigOperators

namespace Idealize.ShloMosaic

section ScatterAddReindex
variable {s s' si u u' : Shape} {w : Nat}

/-- THE LANDED UPDATES RE-INDEXED. Two scatters read the same scatter indices `idx`; `ι` injects the second
    one's update indices into the first one's. Fix an operand index `i` of the first and `i'` of the second.
    If (`H1`) `ι j'` lands on `i` exactly when `j'` lands on `i'`, and (`H2`) every update index landing on
    `i` is `ι` of some update index, then the sum of the first scatter's updates landing on `i` is the sum,
    over the second scatter's update indices landing on `i'`, of the updates read through `ι`. The values
    may live in any additive commutative monoid: no finiteness is asked of them. -/
theorem ScatterDims.sum_landed_reindex {M : Type*} [AddCommMonoid M]
    (d : ScatterDims s si u) (d' : ScatterDims s' si u') (idx : IVec si w)
    (ι : u'.Idx → u.Idx) (hι : Function.Injective ι) (i : s.Idx) (i' : s'.Idx)
    (H1 : ∀ j' : u'.Idx, d.resultIdx? (ι j') idx = some i ↔ d'.resultIdx? j' idx = some i')
    (H2 : ∀ j : u.Idx, d.resultIdx? j idx = some i → ∃ j' : u'.Idx, ι j' = j)
    (upd : u.Idx → M)
    [DecidablePred fun j : u.Idx => d.resultIdx? j idx = some i]
    [DecidablePred fun j' : u'.Idx => d'.resultIdx? j' idx = some i'] :
    ∑ j ∈ Finset.univ.filter (fun j : u.Idx => d.resultIdx? j idx = some i), upd j
      = ∑ j' ∈ Finset.univ.filter (fun j' : u'.Idx => d'.resultIdx? j' idx = some i'), upd (ι j') := by
  symm
  refine Finset.sum_bij (fun j' _ => ι j') ?_ ?_ ?_ ?_
  · intro j' hj'
    rw [Finset.mem_filter] at hj' ⊢
    exact ⟨Finset.mem_univ _, (H1 j').2 hj'.2⟩
  · intro a _ b _ hab
    exact hι hab
  · intro j hj
    rw [Finset.mem_filter] at hj
    obtain ⟨j', rfl⟩ := H2 j hj.2
    exact ⟨j', Finset.mem_filter.2 ⟨Finset.mem_univ _, (H1 j').1 hj.2⟩, rfl⟩
  · intro j' _
    rfl

/-- The ideal instance's scatter-add under the same correspondence: where the two operands agree at `i` and
    `i'`, the first scatter at `i` is the second scatter, of the updates read through `ι`, at `i'`. -/
theorem Ideal.hostScatterAdd_reindex
    (d : ScatterDims s si u) (d' : ScatterDims s' si u') (x : s.Idx → EReal) (x' : s'.Idx → EReal)
    (idx : IVec si w) (upd : u.Idx → EReal)
    (ι : u'.Idx → u.Idx) (hι : Function.Injective ι) (i : s.Idx) (i' : s'.Idx)
    (H1 : ∀ j' : u'.Idx, d.resultIdx? (ι j') idx = some i ↔ d'.resultIdx? j' idx = some i')
    (H2 : ∀ j : u.Idx, d.resultIdx? j idx = some i → ∃ j' : u'.Idx, ι j' = j)
    (hx : x i = x' i') :
    Ideal.hostScatterAdd d x idx upd i = Ideal.hostScatterAdd d' x' idx (fun j' => upd (ι j')) i' := by
  unfold Ideal.hostScatterAdd
  rw [hx, ScatterDims.sum_landed_reindex d d' idx ι hι i i' H1 H2 upd]

/-- The same for the host operation a printed program states, at the ideal instance. -/
theorem Host.scatterAdd_reindex {φ : FTy}
    (d : ScatterDims s si u) (d' : ScatterDims s' si u') (x : FVec Ideal s φ) (x' : FVec Ideal s' φ)
    (idx : IVec si w) (upd : FVec Ideal u φ)
    (ι : u'.Idx → u.Idx) (hι : Function.Injective ι) (i : s.Idx) (i' : s'.Idx)
    (H1 : ∀ j' : u'.Idx, d.resultIdx? (ι j') idx = some i ↔ d'.resultIdx? j' idx = some i')
    (H2 : ∀ j : u.Idx, d.resultIdx? j idx = some i → ∃ j' : u'.Idx, ι j' = j)
    (hx : x i = x' i') :
    Host.scatterAdd (F := Ideal) d x idx upd i = Host.scatterAdd (F := Ideal) d' x' idx (fun j' => upd (ι j')) i' :=
  Ideal.hostScatterAdd_reindex d d' x x' idx upd ι hι i i' H1 H2 hx

/-- The form with a map `κ` of the operand indices: the first scatter at `κ i'` is the second at `i'`. -/
theorem Host.scatterAdd_reindex_map {φ : FTy}
    (d : ScatterDims s si u) (d' : ScatterDims s' si u') (x : FVec Ideal s φ) (x' : FVec Ideal s' φ)
    (idx : IVec si w) (upd : FVec Ideal u φ)
    (ι : u'.Idx → u.Idx) (hι : Function.Injective ι) (κ : s'.Idx → s.Idx) (i' : s'.Idx)
    (H1 : ∀ j' : u'.Idx, d.resultIdx? (ι j') idx = some (κ i') ↔ d'.resultIdx? j' idx = some i')
    (H2 : ∀ j : u.Idx, d.resultIdx? j idx = some (κ i') → ∃ j' : u'.Idx, ι j' = j)
    (hx : x (κ i') = x' i') :
    Host.scatterAdd (F := Ideal) d x idx upd (κ i') = Host.scatterAdd (F := Ideal) d' x' idx (fun j' => upd (ι j')) i' :=
  Host.scatterAdd_reindex d d' x x' idx upd ι hι (κ i') i' H1 H2 hx

end ScatterAddReindex

end Idealize.ShloMosaic
-- ==== Proof.LibRowScatterGather.lean ====
/-
  The ROW scatter and the ROW gather: an operand `[N, C]`, one start index per row of the
  scatter indices `[M, 1]`, updates (a result) `[M, C]`, the index naming a row of the operand.
  What `x.at[ids].add(v)` (a segment sum of rows) and `x[ids]` (a take of rows) lower to.
  Both act COLUMN BY COLUMN: only the row coordinate is indexed.
-/
import Idealize.ShloMosaic.Lib.ValueIdx
import proofs.«153265_j89558658056883_2_alg».proof.Proof.LibScatterSet
import proofs.«153265_j89558658056883_2_alg».proof.Proof.LibScatterAddReindex

namespace Idealize.ShloMosaic

open ValueIdx

section RowScatter
variable {N M C : Nat} {w : Nat}

/-- The row scatter's dimension numbers: the updates' axis 1 is the window axis, the operand's axis 0 is
    inserted and is the one the scatter index names; the index vector's axis is axis 1 of `[M, 1]`. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The scatter-indices index `[m, 0]` of row `m`. -/
abbrev rowIdx {M : Nat} (m : Fin M) : (⟨2, ![M, 1]⟩ : Shape).Idx := ix2 m (0 : Fin 1)

variable (wf : ScatterDims.WF ⟨2, ![N, C]⟩ ⟨2, ![M, 1]⟩ ⟨2, ![M, C]⟩ [1] [0] [0] 1)

/-- On the row axis the window starts at the scatter index of the update's row, read signed. -/
theorem rowScatterDims_start0 (j : (⟨2, ![M, C]⟩ : Shape).Idx) (idx : IVec ⟨2, ![M, 1]⟩ w) :
    (rowScatterDims N M C wf).start j idx 0 = (idx (rowIdx ⟨(j 0).val, idx2_lt0 j⟩)).toInt := by
  unfold ScatterDims.start
  rw [dif_pos (List.mem_singleton.mpr rfl)]
  congr 2
  funext b
  refine Fin.ext ?_
  match b with
  | ⟨0, _⟩ => rfl
  | ⟨1, _⟩ => rfl

/-- On the column axis the window starts at 0. -/
theorem rowScatterDims_start1 (j : (⟨2, ![M, C]⟩ : Shape).Idx) (idx : IVec ⟨2, ![M, 1]⟩ w) :
    (rowScatterDims N M C wf).start j idx 1 = 0 := by
  unfold ScatterDims.start
  exact dif_neg (show (1 : Fin 2) ∉ [(0 : Fin 2)] by decide)

/-- The window coordinate on the row axis is 0. -/
theorem rowScatterDims_window0 (j : (⟨2, ![M, C]⟩ : Shape).Idx) :
    (rowScatterDims N M C wf).window j 0 = 0 := by
  unfold ScatterDims.window
  exact dif_neg (show (0 : Fin 2) ∉ (List.finRange 2).filter (· ∉ [(0 : Fin 2)]) by decide)

/-- The window coordinate on the column axis is the update's column. -/
theorem rowScatterDims_window1 (j : (⟨2, ![M, C]⟩ : Shape).Idx) :
    (rowScatterDims N M C wf).window j 1 = (j 1).val := by
  unfold ScatterDims.window
  exact (dif_pos (show (1 : Fin 2) ∈ (List.finRange 2).filter (· ∉ [(0 : Fin 2)]) by decide)).trans rfl

/-- WHERE AN UPDATE LANDS: update `(m, c)` lands on operand element `(r, c')` exactly when the scatter index of row
    `m`, read signed, is `r`, and the columns agree. -/
theorem rowScatterDims_resultIdx?_eq_some_iff (j : (⟨2, ![M, C]⟩ : Shape).Idx) (idx : IVec ⟨2, ![M, 1]⟩ w)
    (i : (⟨2, ![N, C]⟩ : Shape).Idx) :
    (rowScatterDims N M C wf).resultIdx? j idx = some i ↔
      ((i 0).val : Int) = (idx (rowIdx ⟨(j 0).val, idx2_lt0 j⟩)).toInt ∧ (i 1).val = (j 1).val := by
  rw [ScatterDims.resultIdx?_eq_some_iff]
  constructor
  · intro h
    have h0 := h 0
    have h1 := h 1
    rw [rowScatterDims_start0, rowScatterDims_window0] at h0
    rw [rowScatterDims_start1, rowScatterDims_window1] at h1
    exact ⟨by simpa using h0, by exact_mod_cast (by simpa using h1)⟩
  · rintro ⟨h0, h1⟩ a
    match a with
    | ⟨0, _⟩ =>
      show ((i 0).val : Int) = (rowScatterDims N M C wf).start j idx 0 + ((rowScatterDims N M C wf).window j 0 : Int)
      rw [rowScatterDims_start0, rowScatterDims_window0, h0]; simp
    | ⟨1, _⟩ =>
      show ((i 1).val : Int) = (rowScatterDims N M C wf).start j idx 1 + ((rowScatterDims N M C wf).window j 1 : Int)
      rw [rowScatterDims_start1, rowScatterDims_window1, h1]; simp

end RowScatter

section RowScatterCols
variable {N M C C' : Nat} {w : Nat} {φ : FTy}

/-- A ROW SCATTER-ADD ACTS COLUMN BY COLUMN. Let `f` inject the columns of a narrower table `[N, C']` into the
    columns of `[N, C]`. The row scatter-add into `[N, C]`, read at row `r` and column `f c`, is the row
    scatter-add into `[N, C']` of the updates' columns read through `f`, at row `r` and column `c` —
    provided the two operands agree there. The scatter indices are arbitrary: an update whose index is out of
    range is dropped on both sides, since only the row coordinate is indexed. -/
theorem Host.scatterAdd_rows_cols
    (wf : ScatterDims.WF ⟨2, ![N, C]⟩ ⟨2, ![M, 1]⟩ ⟨2, ![M, C]⟩ [1] [0] [0] 1)
    (wf' : ScatterDims.WF ⟨2, ![N, C']⟩ ⟨2, ![M, 1]⟩ ⟨2, ![M, C']⟩ [1] [0] [0] 1)
    (f : Fin C' → Fin C) (hf : Function.Injective f)
    (x : FVec Ideal ⟨2, ![N, C]⟩ φ) (x' : FVec Ideal ⟨2, ![N, C']⟩ φ) (idx : IVec ⟨2, ![M, 1]⟩ w)
    (upd : FVec Ideal ⟨2, ![M, C]⟩ φ) (r : Fin N) (c : Fin C')
    (hx : x (ix2 r (f c)) = x' (ix2 r c)) :
    Host.scatterAdd (F := Ideal) (rowScatterDims N M C wf) x idx upd (ix2 r (f c))
      = Host.scatterAdd (F := Ideal) (rowScatterDims N M C' wf') x' idx
          (fun j' => upd (ix2 (n0 := M) (n1 := C) ⟨(j' 0).val, idx2_lt0 j'⟩ (f ⟨(j' 1).val, idx2_lt1 j'⟩)))
          (ix2 r c) := by
  refine Host.scatterAdd_reindex (rowScatterDims N M C wf) (rowScatterDims N M C' wf') x x' idx upd
    (fun j' => ix2 (n0 := M) (n1 := C) ⟨(j' 0).val, idx2_lt0 j'⟩ (f ⟨(j' 1).val, idx2_lt1 j'⟩)) ?_
    (ix2 r (f c)) (ix2 r c) ?_ ?_ hx
  · -- the map of update indices is injective: it keeps the row and injects the column
    intro a b hab
    have h0 : (⟨(a 0).val, idx2_lt0 a⟩ : Fin M) = ⟨(b 0).val, idx2_lt0 b⟩ := congrFun hab 0
    have h1 : f ⟨(a 1).val, idx2_lt1 a⟩ = f ⟨(b 1).val, idx2_lt1 b⟩ := congrFun hab 1
    have h1' := hf h1
    funext e
    refine Fin.ext ?_
    match e with
    | ⟨0, _⟩ => exact congrArg Fin.val h0
    | ⟨1, _⟩ => exact congrArg Fin.val h1'
  · -- an update lands on `(r, f c)` in the wide table exactly when its preimage lands on `(r, c)` in the narrow one
    intro j'
    rw [rowScatterDims_resultIdx?_eq_some_iff, rowScatterDims_resultIdx?_eq_some_iff]
    constructor
    · rintro ⟨h0, h1⟩
      have h2 : f c = f ⟨(j' 1).val, idx2_lt1 j'⟩ := Fin.ext h1
      exact ⟨h0, congrArg Fin.val (hf h2)⟩
    · rintro ⟨h0, h1⟩
      have h2 : c = ⟨(j' 1).val, idx2_lt1 j'⟩ := Fin.ext h1
      exact ⟨h0, congrArg (fun z => (f z).val) h2⟩
  · -- every update landing on `(r, f c)` sits in column `f c`
    intro j hj
    rw [rowScatterDims_resultIdx?_eq_some_iff] at hj
    have h1 : (f c).val = (j 1).val := hj.2
    refine ⟨ix2 (n0 := M) (n1 := C') ⟨(j 0).val, idx2_lt0 j⟩ c, ?_⟩
    funext e
    refine Fin.ext ?_
    match e with
    | ⟨0, _⟩ => rfl
    | ⟨1, _⟩ => exact h1

end RowScatterCols

section RowGather
variable {N M C : Nat} {w : Nat} {α : Type}

/-- The row gather's dimension numbers: the result's axis 1 is the offset axis, the operand's axis 0 is collapsed
    and is the one the start index names; slices are one row, `C` columns wide. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable (wf : GatherDims.WF ⟨2, ![N, C]⟩ ⟨2, ![M, 1]⟩ ⟨2, ![M, C]⟩ [1] [0] [] [0] [] 1 ![1, C])

/-- The row read: the start index of the result's row, read signed and clamped into `[0, N − 1]`. -/
theorem rowGatherDims_operandIdx0 (j : (⟨2, ![M, C]⟩ : Shape).Idx) (idx : IVec ⟨2, ![M, 1]⟩ w) :
    ((rowGatherDims N M C wf).operandIdx j idx 0).val
      = min (idx (rowIdx ⟨(j 0).val, idx2_lt0 j⟩)).toInt.toNat (N - 1) := by
  show (rowGatherDims N M C wf).start j idx 0 + (rowGatherDims N M C wf).batchCoord j 0
      + (rowGatherDims N M C wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  refine (dif_pos (show (0 : Fin 2) ∈ [(0 : Fin 2)] from List.mem_singleton.mpr rfl)).trans ?_
  refine congrArg₂ min (congrArg (fun z => (idx z).toInt.toNat) ?_) rfl
  funext b
  refine Fin.ext ?_
  match b with
  | ⟨0, _⟩ => rfl
  | ⟨1, _⟩ => rfl

/-- The column read: the result's column. -/
theorem rowGatherDims_operandIdx1 (j : (⟨2, ![M, C]⟩ : Shape).Idx) (idx : IVec ⟨2, ![M, 1]⟩ w) :
    ((rowGatherDims N M C wf).operandIdx j idx 1).val = (j 1).val := by
  show (rowGatherDims N M C wf).start j idx 1 + (rowGatherDims N M C wf).batchCoord j 1
      + (rowGatherDims N M C wf).offCoord j 1 = _
  rw [GatherDims.batchCoord_eq_zero _ _ _ List.not_mem_nil]
  have hs : (rowGatherDims N M C wf).start j idx 1 = 0 := by
    unfold GatherDims.start
    exact dif_neg (show (1 : Fin 2) ∉ [(0 : Fin 2)] by decide)
  have ho : (rowGatherDims N M C wf).offCoord j 1 = (j 1).val := by
    unfold GatherDims.offCoord
    exact (dif_pos (show (1 : Fin 2) ∈ (List.finRange 2).filter (· ∉ [(0 : Fin 2)] ++ []) by decide)).trans rfl
  rw [hs, ho]
  simp only [Nat.zero_add, Nat.add_zero]

end RowGather

section RowGatherCols
variable {N M C C' : Nat} {w : Nat} {α : Type}

/-- A ROW GATHER ACTS COLUMN BY COLUMN. If column `k` of the table `x : [N, C]` is column `c` of the table
    `x' : [N, C']`, the row gather of `x` read at `(m, k)` is the row gather of `x'` read at `(m, c)`: both read the
    row the start index of `m` names, clamped into `[0, N − 1]` the same way. -/
theorem Host.gather_rows_cols
    (wf : GatherDims.WF ⟨2, ![N, C]⟩ ⟨2, ![M, 1]⟩ ⟨2, ![M, C]⟩ [1] [0] [] [0] [] 1 ![1, C])
    (wf' : GatherDims.WF ⟨2, ![N, C']⟩ ⟨2, ![M, 1]⟩ ⟨2, ![M, C']⟩ [1] [0] [] [0] [] 1 ![1, C'])
    (x : (⟨2, ![N, C]⟩ : Shape).Idx → α) (x' : (⟨2, ![N, C']⟩ : Shape).Idx → α) (idx : IVec ⟨2, ![M, 1]⟩ w)
    (m : Fin M) (k : Fin C) (c : Fin C')
    (hx : ∀ r : Fin N, x (ix2 r k) = x' (ix2 r c)) :
    Host.gather (rowGatherDims N M C wf) x idx (ix2 m k) = Host.gather (rowGatherDims N M C' wf') x' idx (ix2 m c) := by
  unfold Host.gather
  have e : (rowGatherDims N M C wf).operandIdx (ix2 m k) idx
      = ix2 (n0 := N) (n1 := C) ((rowGatherDims N M C wf).operandIdx (ix2 m k) idx 0) k := by
    funext a
    refine Fin.ext ?_
    match a with
    | ⟨0, _⟩ => rfl
    | ⟨1, _⟩ => exact rowGatherDims_operandIdx1 wf (ix2 m k) idx
  have e' : (rowGatherDims N M C' wf').operandIdx (ix2 m c) idx
      = ix2 (n0 := N) (n1 := C') ((rowGatherDims N M C' wf').operandIdx (ix2 m c) idx 0) c := by
    funext a
    refine Fin.ext ?_
    match a with
    | ⟨0, _⟩ => rfl
    | ⟨1, _⟩ => exact rowGatherDims_operandIdx1 wf' (ix2 m c) idx
  have e0 : ((rowGatherDims N M C wf).operandIdx (ix2 m k) idx 0 : Fin N)
      = ((rowGatherDims N M C' wf').operandIdx (ix2 m c) idx 0 : Fin N) :=
    Fin.ext ((rowGatherDims_operandIdx0 wf (ix2 m k) idx).trans (rowGatherDims_operandIdx0 wf' (ix2 m c) idx).symm)
  rw [e, e', e0]
  exact hx _

end RowGatherCols

end Idealize.ShloMosaic
-- ==== Proof.ScatterGatherCols.lean ====
/-
  One scatter-add of the columns `[x | y]` into a `[R, 256]` table, sliced into its two halves, is the two
  scatter-adds of `x` and of `y` into `[R, 128]` tables; one gather of rows of the table `[mu | var]` is, in
  each half of the columns, the gather of rows of `mu`, resp. `var`. Read at an index, at the ideal instance
  (sums of extended reals), for arbitrary integer indices: rows out of range are dropped by the scatter and
  clamped by the gather the same way on both sides, since only the row coordinate is indexed.
-/
import proofs.«153265_j89558658056883_2_alg».proof.KernelIdeal
import proofs.«153265_j89558658056883_2_alg».proof.ReferenceIdeal
import proofs.«153265_j89558658056883_2_alg».proof.Proof.LibRowScatterGather
import Idealize.ShloMosaic.Lib.Pipeline.Value

namespace Cert.Proof.ScatterGatherCols

open Idealize.ShloMosaic Idealize.ShloMosaic.ValueIdx

/-- Column `c` of the left half, as one of the 256 columns. -/
abbrev colL (c : Fin 128) : Fin 256 := ⟨c.val, by omega⟩
/-- Column `c` of the right half, as one of the 256 columns. -/
abbrev colR (c : Fin 128) : Fin 256 := ⟨128 + c.val, by omega⟩

theorem colL_injective : Function.Injective colL := fun a b h => Fin.ext (by have := congrArg Fin.val h; exact this)
theorem colR_injective : Function.Injective colR := fun a b h => Fin.ext (by
  have : 128 + a.val = 128 + b.val := congrArg Fin.val h
  omega)

variable [Cert.KernelIdeal.Facts₀] [Cert.ReferenceIdeal.Facts₀]

/-- THE GRAPH SUMS. The LEFT half: columns `0 … 127` of the one scatter-add of `[a | b]` into the zero `[1000, 256]` table are the
    scatter-add of `a` into the zero `[1000, 128]` table, whatever the indices are. -/
theorem graph_sums_left {w : Nat} (a b : FVec Ideal Cert.KernelIdeal.S100000x128 .f32) (idx : IVec Cert.KernelIdeal.S100000x1 w)
    (hb : Cert.KernelIdeal.S_.BroadcastsInDim Cert.KernelIdeal.S1000x256 (![] : Fin 0 → Fin Cert.KernelIdeal.S1000x256.rank))
    (hc : Shape.Concatenates [Cert.KernelIdeal.S100000x128, Cert.KernelIdeal.S100000x128] Cert.KernelIdeal.S100000x256 1)
    (hb' : Cert.ReferenceIdeal.S_.BroadcastsInDim Cert.ReferenceIdeal.S1000x128 (![] : Fin 0 → Fin Cert.ReferenceIdeal.S1000x128.rank))
    (hs : Cert.KernelIdeal.S1000x256.Slices ![0, 0] Cert.KernelIdeal.S1000x128) (r : Fin 1000) (c : Fin 128) :
    extractStridedSlice Cert.KernelIdeal.S1000x128 ![0, 0]
        (Host.scatterAdd (F := Ideal) Cert.KernelIdeal.scatter_S1000x256_S100000x1_S100000x256_1_0_0_1
          (broadcastInDim Cert.KernelIdeal.S1000x256 ![] hb (constant Cert.KernelIdeal.S_ .f32 0x00000000#32)) idx
          (concatenate Cert.KernelIdeal.S100000x256 1 [⟨Cert.KernelIdeal.S100000x128, a⟩, ⟨Cert.KernelIdeal.S100000x128, b⟩] hc)) hs (ix2 r c)
      = Host.scatterAdd (F := Ideal) Cert.ReferenceIdeal.scatter_S1000x128_S100000x1_S100000x128_1_0_0_1
          (broadcastInDim Cert.ReferenceIdeal.S1000x128 ![] hb' (constant Cert.ReferenceIdeal.S_ .f32 0x00000000#32)) idx a (ix2 r c) := by
  refine (extractStridedSlice_apply _ _ hs (ix2 r c) (ix2 r (colL c)) (fun e => ?_)).trans ?_
  · match e with
    | ⟨0, _⟩ => show r.val = 0 + r.val; omega
    | ⟨1, _⟩ => show c.val = 0 + c.val; omega
  refine (Host.scatterAdd_rows_cols (N := 1000) (M := 100000) (C := 256) (C' := 128) Cert.KernelIdeal.Facts₀.scatter_S1000x256_S100000x1_S100000x256_1_0_0_1_wf Cert.ReferenceIdeal.Facts₀.scatter_S1000x128_S100000x1_S100000x128_1_0_0_1_wf colL colL_injective
    _ (broadcastInDim Cert.ReferenceIdeal.S1000x128 ![] hb' (constant Cert.ReferenceIdeal.S_ .f32 0x00000000#32)) idx _ r c rfl).trans ?_
  have hu : (fun j' : (⟨2, ![100000, 128]⟩ : Shape).Idx =>
      concatenate Cert.KernelIdeal.S100000x256 1 [⟨Cert.KernelIdeal.S100000x128, a⟩, ⟨Cert.KernelIdeal.S100000x128, b⟩] hc
        (ix2 (n0 := 100000) (n1 := 256) ⟨(j' 0).val, idx2_lt0 j'⟩ (colL ⟨(j' 1).val, idx2_lt1 j'⟩))) = a :=
    funext fun j' => concatenate_pair_apply_left 1 a b hc _ rfl j' (fun e => by
      match e with
      | ⟨0, _⟩ => rfl
      | ⟨1, _⟩ => rfl)
  rw [hu]
  rfl

/-- The RIGHT half: columns `128 … 255` are the scatter-add of `b`. -/
theorem graph_sums_right {w : Nat} (a b : FVec Ideal Cert.KernelIdeal.S100000x128 .f32) (idx : IVec Cert.KernelIdeal.S100000x1 w)
    (hb : Cert.KernelIdeal.S_.BroadcastsInDim Cert.KernelIdeal.S1000x256 (![] : Fin 0 → Fin Cert.KernelIdeal.S1000x256.rank))
    (hc : Shape.Concatenates [Cert.KernelIdeal.S100000x128, Cert.KernelIdeal.S100000x128] Cert.KernelIdeal.S100000x256 1)
    (hb' : Cert.ReferenceIdeal.S_.BroadcastsInDim Cert.ReferenceIdeal.S1000x128 (![] : Fin 0 → Fin Cert.ReferenceIdeal.S1000x128.rank))
    (hs : Cert.KernelIdeal.S1000x256.Slices ![0, 128] Cert.KernelIdeal.S1000x128) (r : Fin 1000) (c : Fin 128) :
    extractStridedSlice Cert.KernelIdeal.S1000x128 ![0, 128]
        (Host.scatterAdd (F := Ideal) Cert.KernelIdeal.scatter_S1000x256_S100000x1_S100000x256_1_0_0_1
          (broadcastInDim Cert.KernelIdeal.S1000x256 ![] hb (constant Cert.KernelIdeal.S_ .f32 0x00000000#32)) idx
          (concatenate Cert.KernelIdeal.S100000x256 1 [⟨Cert.KernelIdeal.S100000x128, a⟩, ⟨Cert.KernelIdeal.S100000x128, b⟩] hc)) hs (ix2 r c)
      = Host.scatterAdd (F := Ideal) Cert.ReferenceIdeal.scatter_S1000x128_S100000x1_S100000x128_1_0_0_1
          (broadcastInDim Cert.ReferenceIdeal.S1000x128 ![] hb' (constant Cert.ReferenceIdeal.S_ .f32 0x00000000#32)) idx b (ix2 r c) := by
  refine (extractStridedSlice_apply _ _ hs (ix2 r c) (ix2 r (colR c)) (fun e => ?_)).trans ?_
  · match e with
    | ⟨0, _⟩ => show r.val = 0 + r.val; omega
    | ⟨1, _⟩ => show 128 + c.val = 128 + c.val; rfl
  refine (Host.scatterAdd_rows_cols (N := 1000) (M := 100000) (C := 256) (C' := 128) Cert.KernelIdeal.Facts₀.scatter_S1000x256_S100000x1_S100000x256_1_0_0_1_wf Cert.ReferenceIdeal.Facts₀.scatter_S1000x128_S100000x1_S100000x128_1_0_0_1_wf colR colR_injective
    _ (broadcastInDim Cert.ReferenceIdeal.S1000x128 ![] hb' (constant Cert.ReferenceIdeal.S_ .f32 0x00000000#32)) idx _ r c rfl).trans ?_
  have hu : (fun j' : (⟨2, ![100000, 128]⟩ : Shape).Idx =>
      concatenate Cert.KernelIdeal.S100000x256 1 [⟨Cert.KernelIdeal.S100000x128, a⟩, ⟨Cert.KernelIdeal.S100000x128, b⟩] hc
        (ix2 (n0 := 100000) (n1 := 256) ⟨(j' 0).val, idx2_lt0 j'⟩ (colR ⟨(j' 1).val, idx2_lt1 j'⟩))) = b :=
    funext fun j' => concatenate_pair_apply_right 1 a b hc _ rfl rfl j' (fun e he => by
      match e with
      | ⟨0, _⟩ => rfl
      | ⟨1, _⟩ => exact absurd rfl he) (by show (j' 1).val + 128 = 128 + (j' 1).val; omega)
  rw [hu]
  rfl

/-- THE NEIGHBOUR SUMS. The LEFT half: columns `0 … 127` of the one scatter-add of `[a | b]` into the zero `[100000, 256]` table are the
    scatter-add of `a` into the zero `[100000, 128]` table, whatever the indices are. -/
theorem neighbour_sums_left {w : Nat} (a b : FVec Ideal Cert.KernelIdeal.S600000x128 .f32) (idx : IVec Cert.KernelIdeal.S600000x1 w)
    (hb : Cert.KernelIdeal.S_.BroadcastsInDim Cert.KernelIdeal.S100000x256 (![] : Fin 0 → Fin Cert.KernelIdeal.S100000x256.rank))
    (hc : Shape.Concatenates [Cert.KernelIdeal.S600000x128, Cert.KernelIdeal.S600000x128] Cert.KernelIdeal.S600000x256 1)
    (hb' : Cert.ReferenceIdeal.S_.BroadcastsInDim Cert.ReferenceIdeal.S100000x128 (![] : Fin 0 → Fin Cert.ReferenceIdeal.S100000x128.rank))
    (hs : Cert.KernelIdeal.S100000x256.Slices ![0, 0] Cert.KernelIdeal.S100000x128) (r : Fin 100000) (c : Fin 128) :
    extractStridedSlice Cert.KernelIdeal.S100000x128 ![0, 0]
        (Host.scatterAdd (F := Ideal) Cert.KernelIdeal.scatter_S100000x256_S600000x1_S600000x256_1_0_0_1
          (broadcastInDim Cert.KernelIdeal.S100000x256 ![] hb (constant Cert.KernelIdeal.S_ .f32 0x00000000#32)) idx
          (concatenate Cert.KernelIdeal.S600000x256 1 [⟨Cert.KernelIdeal.S600000x128, a⟩, ⟨Cert.KernelIdeal.S600000x128, b⟩] hc)) hs (ix2 r c)
      = Host.scatterAdd (F := Ideal) Cert.ReferenceIdeal.scatter_S100000x128_S600000x1_S600000x128_1_0_0_1
          (broadcastInDim Cert.ReferenceIdeal.S100000x128 ![] hb' (constant Cert.ReferenceIdeal.S_ .f32 0x00000000#32)) idx a (ix2 r c) := by
  refine (extractStridedSlice_apply _ _ hs (ix2 r c) (ix2 r (colL c)) (fun e => ?_)).trans ?_
  · match e with
    | ⟨0, _⟩ => show r.val = 0 + r.val; omega
    | ⟨1, _⟩ => show c.val = 0 + c.val; omega
  refine (Host.scatterAdd_rows_cols (N := 100000) (M := 600000) (C := 256) (C' := 128) Cert.KernelIdeal.Facts₀.scatter_S100000x256_S600000x1_S600000x256_1_0_0_1_wf Cert.ReferenceIdeal.Facts₀.scatter_S100000x128_S600000x1_S600000x128_1_0_0_1_wf colL colL_injective
    _ (broadcastInDim Cert.ReferenceIdeal.S100000x128 ![] hb' (constant Cert.ReferenceIdeal.S_ .f32 0x00000000#32)) idx _ r c rfl).trans ?_
  have hu : (fun j' : (⟨2, ![600000, 128]⟩ : Shape).Idx =>
      concatenate Cert.KernelIdeal.S600000x256 1 [⟨Cert.KernelIdeal.S600000x128, a⟩, ⟨Cert.KernelIdeal.S600000x128, b⟩] hc
        (ix2 (n0 := 600000) (n1 := 256) ⟨(j' 0).val, idx2_lt0 j'⟩ (colL ⟨(j' 1).val, idx2_lt1 j'⟩))) = a :=
    funext fun j' => concatenate_pair_apply_left 1 a b hc _ rfl j' (fun e => by
      match e with
      | ⟨0, _⟩ => rfl
      | ⟨1, _⟩ => rfl)
  rw [hu]
  rfl

/-- The RIGHT half: columns `128 … 255` are the scatter-add of `b`. -/
theorem neighbour_sums_right {w : Nat} (a b : FVec Ideal Cert.KernelIdeal.S600000x128 .f32) (idx : IVec Cert.KernelIdeal.S600000x1 w)
    (hb : Cert.KernelIdeal.S_.BroadcastsInDim Cert.KernelIdeal.S100000x256 (![] : Fin 0 → Fin Cert.KernelIdeal.S100000x256.rank))
    (hc : Shape.Concatenates [Cert.KernelIdeal.S600000x128, Cert.KernelIdeal.S600000x128] Cert.KernelIdeal.S600000x256 1)
    (hb' : Cert.ReferenceIdeal.S_.BroadcastsInDim Cert.ReferenceIdeal.S100000x128 (![] : Fin 0 → Fin Cert.ReferenceIdeal.S100000x128.rank))
    (hs : Cert.KernelIdeal.S100000x256.Slices ![0, 128] Cert.KernelIdeal.S100000x128) (r : Fin 100000) (c : Fin 128) :
    extractStridedSlice Cert.KernelIdeal.S100000x128 ![0, 128]
        (Host.scatterAdd (F := Ideal) Cert.KernelIdeal.scatter_S100000x256_S600000x1_S600000x256_1_0_0_1
          (broadcastInDim Cert.KernelIdeal.S100000x256 ![] hb (constant Cert.KernelIdeal.S_ .f32 0x00000000#32)) idx
          (concatenate Cert.KernelIdeal.S600000x256 1 [⟨Cert.KernelIdeal.S600000x128, a⟩, ⟨Cert.KernelIdeal.S600000x128, b⟩] hc)) hs (ix2 r c)
      = Host.scatterAdd (F := Ideal) Cert.ReferenceIdeal.scatter_S100000x128_S600000x1_S600000x128_1_0_0_1
          (broadcastInDim Cert.ReferenceIdeal.S100000x128 ![] hb' (constant Cert.ReferenceIdeal.S_ .f32 0x00000000#32)) idx b (ix2 r c) := by
  refine (extractStridedSlice_apply _ _ hs (ix2 r c) (ix2 r (colR c)) (fun e => ?_)).trans ?_
  · match e with
    | ⟨0, _⟩ => show r.val = 0 + r.val; omega
    | ⟨1, _⟩ => show 128 + c.val = 128 + c.val; rfl
  refine (Host.scatterAdd_rows_cols (N := 100000) (M := 600000) (C := 256) (C' := 128) Cert.KernelIdeal.Facts₀.scatter_S100000x256_S600000x1_S600000x256_1_0_0_1_wf Cert.ReferenceIdeal.Facts₀.scatter_S100000x128_S600000x1_S600000x128_1_0_0_1_wf colR colR_injective
    _ (broadcastInDim Cert.ReferenceIdeal.S100000x128 ![] hb' (constant Cert.ReferenceIdeal.S_ .f32 0x00000000#32)) idx _ r c rfl).trans ?_
  have hu : (fun j' : (⟨2, ![600000, 128]⟩ : Shape).Idx =>
      concatenate Cert.KernelIdeal.S600000x256 1 [⟨Cert.KernelIdeal.S600000x128, a⟩, ⟨Cert.KernelIdeal.S600000x128, b⟩] hc
        (ix2 (n0 := 600000) (n1 := 256) ⟨(j' 0).val, idx2_lt0 j'⟩ (colR ⟨(j' 1).val, idx2_lt1 j'⟩))) = b :=
    funext fun j' => concatenate_pair_apply_right 1 a b hc _ rfl rfl j' (fun e he => by
      match e with
      | ⟨0, _⟩ => rfl
      | ⟨1, _⟩ => exact absurd rfl he) (by show (j' 1).val + 128 = 128 + (j' 1).val; omega)
  rw [hu]
  rfl

/-- The gather of rows of `[mu | var]` read in the LEFT half of the columns (`k` is column `c < 128`) is the
    gather of rows of `mu`: the same row, clamped the same way. -/
theorem gather_left {α : Type} {w : Nat} (mu var : Cert.KernelIdeal.S1000x128.Idx → α) (idx : IVec Cert.KernelIdeal.S100000x1 w)
    (hc : Shape.Concatenates [Cert.KernelIdeal.S1000x128, Cert.KernelIdeal.S1000x128] Cert.KernelIdeal.S1000x256 1)
    (m : Fin 100000) (k : Fin 256) (c : Fin 128) (hk : k.val = c.val) :
    Host.gather Cert.KernelIdeal.gather_S1000x256_S100000x1_S100000x256_1_0_n_n_0_1_1256
        (concatenate Cert.KernelIdeal.S1000x256 1 [⟨Cert.KernelIdeal.S1000x128, mu⟩, ⟨Cert.KernelIdeal.S1000x128, var⟩] hc) idx (ix2 m k)
      = Host.gather Cert.ReferenceIdeal.gather_S1000x128_S100000x1_S100000x128_1_0_n_n_0_1_1128 mu idx (ix2 m c) :=
  Host.gather_rows_cols (N := 1000) (M := 100000) (C := 256) (C' := 128)
    Cert.KernelIdeal.Facts₀.gather_S1000x256_S100000x1_S100000x256_1_0_n_n_0_1_1256_wf
    Cert.ReferenceIdeal.Facts₀.gather_S1000x128_S100000x1_S100000x128_1_0_n_n_0_1_1128_wf _ mu idx m k c
    (fun r => concatenate_pair_apply_left 1 mu var hc (ix2 r k) rfl (ix2 r c) (fun e => by
      match e with
      | ⟨0, _⟩ => rfl
      | ⟨1, _⟩ => exact hk.symm))

/-- … and in the RIGHT half (`k` is column `128 + c`) it is the gather of rows of `var`. -/
theorem gather_right {α : Type} {w : Nat} (mu var : Cert.KernelIdeal.S1000x128.Idx → α) (idx : IVec Cert.KernelIdeal.S100000x1 w)
    (hc : Shape.Concatenates [Cert.KernelIdeal.S1000x128, Cert.KernelIdeal.S1000x128] Cert.KernelIdeal.S1000x256 1)
    (m : Fin 100000) (k : Fin 256) (c : Fin 128) (hk : k.val = 128 + c.val) :
    Host.gather Cert.KernelIdeal.gather_S1000x256_S100000x1_S100000x256_1_0_n_n_0_1_1256
        (concatenate Cert.KernelIdeal.S1000x256 1 [⟨Cert.KernelIdeal.S1000x128, mu⟩, ⟨Cert.KernelIdeal.S1000x128, var⟩] hc) idx (ix2 m k)
      = Host.gather Cert.ReferenceIdeal.gather_S1000x128_S100000x1_S100000x128_1_0_n_n_0_1_1128 var idx (ix2 m c) :=
  Host.gather_rows_cols (N := 1000) (M := 100000) (C := 256) (C' := 128)
    Cert.KernelIdeal.Facts₀.gather_S1000x256_S100000x1_S100000x256_1_0_n_n_0_1_1256_wf
    Cert.ReferenceIdeal.Facts₀.gather_S1000x128_S100000x1_S100000x128_1_0_n_n_0_1_1128_wf _ var idx m k c
    (fun r => concatenate_pair_apply_right 1 mu var hc (ix2 r k) rfl rfl (ix2 r c) (fun e he => by
      match e with
      | ⟨0, _⟩ => rfl
      | ⟨1, _⟩ => exact absurd rfl he) (by show c.val + 128 = k.val; omega))

end Cert.Proof.ScatterGatherCols
-- ==== Proof.BridgeB.lean ====
/-
  The kernel's host stages and the reference's own sub-terms, stage by stage (second part): per graph.
  The kernel sums `x` and `x²` in one scatter-add of `[x | x²]` and gathers means and variances in one gather
  of `[mean | variance]`; column by column these are the reference's two scatter-adds and two gathers.
-/
import proofs.«153265_j89558658056883_2_alg».proof.Proof.KHostDefs
import proofs.«153265_j89558658056883_2_alg».proof.Proof.Gen.ReferenceIdeal.Run
import proofs.«153265_j89558658056883_2_alg».proof.Proof.ScatterGatherCols

noncomputable section

namespace Cert.Proof.Bridge

open Idealize.ShloMosaic Idealize.ShloMosaic.ValueIdx

open Cert.Proof.ScatterGatherCols

/-- The node counts per graph: the kernel's stage is the reference's term. -/
theorem kCnt_eq (V0 : Valuation Cert.ReferenceIdeal.τ Cert.ReferenceIdeal.sig (Elt Ideal)) :
    Cert.KernelIdeal.Hand.kCnt (F := Ideal) (V0 (Proc.devRef .tc Cert.ReferenceIdeal.main_arg7)) = Cert.ReferenceIdeal.Value.res_main_v24 V0 := rfl

/-- The wrapped graph index column: the kernel's stage is the reference's term. -/
theorem kIdxG_eq (V0 : Valuation Cert.ReferenceIdeal.τ Cert.ReferenceIdeal.sig (Elt Ideal)) :
    Cert.KernelIdeal.Hand.kIdxG (F := Ideal) (V0 (Proc.devRef .tc Cert.ReferenceIdeal.main_arg7)) = (broadcastInDim Cert.ReferenceIdeal.S100000x1 ![0] Cert.ReferenceIdeal.Facts₀.bcast_S100000_S100000x1_0
        (select (cmpi .slt (V0 (Proc.devRef .tc Cert.ReferenceIdeal.main_arg7)) (broadcastInDim Cert.ReferenceIdeal.S100000 ![] Cert.ReferenceIdeal.Facts₀.bcast_S_S100000 (constantI Cert.ReferenceIdeal.S_ 32 0#32)))
          (addi (V0 (Proc.devRef .tc Cert.ReferenceIdeal.main_arg7)) (broadcastInDim Cert.ReferenceIdeal.S100000 ![] Cert.ReferenceIdeal.Facts₀.bcast_S_S100000 (constantI Cert.ReferenceIdeal.S_ 32 1000#32))) (V0 (Proc.devRef .tc Cert.ReferenceIdeal.main_arg7)))) := rfl

/-- The left half of the kernel's one per-graph scatter-add is the reference's per-graph sum of `x`. -/
theorem kSumG_left_eq (V0 : Valuation Cert.ReferenceIdeal.τ Cert.ReferenceIdeal.sig (Elt Ideal)) :
    extractStridedSlice Cert.KernelIdeal.S1000x128 ![0, 0] (Cert.KernelIdeal.Hand.kSumG (F := Ideal) (V0 (Proc.devRef .tc Cert.ReferenceIdeal.main_arg0)) (V0 (Proc.devRef .tc Cert.ReferenceIdeal.main_arg7))) Cert.KernelIdeal.Facts₀.slices_S1000x256_S1000x128_0_0
      = Host.scatterAdd (F := Ideal) Cert.ReferenceIdeal.scatter_S1000x128_S100000x1_S100000x128_1_0_0_1 (broadcastInDim Cert.ReferenceIdeal.S1000x128 ![] Cert.ReferenceIdeal.Facts₀.bcast_S_S1000x128 (constant Cert.ReferenceIdeal.S_ .f32 0x00000000#32)) (broadcastInDim Cert.ReferenceIdeal.S100000x1 ![0] Cert.ReferenceIdeal.Facts₀.bcast_S100000_S100000x1_0 (V0 (Proc.devRef .tc Cert.ReferenceIdeal.main_arg7))) (V0 (Proc.devRef .tc Cert.ReferenceIdeal.main_arg0)) := by
  funext i
  rw [eq_ix2 i]
  unfold Cert.KernelIdeal.Hand.kSumG Cert.KernelIdeal.Hand.kXX Cert.KernelIdeal.Hand.kCol
  exact graph_sums_left _ _ _ _ _ _ _ _ _

/-- The right half is the reference's per-graph sum of `x²`. -/
theorem kSumG_right_eq (V0 : Valuation Cert.ReferenceIdeal.τ Cert.ReferenceIdeal.sig (Elt Ideal)) :
    extractStridedSlice Cert.KernelIdeal.S1000x128 ![0, 128] (Cert.KernelIdeal.Hand.kSumG (F := Ideal) (V0 (Proc.devRef .tc Cert.ReferenceIdeal.main_arg0)) (V0 (Proc.devRef .tc Cert.ReferenceIdeal.main_arg7))) Cert.KernelIdeal.Facts₀.slices_S1000x256_S1000x128_0_128
      = Host.scatterAdd (F := Ideal) Cert.ReferenceIdeal.scatter_S1000x128_S100000x1_S100000x128_1_0_0_1 (broadcastInDim Cert.ReferenceIdeal.S1000x128 ![] Cert.ReferenceIdeal.Facts₀.bcast_S_S1000x128 (constant Cert.ReferenceIdeal.S_ .f32 0x00000000#32)) (broadcastInDim Cert.ReferenceIdeal.S100000x1 ![0] Cert.ReferenceIdeal.Facts₀.bcast_S100000_S100000x1_0 (V0 (Proc.devRef .tc Cert.ReferenceIdeal.main_arg7))) (mulf (V0 (Proc.devRef .tc Cert.ReferenceIdeal.main_arg0)) (V0 (Proc.devRef .tc Cert.ReferenceIdeal.main_arg0))) := by
  funext i
  rw [eq_ix2 i]
  unfold Cert.KernelIdeal.Hand.kSumG Cert.KernelIdeal.Hand.kXX Cert.KernelIdeal.Hand.kCol
  exact graph_sums_right _ _ _ _ _ _ _ _ _

/-- The per-graph means: the reference's term. -/
theorem kMuG_eq (V0 : Valuation Cert.ReferenceIdeal.τ Cert.ReferenceIdeal.sig (Elt Ideal)) :
    Cert.KernelIdeal.Hand.kMuG (F := Ideal) (V0 (Proc.devRef .tc Cert.ReferenceIdeal.main_arg0)) (V0 (Proc.devRef .tc Cert.ReferenceIdeal.main_arg7)) = Cert.ReferenceIdeal.Value.res_main_v33 V0 := by
  unfold Cert.KernelIdeal.Hand.kMuG
  rw [kSumG_left_eq, kCnt_eq]
  rfl

/-- The per-graph clamped variances: the reference's term. -/
theorem kVarG_eq (V0 : Valuation Cert.ReferenceIdeal.τ Cert.ReferenceIdeal.sig (Elt Ideal)) :
    Cert.KernelIdeal.Hand.kVarG (F := Ideal) (V0 (Proc.devRef .tc Cert.ReferenceIdeal.main_arg0)) (V0 (Proc.devRef .tc Cert.ReferenceIdeal.main_arg7)) = (maximumf
        (subf
          (Host.divf
            (Host.scatterAdd (F := Ideal) Cert.ReferenceIdeal.scatter_S1000x128_S100000x1_S100000x128_1_0_0_1 (broadcastInDim Cert.ReferenceIdeal.S1000x128 ![] Cert.ReferenceIdeal.Facts₀.bcast_S_S1000x128 (constant Cert.ReferenceIdeal.S_ .f32 0x00000000#32)) (broadcastInDim Cert.ReferenceIdeal.S100000x1 ![0] Cert.ReferenceIdeal.Facts₀.bcast_S100000_S100000x1_0 (V0 (Proc.devRef .tc Cert.ReferenceIdeal.main_arg7))) (mulf (V0 (Proc.devRef .tc Cert.ReferenceIdeal.main_arg0)) (V0 (Proc.devRef .tc Cert.ReferenceIdeal.main_arg0))))
            (broadcastInDim Cert.ReferenceIdeal.S1000x128 ![0, 1] Cert.ReferenceIdeal.Facts₀.bcast_S1000x1_S1000x128_0_1 (Cert.ReferenceIdeal.Value.res_main_v24 V0)))
          (mulf (Cert.ReferenceIdeal.Value.res_main_v33 V0) (Cert.ReferenceIdeal.Value.res_main_v33 V0)))
        (broadcastInDim Cert.ReferenceIdeal.S1000x128 ![] Cert.ReferenceIdeal.Facts₀.bcast_S_S1000x128 (constant Cert.ReferenceIdeal.S_ .f32 0x00000000#32))) := by
  unfold Cert.KernelIdeal.Hand.kVarG
  rw [kSumG_right_eq, kMuG_eq, kCnt_eq]

/-- Each node's graph statistics, LEFT half of the columns: the reference's gather of the per-graph means. -/
theorem kGrp_left (V0 : Valuation Cert.ReferenceIdeal.τ Cert.ReferenceIdeal.sig (Elt Ideal)) (r : Fin 100000) (j : Fin 128) :
    Cert.KernelIdeal.Hand.kGrp (F := Ideal) (V0 (Proc.devRef .tc Cert.ReferenceIdeal.main_arg0)) (V0 (Proc.devRef .tc Cert.ReferenceIdeal.main_arg7)) (ix2 r (colL j))
      = Host.gather Cert.ReferenceIdeal.gather_S1000x128_S100000x1_S100000x128_1_0_n_n_0_1_1128 (Cert.ReferenceIdeal.Value.res_main_v33 V0) (broadcastInDim Cert.ReferenceIdeal.S100000x1 ![0] Cert.ReferenceIdeal.Facts₀.bcast_S100000_S100000x1_0
        (select (cmpi .slt (V0 (Proc.devRef .tc Cert.ReferenceIdeal.main_arg7)) (broadcastInDim Cert.ReferenceIdeal.S100000 ![] Cert.ReferenceIdeal.Facts₀.bcast_S_S100000 (constantI Cert.ReferenceIdeal.S_ 32 0#32)))
          (addi (V0 (Proc.devRef .tc Cert.ReferenceIdeal.main_arg7)) (broadcastInDim Cert.ReferenceIdeal.S100000 ![] Cert.ReferenceIdeal.Facts₀.bcast_S_S100000 (constantI Cert.ReferenceIdeal.S_ 32 1000#32))) (V0 (Proc.devRef .tc Cert.ReferenceIdeal.main_arg7)))) (ix2 r j) := by
  unfold Cert.KernelIdeal.Hand.kGrp
  rw [gather_left _ _ _ _ r (colL j) j rfl, kMuG_eq, kIdxG_eq]

/-- RIGHT half of the columns: the reference's gather of the per-graph clamped variances. -/
theorem kGrp_right (V0 : Valuation Cert.ReferenceIdeal.τ Cert.ReferenceIdeal.sig (Elt Ideal)) (r : Fin 100000) (j : Fin 128) :
    Cert.KernelIdeal.Hand.kGrp (F := Ideal) (V0 (Proc.devRef .tc Cert.ReferenceIdeal.main_arg0)) (V0 (Proc.devRef .tc Cert.ReferenceIdeal.main_arg7)) (ix2 r (colR j))
      = Host.gather Cert.ReferenceIdeal.gather_S1000x128_S100000x1_S100000x128_1_0_n_n_0_1_1128 (maximumf
        (subf
          (Host.divf
            (Host.scatterAdd (F := Ideal) Cert.ReferenceIdeal.scatter_S1000x128_S100000x1_S100000x128_1_0_0_1 (broadcastInDim Cert.ReferenceIdeal.S1000x128 ![] Cert.ReferenceIdeal.Facts₀.bcast_S_S1000x128 (constant Cert.ReferenceIdeal.S_ .f32 0x00000000#32)) (broadcastInDim Cert.ReferenceIdeal.S100000x1 ![0] Cert.ReferenceIdeal.Facts₀.bcast_S100000_S100000x1_0 (V0 (Proc.devRef .tc Cert.ReferenceIdeal.main_arg7))) (mulf (V0 (Proc.devRef .tc Cert.ReferenceIdeal.main_arg0)) (V0 (Proc.devRef .tc Cert.ReferenceIdeal.main_arg0))))
            (broadcastInDim Cert.ReferenceIdeal.S1000x128 ![0, 1] Cert.ReferenceIdeal.Facts₀.bcast_S1000x1_S1000x128_0_1 (Cert.ReferenceIdeal.Value.res_main_v24 V0)))
          (mulf (Cert.ReferenceIdeal.Value.res_main_v33 V0) (Cert.ReferenceIdeal.Value.res_main_v33 V0)))
        (broadcastInDim Cert.ReferenceIdeal.S1000x128 ![] Cert.ReferenceIdeal.Facts₀.bcast_S_S1000x128 (constant Cert.ReferenceIdeal.S_ .f32 0x00000000#32))) (broadcastInDim Cert.ReferenceIdeal.S100000x1 ![0] Cert.ReferenceIdeal.Facts₀.bcast_S100000_S100000x1_0
        (select (cmpi .slt (V0 (Proc.devRef .tc Cert.ReferenceIdeal.main_arg7)) (broadcastInDim Cert.ReferenceIdeal.S100000 ![] Cert.ReferenceIdeal.Facts₀.bcast_S_S100000 (constantI Cert.ReferenceIdeal.S_ 32 0#32)))
          (addi (V0 (Proc.devRef .tc Cert.ReferenceIdeal.main_arg7)) (broadcastInDim Cert.ReferenceIdeal.S100000 ![] Cert.ReferenceIdeal.Facts₀.bcast_S_S100000 (constantI Cert.ReferenceIdeal.S_ 32 1000#32))) (V0 (Proc.devRef .tc Cert.ReferenceIdeal.main_arg7)))) (ix2 r j) := by
  unfold Cert.KernelIdeal.Hand.kGrp
  rw [gather_right _ _ _ _ r (colR j) j rfl, kVarG_eq, kIdxG_eq]

end Cert.Proof.Bridge

end
-- ==== Proof.BridgeC.lean ====
/-
  The kernel's host stages and the reference's own sub-terms, stage by stage (third part): per neighbourhood.
  The kernel sums the messages and their squares in one scatter-add of `[msg | msg²]` and lays means beside
  variances; column by column these are the reference's two scatter-adds.
-/
import proofs.«153265_j89558658056883_2_alg».proof.Proof.KHostDefs
import proofs.«153265_j89558658056883_2_alg».proof.Proof.Gen.ReferenceIdeal.Run
import proofs.«153265_j89558658056883_2_alg».proof.Proof.ScatterGatherCols
import proofs.«153265_j89558658056883_2_alg».proof.Proof.HostLayout

noncomputable section

namespace Cert.Proof.Bridge

open Idealize.ShloMosaic Idealize.ShloMosaic.ValueIdx

open Cert.Proof.ScatterGatherCols

/-- The messages: the kernel's stage is the reference's term. -/
theorem kMsg_eq (V0 : Valuation Cert.ReferenceIdeal.τ Cert.ReferenceIdeal.sig (Elt Ideal)) :
    Cert.KernelIdeal.Hand.kMsg (F := Ideal) (V0 (Proc.devRef .tc Cert.ReferenceIdeal.main_arg0)) (V0 (Proc.devRef .tc Cert.ReferenceIdeal.main_arg8)) = Cert.ReferenceIdeal.Value.res_main_v65 V0 := rfl

/-- The in-degrees: the kernel's stage is the reference's term. -/
theorem kDeg_eq (V0 : Valuation Cert.ReferenceIdeal.τ Cert.ReferenceIdeal.sig (Elt Ideal)) :
    Cert.KernelIdeal.Hand.kDeg (F := Ideal) (V0 (Proc.devRef .tc Cert.ReferenceIdeal.main_arg9)) = Cert.ReferenceIdeal.Value.res_main_v72 V0 := rfl

/-- The left half of the kernel's one neighbourhood scatter-add is the reference's sum of the messages. -/
theorem kSumA_left_eq (V0 : Valuation Cert.ReferenceIdeal.τ Cert.ReferenceIdeal.sig (Elt Ideal)) :
    extractStridedSlice Cert.KernelIdeal.S100000x128 ![0, 0] (Cert.KernelIdeal.Hand.kSumA (F := Ideal) (V0 (Proc.devRef .tc Cert.ReferenceIdeal.main_arg0)) (V0 (Proc.devRef .tc Cert.ReferenceIdeal.main_arg8)) (V0 (Proc.devRef .tc Cert.ReferenceIdeal.main_arg9))) Cert.KernelIdeal.Facts₀.slices_S100000x256_S100000x128_0_0
      = Host.scatterAdd (F := Ideal) Cert.ReferenceIdeal.scatter_S100000x128_S600000x1_S600000x128_1_0_0_1 (broadcastInDim Cert.ReferenceIdeal.S100000x128 ![] Cert.ReferenceIdeal.Facts₀.bcast_S_S100000x128 (constant Cert.ReferenceIdeal.S_ .f32 0x00000000#32)) (broadcastInDim Cert.ReferenceIdeal.S600000x1 ![0] Cert.ReferenceIdeal.Facts₀.bcast_S600000_S600000x1_0 (V0 (Proc.devRef .tc Cert.ReferenceIdeal.main_arg9))) (Cert.ReferenceIdeal.Value.res_main_v65 V0) := by
  funext i
  rw [eq_ix2 i]
  unfold Cert.KernelIdeal.Hand.kSumA Cert.KernelIdeal.Hand.kColD
  rw [kMsg_eq]
  exact neighbour_sums_left _ _ _ _ _ _ _ _ _

/-- The right half is the reference's sum of the squared messages. -/
theorem kSumA_right_eq (V0 : Valuation Cert.ReferenceIdeal.τ Cert.ReferenceIdeal.sig (Elt Ideal)) :
    extractStridedSlice Cert.KernelIdeal.S100000x128 ![0, 128] (Cert.KernelIdeal.Hand.kSumA (F := Ideal) (V0 (Proc.devRef .tc Cert.ReferenceIdeal.main_arg0)) (V0 (Proc.devRef .tc Cert.ReferenceIdeal.main_arg8)) (V0 (Proc.devRef .tc Cert.ReferenceIdeal.main_arg9))) Cert.KernelIdeal.Facts₀.slices_S100000x256_S100000x128_0_128
      = Host.scatterAdd (F := Ideal) Cert.ReferenceIdeal.scatter_S100000x128_S600000x1_S600000x128_1_0_0_1 (broadcastInDim Cert.ReferenceIdeal.S100000x128 ![] Cert.ReferenceIdeal.Facts₀.bcast_S_S100000x128 (constant Cert.ReferenceIdeal.S_ .f32 0x00000000#32)) (broadcastInDim Cert.ReferenceIdeal.S600000x1 ![0] Cert.ReferenceIdeal.Facts₀.bcast_S600000_S600000x1_0 (V0 (Proc.devRef .tc Cert.ReferenceIdeal.main_arg9))) (mulf (Cert.ReferenceIdeal.Value.res_main_v65 V0) (Cert.ReferenceIdeal.Value.res_main_v65 V0)) := by
  funext i
  rw [eq_ix2 i]
  unfold Cert.KernelIdeal.Hand.kSumA Cert.KernelIdeal.Hand.kColD
  rw [kMsg_eq]
  exact neighbour_sums_right _ _ _ _ _ _ _ _ _

/-- The neighbourhood means: the reference's term. -/
theorem kMuA_eq (V0 : Valuation Cert.ReferenceIdeal.τ Cert.ReferenceIdeal.sig (Elt Ideal)) :
    Cert.KernelIdeal.Hand.kMuA (F := Ideal) (V0 (Proc.devRef .tc Cert.ReferenceIdeal.main_arg0)) (V0 (Proc.devRef .tc Cert.ReferenceIdeal.main_arg8)) (V0 (Proc.devRef .tc Cert.ReferenceIdeal.main_arg9)) = Cert.ReferenceIdeal.Value.res_main_v81 V0 := by
  unfold Cert.KernelIdeal.Hand.kMuA
  rw [kSumA_left_eq, kDeg_eq]
  rfl

/-- Each node's neighbourhood statistics, LEFT half of the columns: the reference's neighbourhood mean. -/
theorem kAdj_left (V0 : Valuation Cert.ReferenceIdeal.τ Cert.ReferenceIdeal.sig (Elt Ideal)) (r : Fin 100000) (j : Fin 128) :
    Cert.KernelIdeal.Hand.kAdj (F := Ideal) (V0 (Proc.devRef .tc Cert.ReferenceIdeal.main_arg0)) (V0 (Proc.devRef .tc Cert.ReferenceIdeal.main_arg8)) (V0 (Proc.devRef .tc Cert.ReferenceIdeal.main_arg9)) (ix2 r (colL j)) = Cert.ReferenceIdeal.Value.res_main_v81 V0 (ix2 r j) := by
  unfold Cert.KernelIdeal.Hand.kAdj
  rw [concatenate_pair_apply_left 1 (Cert.KernelIdeal.Hand.kMuA (F := Ideal) (V0 (Proc.devRef .tc Cert.ReferenceIdeal.main_arg0)) (V0 (Proc.devRef .tc Cert.ReferenceIdeal.main_arg8)) (V0 (Proc.devRef .tc Cert.ReferenceIdeal.main_arg9))) (Cert.KernelIdeal.Hand.kVarA (F := Ideal) (V0 (Proc.devRef .tc Cert.ReferenceIdeal.main_arg0)) (V0 (Proc.devRef .tc Cert.ReferenceIdeal.main_arg8)) (V0 (Proc.devRef .tc Cert.ReferenceIdeal.main_arg9)))
    Cert.KernelIdeal.Facts₀.concatenates_S100000x128_S100000x128_S100000x256_d1 (ix2 r (colL j)) rfl (ix2 r j) (fun e => by
    match e with
    | ⟨0, _⟩ => rfl
    | ⟨1, _⟩ => rfl), kMuA_eq]

/-- RIGHT half of the columns: the reference's clamped neighbourhood variance, entry by entry — the mean of the
    squared messages (their sum over the in-degree) less the squared mean, floored at zero. -/
theorem kAdj_right (V0 : Valuation Cert.ReferenceIdeal.τ Cert.ReferenceIdeal.sig (Elt Ideal)) (r : Fin 100000) (j : Fin 128) :
    Cert.KernelIdeal.Hand.kAdj (F := Ideal) (V0 (Proc.devRef .tc Cert.ReferenceIdeal.main_arg0)) (V0 (Proc.devRef .tc Cert.ReferenceIdeal.main_arg8)) (V0 (Proc.devRef .tc Cert.ReferenceIdeal.main_arg9)) (ix2 r (colR j))
      = max (HSub.hSub (α := EReal) (β := EReal) (γ := EReal) (Ideal.div
              (Host.scatterAdd (F := Ideal) Cert.ReferenceIdeal.scatter_S100000x128_S600000x1_S600000x128_1_0_0_1 (broadcastInDim Cert.ReferenceIdeal.S100000x128 ![] Cert.ReferenceIdeal.Facts₀.bcast_S_S100000x128 (constant Cert.ReferenceIdeal.S_ .f32 0x00000000#32)) (broadcastInDim Cert.ReferenceIdeal.S600000x1 ![0] Cert.ReferenceIdeal.Facts₀.bcast_S600000_S600000x1_0 (V0 (Proc.devRef .tc Cert.ReferenceIdeal.main_arg9)))
                (mulf (Cert.ReferenceIdeal.Value.res_main_v65 V0) (Cert.ReferenceIdeal.Value.res_main_v65 V0)) (ix2 r j))
              (Cert.ReferenceIdeal.Value.res_main_v72 V0 (ix2 r (0 : Fin 1)))) (HMul.hMul (α := EReal) (β := EReal) (γ := EReal) (Cert.ReferenceIdeal.Value.res_main_v81 V0 (ix2 r j)) (Cert.ReferenceIdeal.Value.res_main_v81 V0 (ix2 r j))))
          (Ideal.ofBits .f32 0x00000000#32) := by
  unfold Cert.KernelIdeal.Hand.kAdj
  rw [concatenate_pair_apply_right 1 (Cert.KernelIdeal.Hand.kMuA (F := Ideal) (V0 (Proc.devRef .tc Cert.ReferenceIdeal.main_arg0)) (V0 (Proc.devRef .tc Cert.ReferenceIdeal.main_arg8)) (V0 (Proc.devRef .tc Cert.ReferenceIdeal.main_arg9))) (Cert.KernelIdeal.Hand.kVarA (F := Ideal) (V0 (Proc.devRef .tc Cert.ReferenceIdeal.main_arg0)) (V0 (Proc.devRef .tc Cert.ReferenceIdeal.main_arg8)) (V0 (Proc.devRef .tc Cert.ReferenceIdeal.main_arg9)))
    Cert.KernelIdeal.Facts₀.concatenates_S100000x128_S100000x128_S100000x256_d1 (ix2 r (colR j)) rfl rfl (ix2 r j) (fun e he => by
    match e with
    | ⟨0, _⟩ => rfl
    | ⟨1, _⟩ => exact absurd rfl he) (by show j.val + 128 = 128 + j.val; omega)]
  unfold Cert.KernelIdeal.Hand.kVarA
  rw [kSumA_right_eq, kMuA_eq, kDeg_eq, maximumf_apply, subf_apply, mulf_apply, hostDivf_apply,
    Cert.Combine.bcast_col_cols_apply, broadcastInDim_scalar_apply, constant_apply]

end Cert.Proof.Bridge

end
-- ==== Proof.Entry.lean ====
/-
  One entry of the kernel's result is the same entry of the reference's.

  The kernel's entry is `entryK` over four `branchK`s of its host stages read at the entry; the reference's is `entryR` over
  four `branchR`s of its own stages. The groupings agree (associativity and commutativity of the extended reals' product
  and sum), and stage by stage the reads agree: the scale, the shift and the four weights are the same numbers; the batch
  mean is the same term and the batch variance differs only by a clamp at zero that is idle on real data; the graph and
  neighbour statistics are the same segment sums, computed two columns at a time on one side; the row mean and variance are
  the same sums along the row.
-/
import proofs.«153265_j89558658056883_2_alg».proof.Proof.RefRead
import proofs.«153265_j89558658056883_2_alg».proof.Proof.NodeStats
import proofs.«153265_j89558658056883_2_alg».proof.Proof.KValue
import proofs.«153265_j89558658056883_2_alg».proof.Proof.BridgeA
import proofs.«153265_j89558658056883_2_alg».proof.Proof.BridgeB
import proofs.«153265_j89558658056883_2_alg».proof.Proof.BridgeC

set_option maxRecDepth 16384

noncomputable section

namespace Cert.Proof.Entry

open Cert.Combine Cert.Proof.Bridge Cert.ReferenceIdeal.RefValue Cert.KernelIdeal.HandValue
open Idealize.ShloMosaic Idealize.ShloMosaic.TcCoe Idealize.SL.Sem Idealize.ShloMosaic.ValueIdx

variable (V0 : Valuation Cert.ReferenceIdeal.τ Cert.ReferenceIdeal.sig (Elt Ideal))

/-- The edges' sources. -/
abbrev rdSrc : IVec Cert.ReferenceIdeal.S600000 32 := V0 (Proc.devRef .tc Cert.ReferenceIdeal.main_arg8)
/-- The four logit vectors. -/
abbrev rdL3 : FVec Ideal Cert.ReferenceIdeal.S128 .f32 := V0 (Proc.devRef .tc Cert.ReferenceIdeal.main_arg3)
abbrev rdL4 : FVec Ideal Cert.ReferenceIdeal.S128 .f32 := V0 (Proc.devRef .tc Cert.ReferenceIdeal.main_arg4)
abbrev rdL5 : FVec Ideal Cert.ReferenceIdeal.S128 .f32 := V0 (Proc.devRef .tc Cert.ReferenceIdeal.main_arg5)
abbrev rdL6 : FVec Ideal Cert.ReferenceIdeal.S128 .f32 := V0 (Proc.devRef .tc Cert.ReferenceIdeal.main_arg6)

open Cert.KernelIdeal.Hand in
/-- Entry `(r, j)` of the kernel's function of the reference's argument reads is entry `(r, j)` of the reference's result,
    when every entry of `x` is a real number. -/
theorem entry_eq (hfin : ∀ i, ∃ a : ℝ, (rdX V0) i = (a : EReal)) (r : Fin 100000) (j : Fin 128) :
    outAt (rdX V0) (kMuB (F := Ideal) (rdX V0)) (kVarB (F := Ideal) (rdX V0)) (kGrp (F := Ideal) (rdX V0) (rdGid V0))
        (kAdj (F := Ideal) (rdX V0) (rdSrc V0) (rdDst V0))
        (kLamRow0 (F := Ideal) (rdL3 V0) (rdL4 V0) (rdL5 V0) (rdL6 V0)) (kLamRow1 (F := Ideal) (rdL3 V0) (rdL4 V0) (rdL5 V0) (rdL6 V0))
        (kLamRow2 (F := Ideal) (rdL3 V0) (rdL4 V0) (rdL5 V0) (rdL6 V0)) (kLamRow3 (F := Ideal) (rdL3 V0) (rdL4 V0) (rdL5 V0) (rdL6 V0))
        (kRow (F := Ideal) (rdGam V0)) (kRow (F := Ideal) (rdBet V0)) r j
      = (Cert.ReferenceIdeal.Value.val4 (F := Ideal) V0 (Proc.devRef .tc Cert.ReferenceIdeal.main_v155) : FVec Ideal Cert.ReferenceIdeal.S100000x128 .f32) (ix2 r j) := by
  rw [ref_apply]
  unfold outAt
  rw [entryK_eq_entryR, branchK_eq_branchR, branchK_eq_branchR, branchK_eq_branchR, branchK_eq_branchR]
  have hg : kRow (F := Ideal) (rdGam V0) (ix2 (0 : Fin 1) j) = rdGam V0 (ix1 j) := kRow_apply _ j
  have hb : kRow (F := Ideal) (rdBet V0) (ix2 (0 : Fin 1) j) = rdBet V0 (ix1 j) := kRow_apply _ j
  have h0 : kLamRow0 (F := Ideal) (rdL3 V0) (rdL4 V0) (rdL5 V0) (rdL6 V0) (ix2 (0 : Fin 1) j) = r126 V0 (ix2 (0 : Fin 4) j) := kLamRow0_apply V0 j
  have h1 : kLamRow1 (F := Ideal) (rdL3 V0) (rdL4 V0) (rdL5 V0) (rdL6 V0) (ix2 (0 : Fin 1) j) = r126 V0 (ix2 (1 : Fin 4) j) := kLamRow1_apply V0 j
  have h2 : kLamRow2 (F := Ideal) (rdL3 V0) (rdL4 V0) (rdL5 V0) (rdL6 V0) (ix2 (0 : Fin 1) j) = r126 V0 (ix2 (2 : Fin 4) j) := kLamRow2_apply V0 j
  have h3 : kLamRow3 (F := Ideal) (rdL3 V0) (rdL4 V0) (rdL5 V0) (rdL6 V0) (ix2 (0 : Fin 1) j) = r126 V0 (ix2 (3 : Fin 4) j) := kLamRow3_apply V0 j
  have hmn : (rowMean fun k => rdX V0 (ix2 r k)) = r96 V0 (ix2 r (0 : Fin 1)) := (node_mean V0 r).symm
  have hvn : (rowVar fun k => rdX V0 (ix2 r k)) = varN V0 r := (node_var V0 _ _ r).symm
  have hmb : kMuB (F := Ideal) (rdX V0) (ix2 (0 : Fin 1) j) = r3 V0 (ix2 (0 : Fin 1) j) := congrFun (kMuB_eq V0) _
  have hvb : kVarB (F := Ideal) (rdX V0) (ix2 (0 : Fin 1) j) = varB V0 j := kVarB_apply V0 hfin j
  have hmg : kGrp (F := Ideal) (rdX V0) (rdGid V0) (ix2 r (colLo j)) = muG V0 r j := kGrp_left V0 r j
  have hvg : kGrp (F := Ideal) (rdX V0) (rdGid V0) (ix2 r (colHi j)) = varG V0 r j := kGrp_right V0 r j
  have hma : kAdj (F := Ideal) (rdX V0) (rdSrc V0) (rdDst V0) (ix2 r (colLo j)) = r81 V0 (ix2 r j) := kAdj_left V0 r j
  have hva : kAdj (F := Ideal) (rdX V0) (rdSrc V0) (rdDst V0) (ix2 r (colHi j)) = varA V0 r j := kAdj_right V0 r j
  rw [hg, hb, h0, h1, h2, h3, hmn, hvn, hmb, hvb, hmg, hvg, hma, hva]

end Cert.Proof.Entry

end
-- ==== Proof.lean ====
/-
  The certificate of the fused four-branch normalisation kernel against its reference.

  The kernel normalises every entry of a 100000 × 128 matrix four ways — by the statistics of its column over the whole
  batch, of its column over the node's graph, of its column over the node's in-neighbours, and of its own row — mixes the
  four with softmax weights and applies a scale and a shift. Its host part computes the batch, graph and neighbour
  statistics (segment sums by scatter-add, two columns at a time, and one gather of a two-column table); its one
  pallas_call, on 25 blocks of 4000 rows, computes the row statistics and the mix. The reference computes each branch
  separately and adds them in another order.

  Frames: the two kernel programs run to the end, fault nowhere and leave their arguments unchanged (the launch of the 25
  points with the body's run at a symbolic point); the reference's frame is its run with the result dropped. The
  idealisation rewrote nothing. Values, on the extended reals: the kernel's result array is ONE function of the arrays the
  region finds (the blocks tile the rows), whose entries are those of the reference's result: the groupings differ by
  associativity and commutativity only, the segment sums agree column by column, and the one real difference — the kernel
  floors the batch variance at zero — is idle because the variance of real numbers is not negative; this is where the
  finiteness of the inputs is used.
-/
import proofs.«153265_j89558658056883_2_alg».proof.Defs
import proofs.«153265_j89558658056883_2_alg».proof.Proof.Gen.Kernel
import proofs.«153265_j89558658056883_2_alg».proof.Proof.Gen.KernelIdeal
import proofs.«153265_j89558658056883_2_alg».proof.Proof.Gen.ReferenceIdeal
import proofs.«153265_j89558658056883_2_alg».proof.Proof.Gen.ReferenceIdeal.Run
import proofs.«153265_j89558658056883_2_alg».proof.Proof.Gen.Pre_finite_inputs
import proofs.«153265_j89558658056883_2_alg».proof.Proof.WordRun
import proofs.«153265_j89558658056883_2_alg».proof.Proof.KFinal
import proofs.«153265_j89558658056883_2_alg».proof.Proof.KHost
import proofs.«153265_j89558658056883_2_alg».proof.Proof.Finite
import proofs.«153265_j89558658056883_2_alg».proof.Proof.Entry

set_option maxRecDepth 16384

noncomputable section

namespace Cert.Proof

open Idealize.ShloMosaic Idealize.ShloMosaic.TcCoe Idealize.SL.Sem Idealize.ShloMosaic.ValueIdx Idealize.ShloMosaic.StableHlo

/-- The word-level kernel runs, faults nowhere and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does the kernel read on the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

open Cert.KernelIdeal Cert.KernelIdeal.Hand Cert.KernelIdeal.HandValue in
/-- From memories that agree on the arguments both programs end with the same result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => outArr (V m c main_arg0) (V m c main_v3) (V m c main_v12) (V m c main_v42) (V m c main_v72)
      (V m c main_v89) (V m c main_v90) (V m c main_v91) (V m c main_v92) (V m c main_v93) (V m c main_v94),
    Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Value.val4_main_v155 (launchContents m' c)).symm.trans ?_
  funext i
  obtain ⟨r, j, rfl⟩ : ∃ (r : Fin 100000) (j : Fin 128), i = ix2 r j := ⟨i 0, i 1, eq_ix2 i⟩
  obtain ⟨a0, a1, a2, a3, a4, a5, a6, a7, a8, a9⟩ := hagree c
  have hfin : ∀ i, ∃ a : ℝ, (Cert.ReferenceIdeal.RefValue.rdX (launchContents m' c)) i = (a : EReal) := by
    intro i
    have h := @Cert.Proof.Finite.x_finite Cert.KernelIdeal.Gen.facts Cert.Pre_finite_inputs.Gen.facts m hpre c i
    rw [← a0] at h
    exact h
  refine (Cert.Proof.Entry.entry_eq (launchContents m' c) hfin r j).symm.trans ?_
  show _ = outAt (V m c main_arg0) (V m c main_v3) (V m c main_v12) (V m c main_v42) (V m c main_v72)
      (V m c main_v89) (V m c main_v90) (V m c main_v91) (V m c main_v92) (V m c main_v93) (V m c main_v94) r j
  rw [V_main_arg0 m c, V_main_v3 m c, V_main_v12 m c, V_main_v42 m c, V_main_v72 m c, V_main_v89 m c, V_main_v90 m c,
    V_main_v91 m c, V_main_v92 m c, V_main_v93 m c, V_main_v94 m c]
  rw [← a0, ← a1, ← a2, ← a3, ← a4, ← a5, ← a6, ← a7, ← a8, ← a9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
